-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := mulf main_arg0 main_arg0
  let main_cst_0 : FVec F S_ .f32 := constant S_ .f32 0x00000000#32
  let main_v5 : FVec F S8192 .f32 := (fun x v => Host.reduceAdd x v reducesTo_S8192x256_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S256x256 : Shape := ⟨2, ![256, 256]⟩
abbrev S1024x1 : Shape := ⟨2, ![1024, 1]⟩
abbrev S1x256 : Shape := ⟨2, ![1, 256]⟩
abbrev S1024 : Shape := ⟨1, ![1024]⟩

abbrev nBuf : Space → Nat
  | .hbm => 24
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S1024x1, .i32⟩
  | .local _ .vmem, ⟨5, _⟩ => ⟨S1024x1, .i32⟩
  | .local _ .vmem, ⟨6, _⟩ => ⟨S1x256, .i32⟩
  | .local _ .vmem, ⟨7, _⟩ => ⟨S1x256, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v67 : BitVec 1 := Scalar.cmpi .eq arg1 c31_i32
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S1024x256_d0_w32 : S1024x256.Iotas .tc 32 [0]
  iota_S1024x256_d1_w32 : S1024x256.Iotas .tc 32 [1]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  natLt_1_32 : 1 < 32
  reduces_S1024x256_S1024 : S1024x256.Reduces [1] S1024
  shapeCasts_S1024_S1024x1 : S1024.ShapeCasts S1024x1
  reducesTo_S8192x1_S_d0_1 : S8192x1.ReducesTo [0, 1] S_
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x256.size a
  hwx0_1 : ∀ i : grid0.Coords, EltTy.bits .bf16 = 32 ∨ (Rect.block (s := S8192x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .i1⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  natLt_1_32 : 1 < 32
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrBaseK.lean ====
/- The frame of `Kernel`: what its three control cases share.

   The grid is 8 × 32, row-major: point t has row block t / 32 and column block t % 32. The body resets its four
   carried columns at the first column block (t % 32 = 0), and stores the two results at the last (t % 32 = 31);
   at every other point the two result windows are left untouched and are not written back. The four input
   windows hold their blocks at every point. @main runs ten host operations, the region, ten host operations. -/
import proofs.«129543_j5634997093327_1_alg».proof.Proof.Gen.Kernel.Launch
import proofs.«129543_j5634997093327_1_alg».proof.Proof.Gen.Kernel.Skeleton
import proofs.«129543_j5634997093327_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the ten host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "This is the first column block": the body's first `scf.if`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last column block": the body's second `scf.if`. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- The second coordinate of a point is its column block. -/
theorem coord1_val : ∀ t : Fin cfg0.N, ((grid0.coords t) 1).val = t.val % 32 :=
  (by decide +kernel : ∀ t : Fin grid0.N, ((grid0.coords t) 1).val = t.val % 32)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The four carried columns: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
/-- One view per buffer shape through which contents are stated. -/
abbrev VC : View sig .tc .vmem S1024x1 .f32 := scM0_0.view

/-- What the launch hands the body beside the windows: the four carried columns at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.FrRunAK.lean ====
/- The body of `Kernel` at a first column block (the reset is taken, the results are not stored): run once on
   symbolic operands. The four carried columns are found at anything and left with the pieces the run names;
   the two result buffers are handed back as they were found. -/
import proofs.«129543_j5634997093327_1_alg».proof.Proof.FrBaseK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x256 .bf16) (x1 : Vec F S256x256 .bf16) (x2 : Vec F S1024x1 .i32) (x3 : Vec F S1x256 .i32) :
    Σ' (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%ds8, %fs8, -, HS8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [HS8]; · iexists _; iexact HS8
    isplitl [HS9]; · iexists _; iexact HS9
    isplitl [HS10]; · iexists _; iexact HS10
    iexists _; iexact HS11

end Cert.Kernel.Fr

end
-- ==== Proof.FrRunBK.lean ====
/- The body of `Kernel` at a column block that is neither first nor last (no reset, no result stored): run once on
   symbolic operands. The four carried columns are found at what the point before left and left with the pieces
   the run names; the two result buffers are handed back as they were found. -/
import proofs.«129543_j5634997093327_1_alg».proof.Proof.FrRunAK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x256 .bf16) (x1 : Vec F S256x256 .bf16) (x2 : Vec F S1024x1 .i32) (x3 : Vec F S1x256 .i32) (xs8 xs9 xs10 xs11 : Vec F S1024x1 .f32) :
    Σ' (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%fs8, %hfs8, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    obtain rfl := harg8.eq_unread hfs8; obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [HS8]; · iexists _; iexact HS8
    isplitl [HS9]; · iexists _; iexact HS9
    isplitl [HS10]; · iexists _; iexact HS10
    iexists _; iexact HS11

end Cert.Kernel.Fr

end
-- ==== Proof.FrRunCK.lean ====
/- The body of `Kernel` at a last column block (no reset, the two results stored): run once on symbolic operands.
   The four carried columns are found at what the point before left; they and the two result buffers are left
   with the pieces the run names. -/
import proofs.«129543_j5634997093327_1_alg».proof.Proof.FrRunBK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x256 .bf16) (x1 : Vec F S256x256 .bf16) (x2 : Vec F S1024x1 .i32) (x3 : Vec F S1x256 .i32) (xs8 xs9 xs10 xs11 : Vec F S1024x1 .f32) :
    Σ' (L6 : List (View.Piece (Elt F) S1024x1 .f32)) (L7 : List (View.Piece (Elt F) S1024x1 .f32)) (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%fs8, %hfs8, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg8.eq_unread hfs8; obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [HS8]; · iexists _; iexact HS8
    isplitl [HS9]; · iexists _; iexact HS9
    isplitl [HS10]; · iexists _; iexact HS10
    iexists _; iexact HS11

end Cert.Kernel.Fr

end
-- ==== Proof.FrCasesK.lean ====
/- The frame of `Kernel`: what the carried columns and the two result buffers hold after each grid point, the
   proof data of the pipeline, and the body's obligation at every point.

   The columns after a point are read back from the pieces the point's run stores (`colsA`, `colsB`, `colsC` by the
   point's case); `outsAt0` follows them along the grid, each point starting from what the point before left. The
   two input windows that read the normalized features hold that one array at the two halves of the full share. -/
import proofs.«129543_j5634997093327_1_alg».proof.Proof.FrRunCK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the four carried columns. -/
structure Cols (F : FTy → Type) where
  c8 : Vec F S1024x1 .f32
  c9 : Vec F S1024x1 .f32
  c10 : Vec F S1024x1 .f32
  c11 : Vec F S1024x1 .f32

/-- A list of pieces read back as the contents of a 1024×1 buffer they cover. -/
def rb (L : List (View.Piece (Elt F) S1024x1 .f32)) : Vec F S1024x1 .f32 := VC.read (Elt F) (VC.writes (Elt F) VC.junk L)

/-- Each list of pieces the runs name is one whole-buffer store (or the reset's followed by it): it covers the buffer. -/
theorem cover_of (L : List (View.Piece (Elt F) S1024x1 .f32)) (h : View.Piece.tiledL L S1024x1.size = true) (y : S1024x1.Idx) :
    ∃ pc ∈ L, y ∈ pc.1.set := View.cover_of_tiledL L S1024x1.size h y

/-! ## The three cases at a grid point -/

section Cases
variable (c : Dev nD) (t : Fin cfg0.N)

def runA (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)
def runB (hc0 : ¬cond0_0 (grid0.coords t)) (hc1 : ¬cond0_1 (grid0.coords t)) (xs : Cols F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11
def runC (hc0 : ¬cond0_0 (grid0.coords t)) (hc1 : cond0_1 (grid0.coords t)) (xs : Cols F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11

def colsA (hc0 : cond0_0 (grid0.coords t)) (hc1 : ¬cond0_1 (grid0.coords t)) : Cols F :=
  ⟨rb (runA m c t hc0 hc1).1, rb (runA m c t hc0 hc1).2.1, rb (runA m c t hc0 hc1).2.2.1, rb (runA m c t hc0 hc1).2.2.2.1⟩
def colsB (hc0 : ¬cond0_0 (grid0.coords t)) (hc1 : ¬cond0_1 (grid0.coords t)) (xs : Cols F) : Cols F :=
  ⟨rb (runB m c t hc0 hc1 xs).1, rb (runB m c t hc0 hc1 xs).2.1, rb (runB m c t hc0 hc1 xs).2.2.1, rb (runB m c t hc0 hc1 xs).2.2.2.1⟩
def colsC (hc0 : ¬cond0_0 (grid0.coords t)) (hc1 : cond0_1 (grid0.coords t)) (xs : Cols F) : Cols F :=
  ⟨rb (runC m c t hc0 hc1 xs).2.2.1, rb (runC m c t hc0 hc1 xs).2.2.2.1, rb (runC m c t hc0 hc1 xs).2.2.2.2.1, rb (runC m c t hc0 hc1 xs).2.2.2.2.2.1⟩
def out6C (hc0 : ¬cond0_0 (grid0.coords t)) (hc1 : cond0_1 (grid0.coords t)) (xs : Cols F) : Vec F S1024x1 .f32 := rb (runC m c t hc0 hc1 xs).1
def out7C (hc0 : ¬cond0_0 (grid0.coords t)) (hc1 : cond0_1 (grid0.coords t)) (xs : Cols F) : Vec F S1024x1 .f32 := rb (runC m c t hc0 hc1 xs).2.1

theorem tiledA8 (hc0) (hc1) : View.Piece.tiledL (runA m c t hc0 hc1).1 S1024x1.size = true := by sl_kernel_rfl
theorem tiledA9 (hc0) (hc1) : View.Piece.tiledL (runA m c t hc0 hc1).2.1 S1024x1.size = true := by sl_kernel_rfl
theorem tiledA10 (hc0) (hc1) : View.Piece.tiledL (runA m c t hc0 hc1).2.2.1 S1024x1.size = true := by sl_kernel_rfl
theorem tiledA11 (hc0) (hc1) : View.Piece.tiledL (runA m c t hc0 hc1).2.2.2.1 S1024x1.size = true := by sl_kernel_rfl
theorem tiledB8 (hc0) (hc1) (xs) : View.Piece.tiledL (runB m c t hc0 hc1 xs).1 S1024x1.size = true := by sl_kernel_rfl
theorem tiledB9 (hc0) (hc1) (xs) : View.Piece.tiledL (runB m c t hc0 hc1 xs).2.1 S1024x1.size = true := by sl_kernel_rfl
theorem tiledB10 (hc0) (hc1) (xs) : View.Piece.tiledL (runB m c t hc0 hc1 xs).2.2.1 S1024x1.size = true := by sl_kernel_rfl
theorem tiledB11 (hc0) (hc1) (xs) : View.Piece.tiledL (runB m c t hc0 hc1 xs).2.2.2.1 S1024x1.size = true := by sl_kernel_rfl
theorem tiledC6 (hc0) (hc1) (xs) : View.Piece.tiledL (runC m c t hc0 hc1 xs).1 S1024x1.size = true := by sl_kernel_rfl
theorem tiledC7 (hc0) (hc1) (xs) : View.Piece.tiledL (runC m c t hc0 hc1 xs).2.1 S1024x1.size = true := by sl_kernel_rfl
theorem tiledC8 (hc0) (hc1) (xs) : View.Piece.tiledL (runC m c t hc0 hc1 xs).2.2.1 S1024x1.size = true := by sl_kernel_rfl
theorem tiledC9 (hc0) (hc1) (xs) : View.Piece.tiledL (runC m c t hc0 hc1 xs).2.2.2.1 S1024x1.size = true := by sl_kernel_rfl
theorem tiledC10 (hc0) (hc1) (xs) : View.Piece.tiledL (runC m c t hc0 hc1 xs).2.2.2.2.1 S1024x1.size = true := by sl_kernel_rfl
theorem tiledC11 (hc0) (hc1) (xs) : View.Piece.tiledL (runC m c t hc0 hc1 xs).2.2.2.2.2.1 S1024x1.size = true := by sl_kernel_rfl

end Cases

end Cert.Kernel.Fr

end
-- ==== Proof.FrDatK.lean ====
/- The frame of `Kernel`: the carried columns and the result buffers along the grid, and the pipeline's proof data. -/
import proofs.«129543_j5634997093327_1_alg».proof.Proof.FrCasesK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the columns and the result buffers hold after each point -/

/-- After the body at position `n`: the four carried columns, and the two result buffers (meaningful at the last
    column block of a row block only: elsewhere a placeholder nothing consults, the windows being idle there). The
    case is selected by n mod 32; a point that is not a first column block starts from what the point before left. -/
def outsAt0 (c : Dev nD) : (n : ℕ) → n < cfg0.N → Cols F × Vec F S1024x1 .f32 × Vec F S1024x1 .f32
  | 0, hn => (colsA m c ⟨0, hn⟩ ((hcond0_0 ⟨0, hn⟩).mpr (Nat.zero_mod _)) (fun h => (fun h => by (try dsimp only at h); omega) ((hcond0_1 ⟨0, hn⟩).mp h)), rb [], rb [])
  | n + 1, hn =>
    if h0 : (n + 1) % 32 = 0 then
      (colsA m c ⟨n + 1, hn⟩ ((hcond0_0 ⟨n + 1, hn⟩).mpr h0) (fun h => (fun h => by (try dsimp only at h); omega) ((hcond0_1 ⟨n + 1, hn⟩).mp h)), rb [], rb [])
    else
      if h1 : (n + 1) % 32 = 31 then
        (colsC m c ⟨n + 1, hn⟩ (fun h => h0 ((hcond0_0 ⟨n + 1, hn⟩).mp h)) ((hcond0_1 ⟨n + 1, hn⟩).mpr h1) (outsAt0 c n (Nat.lt_of_succ_lt hn)).1,
         out6C m c ⟨n + 1, hn⟩ (fun h => h0 ((hcond0_0 ⟨n + 1, hn⟩).mp h)) ((hcond0_1 ⟨n + 1, hn⟩).mpr h1) (outsAt0 c n (Nat.lt_of_succ_lt hn)).1,
         out7C m c ⟨n + 1, hn⟩ (fun h => h0 ((hcond0_0 ⟨n + 1, hn⟩).mp h)) ((hcond0_1 ⟨n + 1, hn⟩).mpr h1) (outsAt0 c n (Nat.lt_of_succ_lt hn)).1)
      else
        (colsB m c ⟨n + 1, hn⟩ (fun h => h0 ((hcond0_0 ⟨n + 1, hn⟩).mp h)) (fun h => h1 ((hcond0_1 ⟨n + 1, hn⟩).mp h)) (outsAt0 c n (Nat.lt_of_succ_lt hn)).1, rb [], rb [])

theorem outsAt0_A (c : Dev nD) (t : Fin cfg0.N) (h0 : t.val % 32 = 0) (h1 : ¬t.val % 32 = 31) :
    outsAt0 m c t.val t.isLt = (colsA m c t ((hcond0_0 t).mpr h0) (fun h => h1 ((hcond0_1 t).mp h)), rb [], rb []) := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 m c t.val t.isLt = (colsB m c t (fun h => h0 ((hcond0_0 t).mp h)) (fun h => h1 ((hcond0_1 t).mp h)) (outsAt0 m c (t.val - 1) (Nat.lt_of_le_of_lt (Nat.sub_le _ _) t.isLt)).1, rb [], rb []) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (colsC m c t (fun h => h0 ((hcond0_0 t).mp h)) ((hcond0_1 t).mpr h1) (outsAt0 m c (t.val - 1) (Nat.lt_of_le_of_lt (Nat.sub_le _ _) t.isLt)).1, out6C m c t (fun h => h0 ((hcond0_0 t).mp h)) ((hcond0_1 t).mpr h1) (outsAt0 m c (t.val - 1) (Nat.lt_of_le_of_lt (Nat.sub_le _ _) t.isLt)).1, out7C m c t (fun h => h0 ((hcond0_0 t).mp h)) ((hcond0_1 t).mpr h1) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-- The four carried columns owned at given contents. -/
def colsAt (c : Dev nD) (x : Cols F) : sProp 𝕄 :=
  iprop(owns (c : Thread nD τ) scM0_0 fullShare x.c8 ∗ owns (c : Thread nD τ) scM0_1 fullShare x.c9 ∗ owns (c : Thread nD τ) scM0_2 fullShare x.c10 ∗ owns (c : Thread nD τ) scM0_3 fullShare x.c11)

/-- The region invariant before position `n`: before the first point the four columns at anything; afterwards at what
    the point before left; beside them the generator register. -/
def PhiS (c : Dev nD) : (n : ℕ) → n ≤ cfg0.N → sProp 𝕄
  | 0, _ => Pipeline.ΦA spec0 c
  | n + 1, hn => iprop(colsAt c (outsAt0 m c n hn).1 ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(colsAt c (outsAt0 m c n hn).1 ∗ (∃ r, prngReg c r)) := rfl
theorem PhiS_pos (c : Dev nD) (n : ℕ) (h : n ≤ cfg0.N) (hz : n ≠ 0) :
    PhiS m c n h = iprop(colsAt c (outsAt0 m c (n - 1) (by omega)).1 ∗ (∃ r, prngReg c r)) := by
  cases n with
  | zero => exact absurd rfl hz
  | succ n => rfl

/-! ## The pipeline's proof data -/

/-- The proof data on core `c`: the arrays as the region finds them; after the body each input's buffer at its
    block and the results' at `outsAt0`; the invariant `PhiS`; nothing owed. The normalized features are read
    through two windows: each holds that array at one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).2.1
    | ⟨5, _⟩ => (outsAt0 m c t.val t.isLt).2.2
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.Kernel.Fr

end
-- ==== Proof.FrBodyK.lean ====
/- The frame of `Kernel`: the body's obligation at every grid point. The point's case is read off t mod 32; the
   invariant hands the body the carried columns at what the point before left (at anything before the first
   point) and takes them back at this point's contents; an idle result window is handed back untouched. -/
import proofs.«129543_j5634997093327_1_alg».proof.Proof.FrDatK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    by_cases hz : t.val = 0
    · rw [PhiS_castSucc m c t, PhiS_zero m c _ _ hz, PhiA0_eq]
      unfold colsA colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledA8 m c t _ _))
          isplitl [HS9]
          · unfold owns; iexists _; isplitr
            swap; · iexact HS9
            ipureintro; exact View.read_writes_of_cover _ _ _ _ _ (cover_of _ (tiledA9 m c t _ _))
          isplitl [HS10]
          · unfold owns; iexists _; isplitr
            swap; · iexact HS10
            ipureintro; exact View.read_writes_of_cover _ _ _ _ _ (cover_of _ (tiledA10 m c t _ _))
          · unfold owns; iexists _; isplitr
            swap; · iexact HS11
            ipureintro; exact View.read_writes_of_cover _ _ _ _ _ (cover_of _ (tiledA11 m c t _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      unfold colsA colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexists _; iexact HS8
      isplitl [HS9]; · iexists _; iexact HS9
      isplitl [HS10]; · iexists _; iexact HS10
      isplitl [HS11]; · iexists _; iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledA8 m c t _ _))
          isplitl [HS9]
          · unfold owns; iexists _; isplitr
            swap; · iexact HS9
            ipureintro; exact View.read_writes_of_cover _ _ _ _ _ (cover_of _ (tiledA9 m c t _ _))
          isplitl [HS10]
          · unfold owns; iexists _; isplitr
            swap; · iexact HS10
            ipureintro; exact View.read_writes_of_cover _ _ _ _ _ (cover_of _ (tiledA10 m c t _ _))
          · unfold owns; iexists _; isplitr
            swap; · iexact HS11
            ipureintro; exact View.read_writes_of_cover _ _ _ _ _ (cover_of _ (tiledA11 m c t _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 32 = 31
    · rw [show (dats m 0 c).leavesExact 4 t = owns (c : Thread nD τ) (ms0_4 t) fullShare ((dats m 0 c).after 4 t) from by
      unfold Dat.leavesExact; rw [liveAt0_4 t ((hcond0_1 t).mpr h1)], after0_4]
      rw [show (dats m 0 c).leavesExact 5 t = owns (c : Thread nD τ) (ms0_5 t) fullShare ((dats m 0 c).after 5 t) from by
      unfold Dat.leavesExact; rw [liveAt0_5 t ((hcond0_1 t).mpr h1)], after0_5]
      rw [outsAt0_C m c t h0 h1]
      rw [PhiS_castSucc m c t, PhiS_pos m c _ _ hz]
      unfold colsC out6C out7C colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runC m c t (fun h => h0 ((hcond0_0 t).mp h)) ((hcond0_1 t).mpr h1) _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS8]; · iexact HS8
      isplitl [HS9]; · iexact HS9
      isplitl [HS10]; · iexact HS10
      isplitl [HS11]; · iexact HS11
      iintro ⟨H0, H1, H2, H3, ⟨%e6, H4⟩, ⟨%e7, H5⟩, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledC8 m c t _ _ _))
          isplitl [HS9]
          · unfold owns; iexists _; isplitr
            swap; · iexact HS9
            ipureintro; exact View.read_writes_of_cover _ _ _ _ _ (cover_of _ (tiledC9 m c t _ _ _))
          isplitl [HS10]
          · unfold owns; iexists _; isplitr
            swap; · iexact HS10
            ipureintro; exact View.read_writes_of_cover _ _ _ _ _ (cover_of _ (tiledC10 m c t _ _ _))
          · unfold owns; iexists _; isplitr
            swap; · iexact HS11
            ipureintro; exact View.read_writes_of_cover _ _ _ _ _ (cover_of _ (tiledC11 m c t _ _ _))
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_of _ (tiledC6 m c t _ _ _))
      · unfold owns; iexists _; isplitr
        swap; · iexact H5
        ipureintro; exact View.read_writes_of_cover _ _ _ _ _ (cover_of _ (tiledC7 m c t _ _ _))
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      rw [PhiS_castSucc m c t, PhiS_pos m c _ _ hz]
      unfold colsB colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runB m c t (fun h => h0 ((hcond0_0 t).mp h)) (fun h => h1 ((hcond0_1 t).mp h)) _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledB8 m c t _ _ _))
          isplitl [HS9]
          · unfold owns; iexists _; isplitr
            swap; · iexact HS9
            ipureintro; exact View.read_writes_of_cover _ _ _ _ _ (cover_of _ (tiledB9 m c t _ _ _))
          isplitl [HS10]
          · unfold owns; iexists _; isplitr
            swap; · iexact HS10
            ipureintro; exact View.read_writes_of_cover _ _ _ _ _ (cover_of _ (tiledB10 m c t _ _ _))
          · unfold owns; iexists _; isplitr
            swap; · iexact HS11
            ipureintro; exact View.read_writes_of_cover _ _ _ _ _ (cover_of _ (tiledB11 m c t _ _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, the columns' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold colsAt
  iintro ⟨⟨HS8, HS9, HS10, HS11⟩, Hg⟩
  isplitl [HS8 HS9 HS10 HS11]
  · isplitl [HS8]; · iexists _; iexact HS8
    isplitl [HS9]; · iexists _; iexact HS9
    isplitl [HS10]; · iexists _; iexact HS10
    iexists _; iexact HS11
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Fr

end
-- ==== Proof.FrShareK.lean ====
/- The frame of `Kernel`: the five arrays behind the six windows. The normalized features are read through two
   windows; the core holds that array whole, and hands each window one half of the full share. -/
import proofs.«129543_j5634997093327_1_alg».proof.Proof.FrBodyK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_v6, main_v7, main_v8, main_v9_0, main_v9_1] (by decide) (by decide) _

/-- The six windows' arrays, each at its share, listed. -/
theorem arrays_eq6 (c : Dev nD) (A : (w : Fin cfg0.W) → Buf (Elt F) ((cfg0.win w).arr.view.loc (c : Thread nD τ))) :
    ((dats m 0 c).arrays A : sProp 𝕄)
      = iprop((((c : Thread nD τ).loc main_v6) ↦{fullShare.left} A 0) ∗ (((c : Thread nD τ).loc main_v6) ↦{fullShare.right} A 1) ∗ (((c : Thread nD τ).loc main_v7) ↦{fullShare} A 2) ∗ (((c : Thread nD τ).loc main_v8) ↦{fullShare} A 3) ∗ (((c : Thread nD τ).loc main_v9_0) ↦{fullShare} A 4) ∗ (((c : Thread nD τ).loc main_v9_1) ↦{fullShare} A 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

end Cert.Kernel.Fr

end
-- ==== Proof.FrLaunchK.lean ====
/- The frame of `Kernel`: the launch. The region is entered with the five arrays whole, the normalized features split
   between the two windows that read them; at the exit the halves are joined again, the ten host operations after
   the region run over all the unscoped buffers, and the final state is read off what they leave. -/
import proofs.«129543_j5634997093327_1_alg».proof.Proof.FrShareK

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: the entry contents, with the two result arrays as the
    write-backs left them. -/
def Wexit (c : Dev nD) : Valuation τ sig (Elt F) :=
  StableHlo.after [StableHlo.nullary main_v9_0 ((dats m 0 c).arrAt 4 cfg0.N), StableHlo.nullary main_v9_1 ((dats m 0 c).arrAt 5 cfg0.N)] (V0 m c)

/-- The contents after the ten host operations that follow the region. -/
def Wfin (c : Dev nD) : Valuation τ sig (Elt F) := StableHlo.after ([hostOps1] : List (List (HloOp τ sig (Elt F)))).flatten (Wexit m c)

theorem Wexit_v90 (c : Dev nD) : Wexit m c (main_v9_0 : Ref sig .tc) = (dats m 0 c).arrAt 4 cfg0.N := by
  unfold Wexit
  rw [StableHlo.after_cons, StableHlo.after_cons, StableHlo.after_nil, HloOp.result_of_not_mem _ _ (by
    simp only [StableHlo.nullary_writes, Finset.mem_singleton]; exact StableHlo.devRef_ne_of_ne (by decide)), StableHlo.nullary_result]

theorem Wexit_v91 (c : Dev nD) : Wexit m c (main_v9_1 : Ref sig .tc) = (dats m 0 c).arrAt 5 cfg0.N := by
  unfold Wexit
  rw [StableHlo.after_cons, StableHlo.after_cons, StableHlo.after_nil, StableHlo.nullary_result]

theorem Wexit_other (c : Dev nD) (b : Ref sig .tc) (h0 : b ≠ main_v9_0) (h1 : b ≠ main_v9_1) : Wexit m c (b : Ref sig .tc) = V m c b := by
  unfold Wexit
  rw [StableHlo.after_cons, StableHlo.after_cons, StableHlo.after_nil,
    HloOp.result_of_not_mem _ _ (by simp only [StableHlo.nullary_writes, Finset.mem_singleton]; exact StableHlo.devRef_ne_of_ne h1),
    HloOp.result_of_not_mem _ _ (by simp only [StableHlo.nullary_writes, Finset.mem_singleton]; exact StableHlo.devRef_ne_of_ne h0)]

/-- An input window's array is never written: it ends as the region found it. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At the entry: the five arrays whole make the six windows' arrays, the normalized features split in two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq, arrays_eq6]
  iintro ⟨H6, H7, H8, H90, H91⟩
  ihave H := (pointsTo_share (PosShare.mem_left_op_right fullShare)).1 $$ H6
  icases H with ⟨H6l, H6r⟩
  isplitl [H6l]; · iexact H6l
  isplitl [H6r]; · iexact H6r
  isplitl [H7]; · iexact H7
  isplitl [H8]; · iexact H8
  isplitl [H90]; · iexact H90
  iexact H91

/-- At the exit: the six windows' arrays make the five arrays whole again, at the exit contents. -/
theorem hmerge (c : Dev nD) :
    ((dats m 0 c).arrays ((dats m 0 c).arrAt · cfg0.N) : sProp 𝕄) ⊢ Pipeline.arrBufs (Ix := Unit) (Name := ℕ) (U := UR sig nD τ) (Lvl := ℕ) spec0 c (fun b => Wexit m c b) := by
  rw [arrBufs_eq, arrays_eq6]
  rw [arrAt_in_eq m c 0 rfl, arrAt_in_eq m c 1 rfl, arrAt_in_eq m c 2 rfl, arrAt_in_eq m c 3 rfl]
  rw [Wexit_v90, Wexit_v91, Wexit_other m c main_v6 (by decide) (by decide), Wexit_other m c main_v7 (by decide) (by decide), Wexit_other m c main_v8 (by decide) (by decide)]
  iintro ⟨H6l, H6r, H7, H8, H90, H91⟩
  isplitl [H6l H6r]
  · iapply (pointsTo_share (PosShare.mem_left_op_right fullShare)).2
    isplitl [H6l]; · iexact H6l
    iexact H6r
  isplitl [H7]; · iexact H7
  isplitl [H8]; · iexact H8
  isplitl [H90]; · iexact H90
  iexact H91

/-- What bypasses the region: the unscoped buffers that are no window's array, at the entry contents; -/
abbrev Zin (c : Dev nD) : sProp 𝕄 := Pipeline.unscopedRest (Ix := Unit) (Name := ℕ) (U := UR sig nD τ) (Lvl := ℕ) spec0 c (V m c)
/-- and after the ten host operations that follow the region. -/
abbrev Zfin (c : Dev nD) : sProp 𝕄 := Pipeline.unscopedRest (Ix := Unit) (Name := ℕ) (U := UR sig nD τ) (Lvl := ℕ) spec0 c (fun b => Wfin m c b)

theorem rest_congr (c : Dev nD) :
    Zin m c = Pipeline.unscopedRest (Ix := Unit) (Name := ℕ) (U := UR sig nD τ) (Lvl := ℕ) spec0 c (fun b => Wexit m c b) := by
  unfold Zin Pipeline.unscopedRest
  exact bigSep_congr fun b hb => by
    have hb' := (Finset.mem_sdiff.mp hb).2
    dsimp only
    rw [Wexit_other m c b (fun h => hb' (h ▸ Finset.mem_image.mpr ⟨4, Finset.mem_univ _, rfl⟩)) (fun h => hb' (h ▸ Finset.mem_image.mpr ⟨5, Finset.mem_univ _, rfl⟩))]

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- All the unscoped buffers at a valuation: the five arrays and the rest. -/
theorem held_all (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b) ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W, Pipeline.unscopedBufs_split₀ cfgs 0 winFacts₀0.arr_unscoped c]

/-! The ten host operations after the region write none of the five arrays, nor the two arguments. -/
theorem Wfin_main_v6 (c : Dev nD) : Wfin m c (main_v6 : Ref sig .tc) = Wexit m c (main_v6 : Ref sig .tc) := by
  unfold Wfin
  exact StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v7 (c : Dev nD) : Wfin m c (main_v7 : Ref sig .tc) = Wexit m c (main_v7 : Ref sig .tc) := by
  unfold Wfin
  exact StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v8 (c : Dev nD) : Wfin m c (main_v8 : Ref sig .tc) = Wexit m c (main_v8 : Ref sig .tc) := by
  unfold Wfin
  exact StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v9_0 (c : Dev nD) : Wfin m c (main_v9_0 : Ref sig .tc) = Wexit m c (main_v9_0 : Ref sig .tc) := by
  unfold Wfin
  exact StableHlo.after_of_forall_not_mem (b := Proc.devRef .tc main_v9_0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v9_1 (c : Dev nD) : Wfin m c (main_v9_1 : Ref sig .tc) = Wexit m c (main_v9_1 : Ref sig .tc) := by
  unfold Wfin
  exact StableHlo.after_of_forall_not_mem (b := Proc.devRef .tc main_v9_1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_arg0 (c : Dev nD) : Wfin m c (main_arg0 : Ref sig .tc) = Wexit m c (main_arg0 : Ref sig .tc) := by
  unfold Wfin
  exact StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_arg1 (c : Dev nD) : Wfin m c (main_arg1 : Ref sig .tc) = Wexit m c (main_arg1 : Ref sig .tc) := by
  unfold Wfin
  exact StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- After the host operations the five arrays whole make the six windows' arrays again. -/
theorem hsplit_fin (c : Dev nD) :
    (Pipeline.arrBufs (Ix := Unit) (Name := ℕ) (U := UR sig nD τ) (Lvl := ℕ) spec0 c (fun b => Wfin m c b) : sProp 𝕄) ⊢ (dats m 0 c).arrays ((dats m 0 c).arrAt · cfg0.N) := by
  rw [arrBufs_eq, arrays_eq6]
  rw [arrAt_in_eq m c 0 rfl, arrAt_in_eq m c 1 rfl, arrAt_in_eq m c 2 rfl, arrAt_in_eq m c 3 rfl]
  dsimp only
  rw [Wfin_main_v6, Wfin_main_v7, Wfin_main_v8, Wfin_main_v9_0, Wfin_main_v9_1]
  rw [Wexit_v90, Wexit_v91, Wexit_other m c main_v6 (by decide) (by decide), Wexit_other m c main_v7 (by decide) (by decide), Wexit_other m c main_v8 (by decide) (by decide)]
  iintro ⟨H6, H7, H8, H90, H91⟩
  ihave H := (pointsTo_share (PosShare.mem_left_op_right fullShare)).1 $$ H6
  icases H with ⟨H6l, H6r⟩
  isplitl [H6l]; · iexact H6l
  isplitl [H6r]; · iexact H6r
  isplitl [H7]; · iexact H7
  isplitl [H8]; · iexact H8
  isplitl [H90]; · iexact H90
  iexact H91

set_option backward.isDefEq.respectTransparency.types false in
/-- The host operations after the region: from the region's exit they run over all the unscoped buffers and hand back
    the windows' arrays and the rest at what they leave. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N) ∗ Zin m c)
      ⊢ wp frame (wpE (defs (F := F)) (Variants.lift Variants.none) (c : Thread nD τ) none) Set.univ (Pipeline.chain (([hostOps1] : List (List (HloOp τ sig (Elt F)))).map StableHlo.seq)) Q' := by
  have hfin : iprop(boundary (c : Thread nD τ) ∗ (StableHlo.held (c : Thread nD τ) (Pipeline.ucRefs τ sig) (StableHlo.after ([hostOps1] : List (List (HloOp τ sig (Elt F)))).flatten (Wexit m c)) : sProp 𝕄))
      ⊢ iprop((dats m 0 c).arrays ((dats m 0 c).arrAt · cfg0.N) ∗ Zfin m c) := by
    rw [held_all]
    iintro ⟨-, HA, HZ⟩
    isplitl [HA]
    · iapply (hsplit_fin m c); iexact HA
    iexact HZ
  have hret : ∀ Q'' : PUnit → sProp 𝕄, iprop(|={Set.univ}=> Q'' ⟨⟩)
      ⊢ wp frame (wpE (defs (F := F)) (Variants.lift Variants.none) (c : Thread nD τ) none) Set.univ (Pipeline.chain []) Q'' := fun Q'' => by
    rw [Pipeline.chain_nil, wp_pure]
  rw [rest_congr, ← List.append_nil (([hostOps1] : List (List (HloOp τ sig (Elt F)))).map StableHlo.seq)]
  iintro ⟨Hk, Hb, Ha, HZ⟩
  ihave HA := (hmerge m c) $$ Ha
  iapply (Pipeline.wp_seqs_then (pcfgs (F := F)) defs₀ Variants.none c (Pipeline.ucRefs τ sig) [] [hostOps1] tail_sub tail_fresh (Wexit m c)) $$ [Hb HA HZ]
  · isplitl [Hb]; · iexact Hb
    rw [held_all]
    isplitl [HA]; · iexact HA
    iexact HZ
  iintro HbU
  iapply (hret Q')
  imodintro
  iapply Hk
  iapply hfin
  iexact HbU

/-- The final state: every unscoped buffer that is no window's array at what the host operations after the region
    leave, and the windows' arrays at what the write-backs left. -/
def QC : PUnit × MemSt nD τ sig (Elt F) → Prop := fun r => ∀ c : Dev nD,
  (∀ b ∈ Pipeline.restRefsP sig Pipeline.Prefetch.none spec0, r.2.mem ((c : Thread nD τ).loc b) = Wfin m c b)
  ∧ (∀ w : Fin cfg0.W, r.2.mem ((spec0 w).arr.view.loc (c : Thread nD τ)) = (dats m 0 c).arrAt w cfg0.N)

set_option backward.isDefEq.respectTransparency.types false in
/-- From any memory with zero counters every weakly fair execution of @main terminates, nothing faulting, in a state
    described by `QC`. -/
theorem run_main : θ_run defs (onTc (τ := τ) (main (F := F))) (s₀ m ρ) (QC m) :=
  Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (Entails.of_eq (ownU_emb₁ _)); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c b))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Pipeline.Prefetch.none spec0, s.mem ((c : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => Wfin m c b) s')
      isplitl [HU] <;> iassumption)
    (hQ := fun s h c => ⟨(h c).2.2, (h c).1⟩)

/-! No host operation writes an argument: both end as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem final_main_arg0 (c : Dev nD) : Wfin m c (main_arg0 : Ref sig .tc) = m ((c : Thread nD τ).loc main_arg0) :=
  (Wfin_main_arg0 m c).trans ((Wexit_other m c main_arg0 (by decide) (by decide)).trans (V_main_arg0 m c))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem final_main_arg1 (c : Dev nD) : Wfin m c (main_arg1 : Ref sig .tc) = m ((c : Thread nD τ).loc main_arg1) :=
  (Wfin_main_arg1 m c).trans ((Wexit_other m c main_arg1 (by decide) (by decide)).trans (V_main_arg1 m c))

/-- The run read at the result and at the two arguments. -/
theorem run_value : θ_run defs (onTc (τ := τ) (main (F := F))) ⟨m, fun _ => 0, ρ⟩ (fun r => ∀ c : Dev nD,
      r.2.mem ((c.tc : Thread nD τ).loc main_v15) = Wfin m c (main_v15 : Ref sig .tc)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1 main_v15 (by decide), ((h c).1 main_arg0 (by decide)).trans (final_main_arg0 m c),
    ((h c).1 main_arg1 (by decide)).trans (final_main_arg1 m c)⟩) (run_main m ρ)

/-- The frame: every weakly fair execution terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.Kernel.Fr

end
-- ==== Proof.FrBaseI.lean ====
/- The frame of `KernelIdeal`: what its three control cases share.

   The grid is 8 × 32, row-major: point t has row block t / 32 and column block t % 32. The body resets its four
   carried columns at the first column block (t % 32 = 0), and stores the two results at the last (t % 32 = 31);
   at every other point the two result windows are left untouched and are not written back. The four input
   windows hold their blocks at every point. @main runs ten host operations, the region, ten host operations. -/
import proofs.«129543_j5634997093327_1_alg».proof.Proof.Gen.KernelIdeal.Launch
import proofs.«129543_j5634997093327_1_alg».proof.Proof.Gen.KernelIdeal.Skeleton
import proofs.«129543_j5634997093327_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the ten host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "This is the first column block": the body's first `scf.if`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last column block": the body's second `scf.if`. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- The second coordinate of a point is its column block. -/
theorem coord1_val : ∀ t : Fin cfg0.N, ((grid0.coords t) 1).val = t.val % 32 :=
  (by decide +kernel : ∀ t : Fin grid0.N, ((grid0.coords t) 1).val = t.val % 32)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The four carried columns: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
/-- One view per buffer shape through which contents are stated. -/
abbrev VC : View sig .tc .vmem S1024x1 .f32 := scM0_0.view

/-- What the launch hands the body beside the windows: the four carried columns at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.FrRunAI.lean ====
/- The body of `KernelIdeal` at a first column block (the reset is taken, the results are not stored): run once on
   symbolic operands. The four carried columns are found at anything and left with the pieces the run names;
   the two result buffers are handed back as they were found. -/
import proofs.«129543_j5634997093327_1_alg».proof.Proof.FrBaseI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x256 .bf16) (x1 : Vec F S256x256 .bf16) (x2 : Vec F S1024x1 .i32) (x3 : Vec F S1x256 .i32) :
    Σ' (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%ds8, %fs8, -, HS8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [HS8]; · iexists _; iexact HS8
    isplitl [HS9]; · iexists _; iexact HS9
    isplitl [HS10]; · iexists _; iexact HS10
    iexists _; iexact HS11

end Cert.KernelIdeal.Fr

end
-- ==== Proof.FrRunBI.lean ====
/- The body of `KernelIdeal` at a column block that is neither first nor last (no reset, no result stored): run once on
   symbolic operands. The four carried columns are found at what the point before left and left with the pieces
   the run names; the two result buffers are handed back as they were found. -/
import proofs.«129543_j5634997093327_1_alg».proof.Proof.FrRunAI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x256 .bf16) (x1 : Vec F S256x256 .bf16) (x2 : Vec F S1024x1 .i32) (x3 : Vec F S1x256 .i32) (xs8 xs9 xs10 xs11 : Vec F S1024x1 .f32) :
    Σ' (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xi7
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%fs8, %hfs8, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    obtain rfl := harg8.eq_unread hfs8; obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]
    · iexists _; isplitr; · ipureintro; exact harg7.read_unread _
      iexact H7
    isplitl [HS8]; · iexists _; iexact HS8
    isplitl [HS9]; · iexists _; iexact HS9
    isplitl [HS10]; · iexists _; iexact HS10
    iexists _; iexact HS11

end Cert.KernelIdeal.Fr

end
-- ==== Proof.FrRunCI.lean ====
/- The body of `KernelIdeal` at a last column block (no reset, the two results stored): run once on symbolic operands.
   The four carried columns are found at what the point before left; they and the two result buffers are left
   with the pieces the run names. -/
import proofs.«129543_j5634997093327_1_alg».proof.Proof.FrRunBI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x256 .bf16) (x1 : Vec F S256x256 .bf16) (x2 : Vec F S1024x1 .i32) (x3 : Vec F S1x256 .i32) (xs8 xs9 xs10 xs11 : Vec F S1024x1 .f32) :
    Σ' (L6 : List (View.Piece (Elt F) S1024x1 .f32)) (L7 : List (View.Piece (Elt F) S1024x1 .f32)) (LS8 : List (View.Piece (Elt F) S1024x1 .f32)) (LS9 : List (View.Piece (Elt F) S1024x1 .f32)) (LS10 : List (View.Piece (Elt F) S1024x1 .f32)), { LS11 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10) ∗ (∃ f, arg11.view.loc (c : Thread nD τ) ↦[arg11.view.set]{fullShare} arg11.view.writes (Elt F) f LS11)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__supcon_kernel_eq_skeleton]; unfold cc0__supcon_kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%fs8, %hfs8, HS8⟩, ⟨%fs9, %hfs9, HS9⟩, ⟨%fs10, %hfs10, HS10⟩, ⟨%fs11, %hfs11, HS11⟩, Hk⟩
    obtain rfl := harg2.eq_unread hf0; obtain rfl := harg3.eq_unread hf1; obtain rfl := harg4.eq_unread hf2; obtain rfl := harg5.eq_unread hf3
    obtain rfl := harg8.eq_unread hfs8; obtain rfl := harg9.eq_unread hfs9; obtain rfl := harg10.eq_unread hfs10; obtain rfl := harg11.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [HS8]; · iexists _; iexact HS8
    isplitl [HS9]; · iexists _; iexact HS9
    isplitl [HS10]; · iexists _; iexact HS10
    iexists _; iexact HS11

end Cert.KernelIdeal.Fr

end
-- ==== Proof.FrCasesI.lean ====
/- The frame of `KernelIdeal`: what the carried columns and the two result buffers hold after each grid point, the
   proof data of the pipeline, and the body's obligation at every point.

   The columns after a point are read back from the pieces the point's run stores (`colsA`, `colsB`, `colsC` by the
   point's case); `outsAt0` follows them along the grid, each point starting from what the point before left. The
   two input windows that read the normalized features hold that one array at the two halves of the full share. -/
import proofs.«129543_j5634997093327_1_alg».proof.Proof.FrRunCI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the four carried columns. -/
structure Cols (F : FTy → Type) where
  c8 : Vec F S1024x1 .f32
  c9 : Vec F S1024x1 .f32
  c10 : Vec F S1024x1 .f32
  c11 : Vec F S1024x1 .f32

/-- A list of pieces read back as the contents of a 1024×1 buffer they cover. -/
def rb (L : List (View.Piece (Elt F) S1024x1 .f32)) : Vec F S1024x1 .f32 := VC.read (Elt F) (VC.writes (Elt F) VC.junk L)

/-- Each list of pieces the runs name is one whole-buffer store (or the reset's followed by it): it covers the buffer. -/
theorem cover_of (L : List (View.Piece (Elt F) S1024x1 .f32)) (h : View.Piece.tiledL L S1024x1.size = true) (y : S1024x1.Idx) :
    ∃ pc ∈ L, y ∈ pc.1.set := View.cover_of_tiledL L S1024x1.size h y

/-! ## The three cases at a grid point -/

section Cases
variable (c : Dev nD) (t : Fin cfg0.N)

def runA (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)
def runB (hc0 : ¬cond0_0 (grid0.coords t)) (hc1 : ¬cond0_1 (grid0.coords t)) (xs : Cols F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11
def runC (hc0 : ¬cond0_0 (grid0.coords t)) (hc1 : cond0_1 (grid0.coords t)) (xs : Cols F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11

def colsA (hc0 : cond0_0 (grid0.coords t)) (hc1 : ¬cond0_1 (grid0.coords t)) : Cols F :=
  ⟨rb (runA m c t hc0 hc1).1, rb (runA m c t hc0 hc1).2.1, rb (runA m c t hc0 hc1).2.2.1, rb (runA m c t hc0 hc1).2.2.2.1⟩
def colsB (hc0 : ¬cond0_0 (grid0.coords t)) (hc1 : ¬cond0_1 (grid0.coords t)) (xs : Cols F) : Cols F :=
  ⟨rb (runB m c t hc0 hc1 xs).1, rb (runB m c t hc0 hc1 xs).2.1, rb (runB m c t hc0 hc1 xs).2.2.1, rb (runB m c t hc0 hc1 xs).2.2.2.1⟩
def colsC (hc0 : ¬cond0_0 (grid0.coords t)) (hc1 : cond0_1 (grid0.coords t)) (xs : Cols F) : Cols F :=
  ⟨rb (runC m c t hc0 hc1 xs).2.2.1, rb (runC m c t hc0 hc1 xs).2.2.2.1, rb (runC m c t hc0 hc1 xs).2.2.2.2.1, rb (runC m c t hc0 hc1 xs).2.2.2.2.2.1⟩
def out6C (hc0 : ¬cond0_0 (grid0.coords t)) (hc1 : cond0_1 (grid0.coords t)) (xs : Cols F) : Vec F S1024x1 .f32 := rb (runC m c t hc0 hc1 xs).1
def out7C (hc0 : ¬cond0_0 (grid0.coords t)) (hc1 : cond0_1 (grid0.coords t)) (xs : Cols F) : Vec F S1024x1 .f32 := rb (runC m c t hc0 hc1 xs).2.1

theorem tiledA8 (hc0) (hc1) : View.Piece.tiledL (runA m c t hc0 hc1).1 S1024x1.size = true := by sl_kernel_rfl
theorem tiledA9 (hc0) (hc1) : View.Piece.tiledL (runA m c t hc0 hc1).2.1 S1024x1.size = true := by sl_kernel_rfl
theorem tiledA10 (hc0) (hc1) : View.Piece.tiledL (runA m c t hc0 hc1).2.2.1 S1024x1.size = true := by sl_kernel_rfl
theorem tiledA11 (hc0) (hc1) : View.Piece.tiledL (runA m c t hc0 hc1).2.2.2.1 S1024x1.size = true := by sl_kernel_rfl
theorem tiledB8 (hc0) (hc1) (xs) : View.Piece.tiledL (runB m c t hc0 hc1 xs).1 S1024x1.size = true := by sl_kernel_rfl
theorem tiledB9 (hc0) (hc1) (xs) : View.Piece.tiledL (runB m c t hc0 hc1 xs).2.1 S1024x1.size = true := by sl_kernel_rfl
theorem tiledB10 (hc0) (hc1) (xs) : View.Piece.tiledL (runB m c t hc0 hc1 xs).2.2.1 S1024x1.size = true := by sl_kernel_rfl
theorem tiledB11 (hc0) (hc1) (xs) : View.Piece.tiledL (runB m c t hc0 hc1 xs).2.2.2.1 S1024x1.size = true := by sl_kernel_rfl
theorem tiledC6 (hc0) (hc1) (xs) : View.Piece.tiledL (runC m c t hc0 hc1 xs).1 S1024x1.size = true := by sl_kernel_rfl
theorem tiledC7 (hc0) (hc1) (xs) : View.Piece.tiledL (runC m c t hc0 hc1 xs).2.1 S1024x1.size = true := by sl_kernel_rfl
theorem tiledC8 (hc0) (hc1) (xs) : View.Piece.tiledL (runC m c t hc0 hc1 xs).2.2.1 S1024x1.size = true := by sl_kernel_rfl
theorem tiledC9 (hc0) (hc1) (xs) : View.Piece.tiledL (runC m c t hc0 hc1 xs).2.2.2.1 S1024x1.size = true := by sl_kernel_rfl
theorem tiledC10 (hc0) (hc1) (xs) : View.Piece.tiledL (runC m c t hc0 hc1 xs).2.2.2.2.1 S1024x1.size = true := by sl_kernel_rfl
theorem tiledC11 (hc0) (hc1) (xs) : View.Piece.tiledL (runC m c t hc0 hc1 xs).2.2.2.2.2.1 S1024x1.size = true := by sl_kernel_rfl

end Cases

end Cert.KernelIdeal.Fr

end
-- ==== Proof.FrDatI.lean ====
/- The frame of `KernelIdeal`: the carried columns and the result buffers along the grid, and the pipeline's proof data. -/
import proofs.«129543_j5634997093327_1_alg».proof.Proof.FrCasesI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the columns and the result buffers hold after each point -/

/-- After the body at position `n`: the four carried columns, and the two result buffers (meaningful at the last
    column block of a row block only: elsewhere a placeholder nothing consults, the windows being idle there). The
    case is selected by n mod 32; a point that is not a first column block starts from what the point before left. -/
def outsAt0 (c : Dev nD) : (n : ℕ) → n < cfg0.N → Cols F × Vec F S1024x1 .f32 × Vec F S1024x1 .f32
  | 0, hn => (colsA m c ⟨0, hn⟩ ((hcond0_0 ⟨0, hn⟩).mpr (Nat.zero_mod _)) (fun h => (fun h => by (try dsimp only at h); omega) ((hcond0_1 ⟨0, hn⟩).mp h)), rb [], rb [])
  | n + 1, hn =>
    if h0 : (n + 1) % 32 = 0 then
      (colsA m c ⟨n + 1, hn⟩ ((hcond0_0 ⟨n + 1, hn⟩).mpr h0) (fun h => (fun h => by (try dsimp only at h); omega) ((hcond0_1 ⟨n + 1, hn⟩).mp h)), rb [], rb [])
    else
      if h1 : (n + 1) % 32 = 31 then
        (colsC m c ⟨n + 1, hn⟩ (fun h => h0 ((hcond0_0 ⟨n + 1, hn⟩).mp h)) ((hcond0_1 ⟨n + 1, hn⟩).mpr h1) (outsAt0 c n (Nat.lt_of_succ_lt hn)).1,
         out6C m c ⟨n + 1, hn⟩ (fun h => h0 ((hcond0_0 ⟨n + 1, hn⟩).mp h)) ((hcond0_1 ⟨n + 1, hn⟩).mpr h1) (outsAt0 c n (Nat.lt_of_succ_lt hn)).1,
         out7C m c ⟨n + 1, hn⟩ (fun h => h0 ((hcond0_0 ⟨n + 1, hn⟩).mp h)) ((hcond0_1 ⟨n + 1, hn⟩).mpr h1) (outsAt0 c n (Nat.lt_of_succ_lt hn)).1)
      else
        (colsB m c ⟨n + 1, hn⟩ (fun h => h0 ((hcond0_0 ⟨n + 1, hn⟩).mp h)) (fun h => h1 ((hcond0_1 ⟨n + 1, hn⟩).mp h)) (outsAt0 c n (Nat.lt_of_succ_lt hn)).1, rb [], rb [])

theorem outsAt0_A (c : Dev nD) (t : Fin cfg0.N) (h0 : t.val % 32 = 0) (h1 : ¬t.val % 32 = 31) :
    outsAt0 m c t.val t.isLt = (colsA m c t ((hcond0_0 t).mpr h0) (fun h => h1 ((hcond0_1 t).mp h)), rb [], rb []) := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 m c t.val t.isLt = (colsB m c t (fun h => h0 ((hcond0_0 t).mp h)) (fun h => h1 ((hcond0_1 t).mp h)) (outsAt0 m c (t.val - 1) (Nat.lt_of_le_of_lt (Nat.sub_le _ _) t.isLt)).1, rb [], rb []) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (colsC m c t (fun h => h0 ((hcond0_0 t).mp h)) ((hcond0_1 t).mpr h1) (outsAt0 m c (t.val - 1) (Nat.lt_of_le_of_lt (Nat.sub_le _ _) t.isLt)).1, out6C m c t (fun h => h0 ((hcond0_0 t).mp h)) ((hcond0_1 t).mpr h1) (outsAt0 m c (t.val - 1) (Nat.lt_of_le_of_lt (Nat.sub_le _ _) t.isLt)).1, out7C m c t (fun h => h0 ((hcond0_0 t).mp h)) ((hcond0_1 t).mpr h1) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-- The four carried columns owned at given contents. -/
def colsAt (c : Dev nD) (x : Cols F) : sProp 𝕄 :=
  iprop(owns (c : Thread nD τ) scM0_0 fullShare x.c8 ∗ owns (c : Thread nD τ) scM0_1 fullShare x.c9 ∗ owns (c : Thread nD τ) scM0_2 fullShare x.c10 ∗ owns (c : Thread nD τ) scM0_3 fullShare x.c11)

/-- The region invariant before position `n`: before the first point the four columns at anything; afterwards at what
    the point before left; beside them the generator register. -/
def PhiS (c : Dev nD) : (n : ℕ) → n ≤ cfg0.N → sProp 𝕄
  | 0, _ => Pipeline.ΦA spec0 c
  | n + 1, hn => iprop(colsAt c (outsAt0 m c n hn).1 ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(colsAt c (outsAt0 m c n hn).1 ∗ (∃ r, prngReg c r)) := rfl
theorem PhiS_pos (c : Dev nD) (n : ℕ) (h : n ≤ cfg0.N) (hz : n ≠ 0) :
    PhiS m c n h = iprop(colsAt c (outsAt0 m c (n - 1) (by omega)).1 ∗ (∃ r, prngReg c r)) := by
  cases n with
  | zero => exact absurd rfl hz
  | succ n => rfl

/-! ## The pipeline's proof data -/

/-- The proof data on core `c`: the arrays as the region finds them; after the body each input's buffer at its
    block and the results' at `outsAt0`; the invariant `PhiS`; nothing owed. The normalized features are read
    through two windows: each holds that array at one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).2.1
    | ⟨5, _⟩ => (outsAt0 m c t.val t.isLt).2.2
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.KernelIdeal.Fr

end
-- ==== Proof.FrBodyI.lean ====
/- The frame of `KernelIdeal`: the body's obligation at every grid point. The point's case is read off t mod 32; the
   invariant hands the body the carried columns at what the point before left (at anything before the first
   point) and takes them back at this point's contents; an idle result window is handed back untouched. -/
import proofs.«129543_j5634997093327_1_alg».proof.Proof.FrDatI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    by_cases hz : t.val = 0
    · rw [PhiS_castSucc m c t, PhiS_zero m c _ _ hz, PhiA0_eq]
      unfold colsA colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledA8 m c t _ _))
          isplitl [HS9]
          · unfold owns; iexists _; isplitr
            swap; · iexact HS9
            ipureintro; exact View.read_writes_of_cover _ _ _ _ _ (cover_of _ (tiledA9 m c t _ _))
          isplitl [HS10]
          · unfold owns; iexists _; isplitr
            swap; · iexact HS10
            ipureintro; exact View.read_writes_of_cover _ _ _ _ _ (cover_of _ (tiledA10 m c t _ _))
          · unfold owns; iexists _; isplitr
            swap; · iexact HS11
            ipureintro; exact View.read_writes_of_cover _ _ _ _ _ (cover_of _ (tiledA11 m c t _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      unfold colsA colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexists _; iexact HS8
      isplitl [HS9]; · iexists _; iexact HS9
      isplitl [HS10]; · iexists _; iexact HS10
      isplitl [HS11]; · iexists _; iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledA8 m c t _ _))
          isplitl [HS9]
          · unfold owns; iexists _; isplitr
            swap; · iexact HS9
            ipureintro; exact View.read_writes_of_cover _ _ _ _ _ (cover_of _ (tiledA9 m c t _ _))
          isplitl [HS10]
          · unfold owns; iexists _; isplitr
            swap; · iexact HS10
            ipureintro; exact View.read_writes_of_cover _ _ _ _ _ (cover_of _ (tiledA10 m c t _ _))
          · unfold owns; iexists _; isplitr
            swap; · iexact HS11
            ipureintro; exact View.read_writes_of_cover _ _ _ _ _ (cover_of _ (tiledA11 m c t _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 32 = 31
    · rw [show (dats m 0 c).leavesExact 4 t = owns (c : Thread nD τ) (ms0_4 t) fullShare ((dats m 0 c).after 4 t) from by
      unfold Dat.leavesExact; rw [liveAt0_4 t ((hcond0_1 t).mpr h1)], after0_4]
      rw [show (dats m 0 c).leavesExact 5 t = owns (c : Thread nD τ) (ms0_5 t) fullShare ((dats m 0 c).after 5 t) from by
      unfold Dat.leavesExact; rw [liveAt0_5 t ((hcond0_1 t).mpr h1)], after0_5]
      rw [outsAt0_C m c t h0 h1]
      rw [PhiS_castSucc m c t, PhiS_pos m c _ _ hz]
      unfold colsC out6C out7C colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runC m c t (fun h => h0 ((hcond0_0 t).mp h)) ((hcond0_1 t).mpr h1) _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS8]; · iexact HS8
      isplitl [HS9]; · iexact HS9
      isplitl [HS10]; · iexact HS10
      isplitl [HS11]; · iexact HS11
      iintro ⟨H0, H1, H2, H3, ⟨%e6, H4⟩, ⟨%e7, H5⟩, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledC8 m c t _ _ _))
          isplitl [HS9]
          · unfold owns; iexists _; isplitr
            swap; · iexact HS9
            ipureintro; exact View.read_writes_of_cover _ _ _ _ _ (cover_of _ (tiledC9 m c t _ _ _))
          isplitl [HS10]
          · unfold owns; iexists _; isplitr
            swap; · iexact HS10
            ipureintro; exact View.read_writes_of_cover _ _ _ _ _ (cover_of _ (tiledC10 m c t _ _ _))
          · unfold owns; iexists _; isplitr
            swap; · iexact HS11
            ipureintro; exact View.read_writes_of_cover _ _ _ _ _ (cover_of _ (tiledC11 m c t _ _ _))
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_of _ (tiledC6 m c t _ _ _))
      · unfold owns; iexists _; isplitr
        swap; · iexact H5
        ipureintro; exact View.read_writes_of_cover _ _ _ _ _ (cover_of _ (tiledC7 m c t _ _ _))
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      rw [PhiS_castSucc m c t, PhiS_pos m c _ _ hz]
      unfold colsB colsAt; (try dsimp only)
      iintro ⟨⟨⟨HS8, HS9, HS10, HS11⟩, Hg⟩, Ho, ⟨%d0, H0⟩, ⟨%d1, H1⟩, ⟨%d2, H2⟩, ⟨%d3, H3⟩, ⟨%d4, H4⟩, ⟨%d5, H5⟩⟩
      iapply ((runB m c t (fun h => h0 ((hcond0_0 t).mp h)) (fun h => h1 ((hcond0_1 t).mp h)) _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, ⟨%es8, HS8⟩, ⟨%es9, HS9⟩, ⟨%es10, HS10⟩, ⟨%es11, HS11⟩⟩
      isplitl [HS8 HS9 HS10 HS11 Hg]
      · isplitl [HS8 HS9 HS10 HS11]
        · isplitl [HS8]
          · unfold owns; iexists _; isplitr
            swap; · iexact HS8
            ipureintro; exact View.read_writes_of_cover _ _ _ _ _ (cover_of _ (tiledB8 m c t _ _ _))
          isplitl [HS9]
          · unfold owns; iexists _; isplitr
            swap; · iexact HS9
            ipureintro; exact View.read_writes_of_cover _ _ _ _ _ (cover_of _ (tiledB9 m c t _ _ _))
          isplitl [HS10]
          · unfold owns; iexists _; isplitr
            swap; · iexact HS10
            ipureintro; exact View.read_writes_of_cover _ _ _ _ _ (cover_of _ (tiledB10 m c t _ _ _))
          · unfold owns; iexists _; isplitr
            swap; · iexact HS11
            ipureintro; exact View.read_writes_of_cover _ _ _ _ _ (cover_of _ (tiledB11 m c t _ _ _))
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, the columns' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold colsAt
  iintro ⟨⟨HS8, HS9, HS10, HS11⟩, Hg⟩
  isplitl [HS8 HS9 HS10 HS11]
  · isplitl [HS8]; · iexists _; iexact HS8
    isplitl [HS9]; · iexists _; iexact HS9
    isplitl [HS10]; · iexists _; iexact HS10
    iexists _; iexact HS11
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Fr

end
-- ==== Proof.FrShareI.lean ====
/- The frame of `KernelIdeal`: the five arrays behind the six windows. The normalized features are read through two
   windows; the core holds that array whole, and hands each window one half of the full share. -/
import proofs.«129543_j5634997093327_1_alg».proof.Proof.FrBodyI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_v6, main_v7, main_v8, main_v9_0, main_v9_1] (by decide) (by decide) _

/-- The six windows' arrays, each at its share, listed. -/
theorem arrays_eq6 (c : Dev nD) (A : (w : Fin cfg0.W) → Buf (Elt F) ((cfg0.win w).arr.view.loc (c : Thread nD τ))) :
    ((dats m 0 c).arrays A : sProp 𝕄)
      = iprop((((c : Thread nD τ).loc main_v6) ↦{fullShare.left} A 0) ∗ (((c : Thread nD τ).loc main_v6) ↦{fullShare.right} A 1) ∗ (((c : Thread nD τ).loc main_v7) ↦{fullShare} A 2) ∗ (((c : Thread nD τ).loc main_v8) ↦{fullShare} A 3) ∗ (((c : Thread nD τ).loc main_v9_0) ↦{fullShare} A 4) ∗ (((c : Thread nD τ).loc main_v9_1) ↦{fullShare} A 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

end Cert.KernelIdeal.Fr

end
-- ==== Proof.FrLaunchI.lean ====
/- The frame of `KernelIdeal`: the launch. The region is entered with the five arrays whole, the normalized features split
   between the two windows that read them; at the exit the halves are joined again, the ten host operations after
   the region run over all the unscoped buffers, and the final state is read off what they leave. -/
import proofs.«129543_j5634997093327_1_alg».proof.Proof.FrShareI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: the entry contents, with the two result arrays as the
    write-backs left them. -/
def Wexit (c : Dev nD) : Valuation τ sig (Elt F) :=
  StableHlo.after [StableHlo.nullary main_v9_0 ((dats m 0 c).arrAt 4 cfg0.N), StableHlo.nullary main_v9_1 ((dats m 0 c).arrAt 5 cfg0.N)] (V0 m c)

/-- The contents after the ten host operations that follow the region. -/
def Wfin (c : Dev nD) : Valuation τ sig (Elt F) := StableHlo.after ([hostOps1] : List (List (HloOp τ sig (Elt F)))).flatten (Wexit m c)

theorem Wexit_v90 (c : Dev nD) : Wexit m c (main_v9_0 : Ref sig .tc) = (dats m 0 c).arrAt 4 cfg0.N := by
  unfold Wexit
  rw [StableHlo.after_cons, StableHlo.after_cons, StableHlo.after_nil, HloOp.result_of_not_mem _ _ (by
    simp only [StableHlo.nullary_writes, Finset.mem_singleton]; exact StableHlo.devRef_ne_of_ne (by decide)), StableHlo.nullary_result]

theorem Wexit_v91 (c : Dev nD) : Wexit m c (main_v9_1 : Ref sig .tc) = (dats m 0 c).arrAt 5 cfg0.N := by
  unfold Wexit
  rw [StableHlo.after_cons, StableHlo.after_cons, StableHlo.after_nil, StableHlo.nullary_result]

theorem Wexit_other (c : Dev nD) (b : Ref sig .tc) (h0 : b ≠ main_v9_0) (h1 : b ≠ main_v9_1) : Wexit m c (b : Ref sig .tc) = V m c b := by
  unfold Wexit
  rw [StableHlo.after_cons, StableHlo.after_cons, StableHlo.after_nil,
    HloOp.result_of_not_mem _ _ (by simp only [StableHlo.nullary_writes, Finset.mem_singleton]; exact StableHlo.devRef_ne_of_ne h1),
    HloOp.result_of_not_mem _ _ (by simp only [StableHlo.nullary_writes, Finset.mem_singleton]; exact StableHlo.devRef_ne_of_ne h0)]

/-- An input window's array is never written: it ends as the region found it. -/
theorem arrAt_in_eq (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- At the entry: the five arrays whole make the six windows' arrays, the normalized features split in two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq, arrays_eq6]
  iintro ⟨H6, H7, H8, H90, H91⟩
  ihave H := (pointsTo_share (PosShare.mem_left_op_right fullShare)).1 $$ H6
  icases H with ⟨H6l, H6r⟩
  isplitl [H6l]; · iexact H6l
  isplitl [H6r]; · iexact H6r
  isplitl [H7]; · iexact H7
  isplitl [H8]; · iexact H8
  isplitl [H90]; · iexact H90
  iexact H91

/-- At the exit: the six windows' arrays make the five arrays whole again, at the exit contents. -/
theorem hmerge (c : Dev nD) :
    ((dats m 0 c).arrays ((dats m 0 c).arrAt · cfg0.N) : sProp 𝕄) ⊢ Pipeline.arrBufs (Ix := Unit) (Name := ℕ) (U := UR sig nD τ) (Lvl := ℕ) spec0 c (fun b => Wexit m c b) := by
  rw [arrBufs_eq, arrays_eq6]
  rw [arrAt_in_eq m c 0 rfl, arrAt_in_eq m c 1 rfl, arrAt_in_eq m c 2 rfl, arrAt_in_eq m c 3 rfl]
  rw [Wexit_v90, Wexit_v91, Wexit_other m c main_v6 (by decide) (by decide), Wexit_other m c main_v7 (by decide) (by decide), Wexit_other m c main_v8 (by decide) (by decide)]
  iintro ⟨H6l, H6r, H7, H8, H90, H91⟩
  isplitl [H6l H6r]
  · iapply (pointsTo_share (PosShare.mem_left_op_right fullShare)).2
    isplitl [H6l]; · iexact H6l
    iexact H6r
  isplitl [H7]; · iexact H7
  isplitl [H8]; · iexact H8
  isplitl [H90]; · iexact H90
  iexact H91

/-- What bypasses the region: the unscoped buffers that are no window's array, at the entry contents; -/
abbrev Zin (c : Dev nD) : sProp 𝕄 := Pipeline.unscopedRest (Ix := Unit) (Name := ℕ) (U := UR sig nD τ) (Lvl := ℕ) spec0 c (V m c)
/-- and after the ten host operations that follow the region. -/
abbrev Zfin (c : Dev nD) : sProp 𝕄 := Pipeline.unscopedRest (Ix := Unit) (Name := ℕ) (U := UR sig nD τ) (Lvl := ℕ) spec0 c (fun b => Wfin m c b)

theorem rest_congr (c : Dev nD) :
    Zin m c = Pipeline.unscopedRest (Ix := Unit) (Name := ℕ) (U := UR sig nD τ) (Lvl := ℕ) spec0 c (fun b => Wexit m c b) := by
  unfold Zin Pipeline.unscopedRest
  exact bigSep_congr fun b hb => by
    have hb' := (Finset.mem_sdiff.mp hb).2
    dsimp only
    rw [Wexit_other m c b (fun h => hb' (h ▸ Finset.mem_image.mpr ⟨4, Finset.mem_univ _, rfl⟩)) (fun h => hb' (h ▸ Finset.mem_image.mpr ⟨5, Finset.mem_univ _, rfl⟩))]

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- All the unscoped buffers at a valuation: the five arrays and the rest. -/
theorem held_all (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b) ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W, Pipeline.unscopedBufs_split₀ cfgs 0 winFacts₀0.arr_unscoped c]

/-! The ten host operations after the region write none of the five arrays, nor the two arguments. -/
theorem Wfin_main_v6 (c : Dev nD) : Wfin m c (main_v6 : Ref sig .tc) = Wexit m c (main_v6 : Ref sig .tc) := by
  unfold Wfin
  exact StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v7 (c : Dev nD) : Wfin m c (main_v7 : Ref sig .tc) = Wexit m c (main_v7 : Ref sig .tc) := by
  unfold Wfin
  exact StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v8 (c : Dev nD) : Wfin m c (main_v8 : Ref sig .tc) = Wexit m c (main_v8 : Ref sig .tc) := by
  unfold Wfin
  exact StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v9_0 (c : Dev nD) : Wfin m c (main_v9_0 : Ref sig .tc) = Wexit m c (main_v9_0 : Ref sig .tc) := by
  unfold Wfin
  exact StableHlo.after_of_forall_not_mem (b := Proc.devRef .tc main_v9_0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_v9_1 (c : Dev nD) : Wfin m c (main_v9_1 : Ref sig .tc) = Wexit m c (main_v9_1 : Ref sig .tc) := by
  unfold Wfin
  exact StableHlo.after_of_forall_not_mem (b := Proc.devRef .tc main_v9_1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_arg0 (c : Dev nD) : Wfin m c (main_arg0 : Ref sig .tc) = Wexit m c (main_arg0 : Ref sig .tc) := by
  unfold Wfin
  exact StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem Wfin_main_arg1 (c : Dev nD) : Wfin m c (main_arg1 : Ref sig .tc) = Wexit m c (main_arg1 : Ref sig .tc) := by
  unfold Wfin
  exact StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- After the host operations the five arrays whole make the six windows' arrays again. -/
theorem hsplit_fin (c : Dev nD) :
    (Pipeline.arrBufs (Ix := Unit) (Name := ℕ) (U := UR sig nD τ) (Lvl := ℕ) spec0 c (fun b => Wfin m c b) : sProp 𝕄) ⊢ (dats m 0 c).arrays ((dats m 0 c).arrAt · cfg0.N) := by
  rw [arrBufs_eq, arrays_eq6]
  rw [arrAt_in_eq m c 0 rfl, arrAt_in_eq m c 1 rfl, arrAt_in_eq m c 2 rfl, arrAt_in_eq m c 3 rfl]
  dsimp only
  rw [Wfin_main_v6, Wfin_main_v7, Wfin_main_v8, Wfin_main_v9_0, Wfin_main_v9_1]
  rw [Wexit_v90, Wexit_v91, Wexit_other m c main_v6 (by decide) (by decide), Wexit_other m c main_v7 (by decide) (by decide), Wexit_other m c main_v8 (by decide) (by decide)]
  iintro ⟨H6, H7, H8, H90, H91⟩
  ihave H := (pointsTo_share (PosShare.mem_left_op_right fullShare)).1 $$ H6
  icases H with ⟨H6l, H6r⟩
  isplitl [H6l]; · iexact H6l
  isplitl [H6r]; · iexact H6r
  isplitl [H7]; · iexact H7
  isplitl [H8]; · iexact H8
  isplitl [H90]; · iexact H90
  iexact H91

set_option backward.isDefEq.respectTransparency.types false in
/-- The host operations after the region: from the region's exit they run over all the unscoped buffers and hand back
    the windows' arrays and the rest at what they leave. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N) ∗ Zin m c)
      ⊢ wp frame (wpE (defs (F := F)) (Variants.lift Variants.none) (c : Thread nD τ) none) Set.univ (Pipeline.chain (([hostOps1] : List (List (HloOp τ sig (Elt F)))).map StableHlo.seq)) Q' := by
  have hfin : iprop(boundary (c : Thread nD τ) ∗ (StableHlo.held (c : Thread nD τ) (Pipeline.ucRefs τ sig) (StableHlo.after ([hostOps1] : List (List (HloOp τ sig (Elt F)))).flatten (Wexit m c)) : sProp 𝕄))
      ⊢ iprop((dats m 0 c).arrays ((dats m 0 c).arrAt · cfg0.N) ∗ Zfin m c) := by
    rw [held_all]
    iintro ⟨-, HA, HZ⟩
    isplitl [HA]
    · iapply (hsplit_fin m c); iexact HA
    iexact HZ
  have hret : ∀ Q'' : PUnit → sProp 𝕄, iprop(|={Set.univ}=> Q'' ⟨⟩)
      ⊢ wp frame (wpE (defs (F := F)) (Variants.lift Variants.none) (c : Thread nD τ) none) Set.univ (Pipeline.chain []) Q'' := fun Q'' => by
    rw [Pipeline.chain_nil, wp_pure]
  rw [rest_congr, ← List.append_nil (([hostOps1] : List (List (HloOp τ sig (Elt F)))).map StableHlo.seq)]
  iintro ⟨Hk, Hb, Ha, HZ⟩
  ihave HA := (hmerge m c) $$ Ha
  iapply (Pipeline.wp_seqs_then (pcfgs (F := F)) defs₀ Variants.none c (Pipeline.ucRefs τ sig) [] [hostOps1] tail_sub tail_fresh (Wexit m c)) $$ [Hb HA HZ]
  · isplitl [Hb]; · iexact Hb
    rw [held_all]
    isplitl [HA]; · iexact HA
    iexact HZ
  iintro HbU
  iapply (hret Q')
  imodintro
  iapply Hk
  iapply hfin
  iexact HbU

/-- The final state: every unscoped buffer that is no window's array at what the host operations after the region
    leave, and the windows' arrays at what the write-backs left. -/
def QC : PUnit × MemSt nD τ sig (Elt F) → Prop := fun r => ∀ c : Dev nD,
  (∀ b ∈ Pipeline.restRefsP sig Pipeline.Prefetch.none spec0, r.2.mem ((c : Thread nD τ).loc b) = Wfin m c b)
  ∧ (∀ w : Fin cfg0.W, r.2.mem ((spec0 w).arr.view.loc (c : Thread nD τ)) = (dats m 0 c).arrAt w cfg0.N)

set_option backward.isDefEq.respectTransparency.types false in
/-- From any memory with zero counters every weakly fair execution of @main terminates, nothing faulting, in a state
    described by `QC`. -/
theorem run_main : θ_run defs (onTc (τ := τ) (main (F := F))) (s₀ m ρ) (QC m) :=
  Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (Entails.of_eq (ownU_emb₁ _)); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c b))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Pipeline.Prefetch.none spec0, s.mem ((c : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => Wfin m c b) s')
      isplitl [HU] <;> iassumption)
    (hQ := fun s h c => ⟨(h c).2.2, (h c).1⟩)

/-! No host operation writes an argument: both end as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem final_main_arg0 (c : Dev nD) : Wfin m c (main_arg0 : Ref sig .tc) = m ((c : Thread nD τ).loc main_arg0) :=
  (Wfin_main_arg0 m c).trans ((Wexit_other m c main_arg0 (by decide) (by decide)).trans (V_main_arg0 m c))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem final_main_arg1 (c : Dev nD) : Wfin m c (main_arg1 : Ref sig .tc) = m ((c : Thread nD τ).loc main_arg1) :=
  (Wfin_main_arg1 m c).trans ((Wexit_other m c main_arg1 (by decide) (by decide)).trans (V_main_arg1 m c))

/-- The run read at the result and at the two arguments. -/
theorem run_value : θ_run defs (onTc (τ := τ) (main (F := F))) ⟨m, fun _ => 0, ρ⟩ (fun r => ∀ c : Dev nD,
      r.2.mem ((c.tc : Thread nD τ).loc main_v15) = Wfin m c (main_v15 : Ref sig .tc)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1 main_v15 (by decide), ((h c).1 main_arg0 (by decide)).trans (final_main_arg0 m c),
    ((h c).1 main_arg1 (by decide)).trans (final_main_arg1 m c)⟩) (run_main m ρ)

/-- The frame: every weakly fair execution terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.KernelIdeal.Fr

end
-- ==== Proof.FinalArr.lean ====
/- The two result arrays after the run, read row by row from the blocks written back.

   Each result (8192 × 1) is written back in blocks of 1024 × 1; block i is written once, at the last column
   block of row block i, i.e. at grid point 32·i + 31, with what the body left in the result's buffer there.
   The eight blocks tile the array, so row R = 1024·i + r of the array after the run is row r of what point
   32·i + 31 left. -/
import proofs.«129543_j5634997093327_1_alg».proof.Proof.FrDatI
import Idealize.ShloMosaic.Lib.Pipeline.Value
import Idealize.ShloMosaic.Lib.ValueIdx

set_option maxRecDepth 16384

noncomputable section

namespace Cert.KernelIdeal.Fr

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a point leaves depends on the point only, not on the proof that it is on the grid. -/
theorem outsAt0_congr (c : Dev nD) {n n' : ℕ} (h : n = n') (hn : n < cfg0.N) (hn' : n' < cfg0.N) :
    outsAt0 m c n hn = outsAt0 m c n' hn' := by
  subst h; rfl

/-- The results' block index at a point: (the row block, 0). -/
theorem idx_facts4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

theorem idx_facts5 : ∀ t : Fin cfg0.N, win0_5.index t (0 : Fin 2) = t.val / 32 ∧ win0_5.index t (1 : Fin 2) = 0 :=
  (by decide +kernel : ∀ t : Fin grid0.N, win0_5.index t (0 : Fin 2) = t.val / 32 ∧ win0_5.index t (1 : Fin 2) = 0)

theorem last_lt (k : ℕ) (hk : k < 8192) : 32 * (k / 1024) + 31 < cfg0.N := by
  rw [show cfg0.N = 256 from N_0]; omega

/-- The first result array as one function of its index: row R is row R mod 1024 of what the last column block
    of row block R / 1024 left. -/
def G4 (c : Dev nD) : Buf (Elt F) ((c : Thread nD τ).loc main_v9_0) :=
  fun (idx : S8192x1.Idx) =>
    (outsAt0 m c (32 * ((idx 0).val / 1024) + 31) (last_lt _ (idx2_lt0 idx))).2.1
      (ix2 (⟨(idx 0).val % 1024, Nat.mod_lt _ (by norm_num)⟩ : Fin 1024) (0 : Fin 1))

/-- The second result array likewise. -/
def G5 (c : Dev nD) : Buf (Elt F) ((c : Thread nD τ).loc main_v9_1) :=
  fun (idx : S8192x1.Idx) =>
    (outsAt0 m c (32 * ((idx 0).val / 1024) + 31) (last_lt _ (idx2_lt0 idx))).2.2
      (ix2 (⟨(idx 0).val % 1024, Nat.mod_lt _ (by norm_num)⟩ : Fin 1024) (0 : Fin 1))

/-- An index of the array is in point t's block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v9_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9_1).slice (win0_5.rect t)).set ↔ _
  rw [View.set_slice_whole, Rect.mem_set_unit]
  exact Iff.rfl

/-- What a writing point writes back is its block of G4. -/
theorem flushed4_eq (c : Dev nD) (t : Fin cfg0.N) (hf : (cfg0.win 4).flush t = true) :
    (dats m 0 c).flushed 4 t = ((cfg0.win 4).blk t).view.read (Elt F) (G4 m c) := by
  have h31 : t.val % 32 = 31 := (flush0_4 t).mp hf
  have hN : cfg0.N = 256 := N_0
  have ht := t.isLt
  obtain ⟨e0, e1⟩ := idx_facts4 t
  show (cfg0.win 4).cut (grid0.coords t) ((dats m 0 c).after 4 t) = _
  rw [after0_4]
  funext y
  rw [View.read_apply]
  have hy0 : (y 0).val < 1024 := (y 0).isLt
  have hy1 : (y 1).val < 1 := (y 1).isLt
  have hemb : ((((cfg0.win 4).blk t).view.emb y) 0).val = win0_4.index t (0 : Fin 2) * 1024 + 1 * (y 0).val := rfl
  show (outsAt0 m c t.val t.isLt).2.1 (win0_4.xinj (grid0.coords t) y) = G4 m c (((cfg0.win 4).blk t).view.emb y)
  unfold G4
  have hpt : 32 * (((((cfg0.win 4).blk t).view.emb y) 0).val / 1024) + 31 = t.val := by rw [hemb, e0]; omega
  rw [outsAt0_congr m c hpt _ t.isLt]
  refine congrArg (outsAt0 m c t.val t.isLt).2.1 ?_
  funext a
  match a with
  | ⟨0, _⟩ => exact Fin.ext (by show (y 0).val = ((((cfg0.win 4).blk t).view.emb y) 0).val % 1024; rw [hemb, e0]; omega)
  | ⟨1, _⟩ => exact Fin.ext (by show (y 1).val = 0; omega)

theorem flushed5_eq (c : Dev nD) (t : Fin cfg0.N) (hf : (cfg0.win 5).flush t = true) :
    (dats m 0 c).flushed 5 t = ((cfg0.win 5).blk t).view.read (Elt F) (G5 m c) := by
  have h31 : t.val % 32 = 31 := (flush0_5 t).mp hf
  have hN : cfg0.N = 256 := N_0
  have ht := t.isLt
  obtain ⟨e0, e1⟩ := idx_facts5 t
  show (cfg0.win 5).cut (grid0.coords t) ((dats m 0 c).after 5 t) = _
  rw [after0_5]
  funext y
  rw [View.read_apply]
  have hy0 : (y 0).val < 1024 := (y 0).isLt
  have hy1 : (y 1).val < 1 := (y 1).isLt
  have hemb : ((((cfg0.win 5).blk t).view.emb y) 0).val = win0_5.index t (0 : Fin 2) * 1024 + 1 * (y 0).val := rfl
  show (outsAt0 m c t.val t.isLt).2.2 (win0_5.xinj (grid0.coords t) y) = G5 m c (((cfg0.win 5).blk t).view.emb y)
  unfold G5
  have hpt : 32 * (((((cfg0.win 5).blk t).view.emb y) 0).val / 1024) + 31 = t.val := by rw [hemb, e0]; omega
  rw [outsAt0_congr m c hpt _ t.isLt]
  refine congrArg (outsAt0 m c t.val t.isLt).2.2 ?_
  funext a
  match a with
  | ⟨0, _⟩ => exact Fin.ext (by show (y 0).val = ((((cfg0.win 5).blk t).view.emb y) 0).val % 1024; rw [hemb, e0]; omega)
  | ⟨1, _⟩ => exact Fin.ext (by show (y 1).val = 0; omega)

/-- Every row of the array is in the block of the last column block of its row block. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  refine ⟨⟨32 * ((i 0).val / 1024) + 31, last_lt _ hi0⟩, (flush0_4 _).mpr (by show (32 * ((i 0).val / 1024) + 31) % 32 = 31; omega), ?_⟩
  rw [mem_blk4]
  obtain ⟨e0, e1⟩ := idx_facts4 ⟨32 * ((i 0).val / 1024) + 31, last_lt _ hi0⟩
  intro a
  match a with
  | ⟨0, _⟩ =>
    show win0_4.index _ (0 : Fin 2) * 1024 ≤ (i 0).val ∧ (i 0).val < win0_4.index _ (0 : Fin 2) * 1024 + 1024
    rw [e0]; show (32 * ((i 0).val / 1024) + 31) / 32 * 1024 ≤ (i 0).val ∧ (i 0).val < (32 * ((i 0).val / 1024) + 31) / 32 * 1024 + 1024
    omega
  | ⟨1, _⟩ =>
    show win0_4.index _ (1 : Fin 2) * 1 ≤ (i 1).val ∧ (i 1).val < win0_4.index _ (1 : Fin 2) * 1 + 1
    rw [e1]; omega

theorem cover5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  refine ⟨⟨32 * ((i 0).val / 1024) + 31, last_lt _ hi0⟩, (flush0_5 _).mpr (by show (32 * ((i 0).val / 1024) + 31) % 32 = 31; omega), ?_⟩
  rw [mem_blk5]
  obtain ⟨e0, e1⟩ := idx_facts5 ⟨32 * ((i 0).val / 1024) + 31, last_lt _ hi0⟩
  intro a
  match a with
  | ⟨0, _⟩ =>
    show win0_5.index _ (0 : Fin 2) * 1024 ≤ (i 0).val ∧ (i 0).val < win0_5.index _ (0 : Fin 2) * 1024 + 1024
    rw [e0]; show (32 * ((i 0).val / 1024) + 31) / 32 * 1024 ≤ (i 0).val ∧ (i 0).val < (32 * ((i 0).val / 1024) + 31) / 32 * 1024 + 1024
    omega
  | ⟨1, _⟩ =>
    show win0_5.index _ (1 : Fin 2) * 1 ≤ (i 1).val ∧ (i 1).val < win0_5.index _ (1 : Fin 2) * 1 + 1
    rw [e1]; omega

/-- The first result array after the run. -/
theorem final4 (c : Dev nD) : (dats m 0 c).arrAt 4 cfg0.N = G4 m c :=
  (dats m 0 c).arrAt_eq_of_cover 4 (G4 m c) (flushed4_eq m c) cover4

/-- The second result array after the run. -/
theorem final5 (c : Dev nD) : (dats m 0 c).arrAt 5 cfg0.N = G5 m c :=
  (dats m 0 c).arrAt_eq_of_cover 5 (G5 m c) (flushed5_eq m c) cover5

/-- Row R = 1024·i + r of the first result array after the run is row r of what point 32·i + 31 left. -/
theorem final4_apply (c : Dev nD) (i : ℕ) (hn : 32 * i + 31 < cfg0.N) (r : Fin 1024) (R : Fin 8192)
    (hR : R.val = 1024 * i + r.val) :
    (dats m 0 c).arrAt 4 cfg0.N (ix2 R (0 : Fin 1)) = (outsAt0 m c (32 * i + 31) hn).2.1 (ix2 r (0 : Fin 1)) := by
  rw [final4]
  unfold G4
  have hr := r.isLt
  have hpt : 32 * (((ix2 R (0 : Fin 1) : S8192x1.Idx) 0).val / 1024) + 31 = 32 * i + 31 := by
    show 32 * (R.val / 1024) + 31 = 32 * i + 31
    rw [hR]; omega
  rw [outsAt0_congr m c hpt _ hn]
  refine congrArg (outsAt0 m c (32 * i + 31) hn).2.1 ?_
  funext a
  match a with
  | ⟨0, _⟩ => exact Fin.ext (by show R.val % 1024 = r.val; rw [hR]; omega)
  | ⟨1, _⟩ => rfl

theorem final5_apply (c : Dev nD) (i : ℕ) (hn : 32 * i + 31 < cfg0.N) (r : Fin 1024) (R : Fin 8192)
    (hR : R.val = 1024 * i + r.val) :
    (dats m 0 c).arrAt 5 cfg0.N (ix2 R (0 : Fin 1)) = (outsAt0 m c (32 * i + 31) hn).2.2 (ix2 r (0 : Fin 1)) := by
  rw [final5]
  unfold G5
  have hr := r.isLt
  have hpt : 32 * (((ix2 R (0 : Fin 1) : S8192x1.Idx) 0).val / 1024) + 31 = 32 * i + 31 := by
    show 32 * (R.val / 1024) + 31 = 32 * i + 31
    rw [hR]; omega
  rw [outsAt0_congr m c hpt _ hn]
  refine congrArg (outsAt0 m c (32 * i + 31) hn).2.2 ?_
  funext a
  match a with
  | ⟨0, _⟩ => exact Fin.ext (by show R.val % 1024 = r.val; rw [hR]; omega)
  | ⟨1, _⟩ => rfl

end Cert.KernelIdeal.Fr

end
-- ==== Proof.Spec.lean ====
/- The supervised-contrastive loss both programs compute, as plain functions on the extended reals.

   `x` is the 8192 × 256 feature array, `lab` the 8192 integer labels. Rows are divided by their Euclidean
   length (`normalize`); `sim f R C` is twice the inner product of rows R and C (the logit at temperature 1/2);
   column C is a positive of row R when the labels agree and C ≠ R. Per row: the maximum logit over all
   columns, the denominator ∑_{C ≠ R} exp(sim − max), the number of positives, and the sum over the positives
   of sim − max − log(denominator). The loss is minus the sum over rows of the per-row means (rows without a
   positive count 0), divided by the number of rows that have a positive (at least 1), times 1/2.

   The per-row sum is stated twice: `rowSumRef` sums (sim − max − log den) · pos term by term, `rowSum` is
   ∑ sim · pos − max · npos − log den · npos. They agree when every logit is a real number. -/
import Idealize.ShloMosaic.PureOps.Ideal

noncomputable section

namespace Cert.Spec

open Idealize.ShloMosaic

abbrev Feat := Fin 8192 → Fin 256 → EReal
abbrev Lab := Fin 8192 → BitVec 32

/-- Each row divided by its Euclidean length. -/
def normalize (x : Feat) : Feat := fun R k => Ideal.div (x R k) (Ideal.sqrt (∑ k' : Fin 256, x R k' * x R k'))

/-- The logit of the pair (R, C): the inner product of the two rows, times 2. -/
def sim (f : Feat) (R C : Fin 8192) : EReal := (∑ k : Fin 256, f R k * f C k) * 2

/-- 1 when C is a positive of R (same label, another row), else 0. -/
def pos (lab : Lab) (R C : Fin 8192) : EReal := if lab R = lab C ∧ R ≠ C then 1 else 0

def rowMax (f : Feat) (R : Fin 8192) : EReal := Finset.univ.sup (sim f R)

def den (f : Feat) (R : Fin 8192) : EReal :=
  ∑ C : Fin 8192, if C = R then 0 else Ideal.exp (sim f R C - rowMax f R)

def npos (lab : Lab) (R : Fin 8192) : EReal := ∑ C : Fin 8192, pos lab R C

/-- The sum over the positives of the log-probabilities, in the grouped form. -/
def rowSum (f : Feat) (lab : Lab) (R : Fin 8192) : EReal :=
  (∑ C : Fin 8192, sim f R C * pos lab R C) - rowMax f R * npos lab R - Ideal.log (den f R) * npos lab R

/-- The same sum term by term. -/
def rowSumRef (f : Feat) (lab : Lab) (R : Fin 8192) : EReal :=
  ∑ C : Fin 8192, (sim f R C - rowMax f R - Ideal.log (den f R)) * pos lab R C

/-- The per-row mean from a per-row sum `rs`, 0 for a row with no positive. -/
def perRowOf (rs : Fin 8192 → EReal) (lab : Lab) (R : Fin 8192) : EReal :=
  if 0 < npos lab R then Ideal.div (rs R) (max (npos lab R) 1) else 0

def valid (lab : Lab) (R : Fin 8192) : EReal := if 0 < npos lab R then 1 else 0

/-- The loss from the per-row means. -/
def lossOf (pr : Fin 8192 → EReal) (lab : Lab) : EReal :=
  Ideal.div (-(∑ R : Fin 8192, pr R)) (max (∑ R : Fin 8192, valid lab R) 1) * ((1 / 2 : ℝ) : EReal)

def loss (x : Feat) (lab : Lab) : EReal := lossOf (perRowOf (rowSum (normalize x) lab) lab) lab
def lossRef (x : Feat) (lab : Lab) : EReal := lossOf (perRowOf (rowSumRef (normalize x) lab) lab) lab

end Cert.Spec

end
-- ==== Proof.SpecLaws.lean ====
/- Laws of the supervised-contrastive specification that need every logit to be a real number.

   On the extended reals distributivity and cancellation fail at ±∞, so each law is proved by choosing
   real witnesses, pushing the coercion ℝ → EReal outwards through sums, products and differences, and
   finishing in ℝ.  The facts used: a finite supremum of reals over a nonempty index set is one of them,
   hence real; the denominator ∑_{C ≠ R} exp(sim − max) is a finite sum of nonnegative reals with at
   least one positive term (another column exists), so its logarithm is real; the positive indicator is
   0 or 1.  With all of these real,
     ∑_C (s_C − M − L) · p_C = ∑_C s_C · p_C − M · ∑_C p_C − L · ∑_C p_C
   is distributivity in ℝ. -/
import proofs.«129543_j5634997093327_1_alg».proof.Proof.Spec

noncomputable section

namespace Cert.SpecLaws

open Cert.Spec Idealize.ShloMosaic

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite supremum of reals over a nonempty set is attained, hence real. -/
theorem sup_real {ι : Type*} (s : Finset ι) (hs : s.Nonempty) (g : ι → EReal)
    (hg : ∀ i, ∃ r : ℝ, g i = (r : EReal)) : ∃ r : ℝ, s.sup g = (r : EReal) := by
  obtain ⟨i, _, hi⟩ := Finset.exists_mem_eq_sup s hs g
  obtain ⟨r, hr⟩ := hg i
  exact ⟨r, hi.trans hr⟩

/-- The distributive law behind the two forms of the per-row sum, over any finite index type. -/
theorem sum_sub_sub_mul {ι : Type*} [Fintype ι] (s p : ι → ℝ) (M L : ℝ) :
    (∑ C : ι, ((s C : EReal) - (M : EReal) - (L : EReal)) * (p C : EReal))
      = (∑ C : ι, (s C : EReal) * (p C : EReal)) - (M : EReal) * (∑ C : ι, (p C : EReal))
          - (L : EReal) * (∑ C : ι, (p C : EReal)) := by
  simp only [← EReal.coe_sub, ← EReal.coe_mul, ← coe_sum]
  congr 1
  simp only [sub_mul, Finset.sum_sub_distrib, Finset.mul_sum]

theorem two_coe : (2 : EReal) = ((2 : ℝ) : EReal) := by norm_cast

/-- Real features give real logits. -/
theorem sim_real (f : Feat) (hf : ∀ R k, ∃ r : ℝ, f R k = (r : EReal)) (R C : Fin 8192) :
    ∃ r : ℝ, sim f R C = (r : EReal) := by
  choose g hg using hf
  refine ⟨(∑ k : Fin 256, g R k * g C k) * 2, ?_⟩
  unfold sim
  simp only [hg, two_coe, ← EReal.coe_mul, ← coe_sum]

/-- Real logits give a real row maximum. -/
theorem rowMax_real (f : Feat) (hf : ∀ R k, ∃ r : ℝ, f R k = (r : EReal)) (R : Fin 8192) :
    ∃ r : ℝ, rowMax f R = (r : EReal) :=
  sup_real Finset.univ ⟨R, Finset.mem_univ R⟩ (sim f R) (sim_real f hf R)

/-- The denominator of a row of real logits is a positive real. -/
theorem den_real_pos (f : Feat) (hf : ∀ R k, ∃ r : ℝ, f R k = (r : EReal)) (R : Fin 8192) :
    ∃ d : ℝ, 0 < d ∧ den f R = (d : EReal) := by
  choose s hs using sim_real f hf R
  obtain ⟨M, hM⟩ := rowMax_real f hf R
  refine ⟨∑ C : Fin 8192, if C = R then 0 else Real.exp (s C - M), ?_, ?_⟩
  · have hne : ∃ C : Fin 8192, C ≠ R := by
      by_cases h : R = 0
      · exact ⟨1, by rw [h]; decide⟩
      · exact ⟨0, fun h' => h h'.symm⟩
    obtain ⟨C0, hC0⟩ := hne
    refine Finset.sum_pos' (fun C _ => ?_) ⟨C0, Finset.mem_univ _, ?_⟩
    · split_ifs
      · exact le_rfl
      · exact (Real.exp_pos _).le
    · rw [if_neg hC0]; exact Real.exp_pos _
  · unfold den
    rw [coe_sum]
    refine Finset.sum_congr rfl (fun C _ => ?_)
    rw [hs, hM]
    split_ifs
    · simp
    · rw [← EReal.coe_sub, Ideal.exp_coe]

/-- The positive indicator is the coercion of a real 0 or 1. -/
theorem pos_coe (lab : Lab) (R C : Fin 8192) :
    pos lab R C = (((if lab R = lab C ∧ R ≠ C then 1 else 0 : ℝ)) : EReal) := by
  unfold pos; split_ifs <;> simp

/-- The two forms of the per-row sum agree on real features. -/
theorem rowSumRef_eq_rowSum (f : Feat) (lab : Lab) (hf : ∀ R k, ∃ r : ℝ, f R k = (r : EReal))
    (R : Fin 8192) : rowSumRef f lab R = rowSum f lab R := by
  choose s hs using sim_real f hf R
  obtain ⟨M, hM⟩ := rowMax_real f hf R
  obtain ⟨d, hd, hden⟩ := den_real_pos f hf R
  have hlog : Ideal.log (den f R) = ((Real.log d : ℝ) : EReal) := by
    rw [hden, Ideal.log_coe, if_neg (not_le.mpr hd)]
  unfold rowSumRef rowSum npos
  simp only [hs, hM, hlog, pos_coe]
  exact sum_sub_sub_mul s _ M (Real.log d)

/-- Dividing each row of a real array with no zero row by its Euclidean length gives a real array. -/
theorem normalize_real (x : Feat) (hx : ∀ R k, ∃ r : ℝ, x R k = (r : EReal))
    (hnz : ∀ R, ∃ k, x R k ≠ 0) : ∀ R k, ∃ r : ℝ, Spec.normalize x R k = (r : EReal) := by
  choose g hg using hx
  intro R k
  have hss : (∑ k' : Fin 256, x R k' * x R k') = ((∑ k' : Fin 256, g R k' * g R k' : ℝ) : EReal) := by
    simp only [hg, ← EReal.coe_mul, ← coe_sum]
  have hpos : 0 < ∑ k' : Fin 256, g R k' * g R k' := by
    obtain ⟨k0, hk0⟩ := hnz R
    have hg0 : g R k0 ≠ 0 := by
      intro h; apply hk0; rw [hg, h]; rfl
    refine Finset.sum_pos' (fun k' _ => mul_self_nonneg _) ⟨k0, Finset.mem_univ _, ?_⟩
    exact mul_self_pos.mpr hg0
  have hsq : Real.sqrt (∑ k' : Fin 256, g R k' * g R k') ≠ 0 := (Real.sqrt_pos.mpr hpos).ne'
  refine ⟨g R k * (1 / Real.sqrt (∑ k' : Fin 256, g R k' * g R k')), ?_⟩
  unfold Spec.normalize
  rw [hss, Ideal.sqrt_coe, if_neg (not_lt.mpr hpos.le), Ideal.div_coe hsq, hg, ← EReal.coe_mul]

/-- The loss computed from the term-by-term row sums is the loss computed from the grouped ones. -/
theorem lossRef_eq_loss (x : Feat) (lab : Lab) (hx : ∀ R k, ∃ r : ℝ, x R k = (r : EReal))
    (hnz : ∀ R, ∃ k, x R k ≠ 0) : lossRef x lab = loss x lab := by
  unfold lossRef loss
  have h : rowSumRef (Spec.normalize x) lab = rowSum (Spec.normalize x) lab :=
    funext fun R => rowSumRef_eq_rowSum (Spec.normalize x) lab (normalize_real x hx hnz) R
  rw [h]

end Cert.SpecLaws

end
-- ==== Proof.RefSpecConsts.lean ====
/- The float literals the reference program spells, as the extended reals their bit patterns denote, and the small
   facts about 0 and 1 on the extended reals that the masks need. -/
import Idealize.ShloMosaic.PureOps.Ideal

noncomputable section

namespace Cert.RefSpec

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `-inf` denotes the bottom element. -/
theorem ofBits_neg_inf : Ideal.ofBits .f32 0xFF800000#32 = ⊥ := by
  simp [Ideal.ofBits, Ideal.ieee]

/-- Dividing by the real `1/2` is multiplying by `2`, at every extended real. -/
theorem div_half (x : EReal) : Ideal.div x ((1 / 2 : ℝ) : EReal) = x * 2 := by
  rw [Ideal.div_coe (by norm_num : (1 / 2 : ℝ) ≠ 0)]
  have h : ((1 / (1 / 2) : ℝ)) = 2 := by norm_num
  rw [h]
  rfl

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

end Cert.RefSpec

end
-- ==== Proof.TailRead.lean ====
/- The scalar tail after the region: from the two result arrays (the per-row means and the validity
   indicators, both 8192 × 1) to the loss.

   The host sums each array over both axes from 0, negates the first sum, divides it by the larger of the
   second sum and 1, and multiplies by 1/2.  A float sum into a result with no axes is the initial value
   plus the sum over every index of the operand, and the indices of an 8192 × 1 array are (R, 0) for R < 8192;
   so the tail is  −(∑_R A4(R,0)) / max(∑_R A5(R,0), 1) · 1/2,  the specification's `lossOf` when A4 holds the
   per-row means and A5 the validity indicators. -/
import proofs.«129543_j5634997093327_1_alg».proof.Proof.Gen.KernelIdeal.Launch
import proofs.«129543_j5634997093327_1_alg».proof.Proof.SpecLaws
import proofs.«129543_j5634997093327_1_alg».proof.Proof.RefSpecConsts
import Idealize.ShloMosaic.Lib.ValueIdx
import Idealize.ShloMosaic.PureOps.Ideal.Laws

noncomputable section

namespace Cert.KernelIdeal.Tail

open Idealize.ShloMosaic Idealize.ShloMosaic.ValueIdx Cert.KernelIdeal Cert.KernelIdeal.Gen Cert.Spec

variable {F : FTy → Type} [FloatOps F]

/-- The ten host operations after the region, composed: the loss from the two result arrays. -/
def tailOf (A4 A5 : (⟨S8192x1, .f32⟩ : BufTy).Contents (Elt F)) : (⟨S_, .f32⟩ : BufTy).Contents (Elt F) :=
  mulf (F := F)
    (Host.divf (F := F)
      (Host.negf (F := F)
        (Host.reduceAdd (F := F) A4 (constant (F := F) S_ .f32 0x00000000#32) reducesTo_S8192x1_S_d0_1 h_S_))
      (maximumf (F := F)
        (Host.reduceAdd (F := F) A5 (constant (F := F) S_ .f32 0x00000000#32) reducesTo_S8192x1_S_d0_1 h_S_)
        (constant (F := F) S_ .f32 0x3F800000#32)))
    (constant (F := F) S_ .f32 0x3F000000#32)

/-- A sum over the indices of an 8192 × 1 array is the sum over its rows. -/
theorem sum_col {M : Type*} [AddCommMonoid M] (g : S8192x1.Idx → M) : ∑ i, g i = ∑ R : Fin 8192, g (ix2 R 0) := by
  rw [sum_idx2]
  exact Finset.sum_congr rfl fun R _ => Fin.sum_univ_one _

/-- The host's sum of an 8192 × 1 array over both axes from 0. -/
theorem reduceAll_apply (A : (⟨S8192x1, .f32⟩ : BufTy).Contents (Elt Ideal)) (i : S_.Idx) :
    Host.reduceAdd (F := Ideal) A (constant (F := Ideal) S_ .f32 0x00000000#32) reducesTo_S8192x1_S_d0_1 h_S_ i
      = ∑ R : Fin 8192, A (ix2 R 0) := by
  show Ideal.hostReduceAdd reducesTo_S8192x1_S_d0_1 A (Ideal.ofBits .f32 0x00000000#32) i = _
  rw [Ideal.hostReduceAdd_total reducesTo_S8192x1_S_d0_1 (fun b => b.elim0), Ideal.ofBits_zero_f32, zero_add]
  exact sum_col A

/-- The tail at the exact instance. -/
theorem tailOf_apply (A4 A5 : (⟨S8192x1, .f32⟩ : BufTy).Contents (Elt Ideal)) (i : S_.Idx) :
    tailOf (F := Ideal) A4 A5 i
      = Ideal.div (-(∑ R : Fin 8192, A4 (ix2 R 0))) (max (∑ R : Fin 8192, A5 (ix2 R 0)) 1) * ((1 / 2 : ℝ) : EReal) := by
  show Ideal.div
      (-(Host.reduceAdd (F := Ideal) A4 (constant (F := Ideal) S_ .f32 0x00000000#32) reducesTo_S8192x1_S_d0_1 h_S_ i))
      (max (Host.reduceAdd (F := Ideal) A5 (constant (F := Ideal) S_ .f32 0x00000000#32) reducesTo_S8192x1_S_d0_1 h_S_ i)
        (Ideal.ofBits .f32 0x3F800000#32))
    * Ideal.ofBits .f32 0x3F000000#32 = _
  rw [reduceAll_apply, reduceAll_apply, Cert.RefSpec.ofBits_one, Cert.RefSpec.ofBits_half]

/-- When the first array holds the per-row means and the second the validity indicators, the tail is the loss. -/
theorem tailOf_eq_lossOf (pr : Fin 8192 → EReal) (lab : Lab)
    (A4 A5 : (⟨S8192x1, .f32⟩ : BufTy).Contents (Elt Ideal))
    (h4 : ∀ R : Fin 8192, A4 (ix2 R 0) = pr R) (h5 : ∀ R : Fin 8192, A5 (ix2 R 0) = valid lab R) (i : S_.Idx) :
    tailOf (F := Ideal) A4 A5 i = lossOf pr lab := by
  rw [tailOf_apply]
  simp only [h4, h5]
  rfl

end Cert.KernelIdeal.Tail

end
-- ==== Proof.KernelTail.lean ====
/- The ten host operations after the region, as one function of the two result arrays: from any buffer contents,
   the loss buffer ends at `tailOf` of what the two result buffers hold, and the two arguments keep their contents. -/
import proofs.«129543_j5634997093327_1_alg».proof.Proof.TailRead
import proofs.«129543_j5634997093327_1_alg».proof.Proof.Gen.KernelIdeal.Launch
import Idealize.ShloMosaic.Lib.StableHlo.Run

set_option maxRecDepth 16384

noncomputable section

namespace Cert.KernelIdeal.Tail

open Idealize.ShloMosaic Idealize.ShloMosaic.TcCoe Idealize.ShloMosaic.StableHlo Cert.KernelIdeal Cert.KernelIdeal.Gen

variable {F : FTy → Type} [FloatOps F]

/-- The loss buffer after the ten operations. -/
theorem after_tail_v15 (W : Valuation τ sig (Elt F)) :
    StableHlo.after (([hostOps1] : List (List (HloOp τ sig (Elt F)))).flatten) W (main_v15 : Ref sig .tc)
      = tailOf (F := F) (W (main_v9_0 : Ref sig .tc)) (W (main_v9_1 : Ref sig .tc)) := by
  simp only [List.flatten_cons, List.flatten_nil, List.append_nil]
  show StableHlo.after hostOps1 W (Proc.devRef .tc main_v15) = _
  after_results
  rfl

/-- The ten operations write neither argument: the feature argument keeps its contents … -/
theorem after_tail_arg0 (W : Valuation τ sig (Elt F)) :
    StableHlo.after (([hostOps1] : List (List (HloOp τ sig (Elt F)))).flatten) W (main_arg0 : Ref sig .tc)
      = W (main_arg0 : Ref sig .tc) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- … and so does the label argument. -/
theorem after_tail_arg1 (W : Valuation τ sig (Elt F)) :
    StableHlo.after (([hostOps1] : List (List (HloOp τ sig (Elt F)))).flatten) W (main_arg1 : Ref sig .tc)
      = W (main_arg1 : Ref sig .tc) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

end Cert.KernelIdeal.Tail

end
-- ==== Proof.HostReadTerm.lean ====
/- What the region's input arrays hold when the region is entered, as the host operations' terms. -/
import proofs.«129543_j5634997093327_1_alg».proof.Proof.FrBaseI
import proofs.«129543_j5634997093327_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The normalized features: each entry divided by the square root of its row's sum of squares. -/
theorem V_v6 (c : Dev nD) :
    V m c main_v6 = truncf .bf16 (Host.divf (m ((c : Thread nD τ).loc main_arg0))
      (broadcastInDim S8192x256 ![0, 1] bcast_S8192x1_S8192x256_0_1
        (Host.sqrt (broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x256_S8192_d1 h_S_))))) bitsLt_bf16_f32 := by
  show StableHlo.after hostOps0 (fun b => m (c, b)) (Proc.devRef .tc main_v6) = _
  after_results

/-- The labels as a column. -/
theorem V_v7 (c : Dev nD) :
    V m c main_v7 = shapeCast S8192x1 (m ((c : Thread nD τ).loc main_arg1)) shapeCasts_S8192_S8192x1 := by
  show StableHlo.after hostOps0 (fun b => m (c, b)) (Proc.devRef .tc main_v7) = _
  after_results
  rfl

/-- The labels as a row. -/
theorem V_v8 (c : Dev nD) :
    V m c main_v8 = shapeCast S1x8192 (m ((c : Thread nD τ).loc main_arg1)) shapeCasts_S8192_S1x8192 := by
  show StableHlo.after hostOps0 (fun b => m (c, b)) (Proc.devRef .tc main_v8) = _
  after_results
  rfl

end Cert.KernelIdeal.Fr

end
-- ==== Proof.HostRead.lean ====
/- What the region's input arrays hold when the region is entered, entry by entry: the normalized features are
   `Spec.normalize` of the feature argument, and the two label arrays are the label argument. -/
import proofs.«129543_j5634997093327_1_alg».proof.Proof.HostReadTerm

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The feature argument as a function of the row and the column. -/
abbrev featOf (x0 : S8192x256.Idx → EReal) : Spec.Feat := fun R k => x0 (ix2 R k)

/-- The label argument as a function of the row. -/
abbrev labOf (x1 : S8192.Idx → BitVec 32) : Spec.Lab := fun R => x1 (ix1 R)

/-- The sum of the squares of row R, as the host's reduction from the literal 0 computes it. -/
theorem normSq_apply (x0 : S8192x256.Idx → EReal) (R : Fin 8192) :
    Host.reduceAdd (F := Ideal) (φ := .f32) (mulf (F := Ideal) (φ := .f32) x0 x0) (constant (F := Ideal) S_ .f32 0x00000000#32)
      reducesTo_S8192x256_S8192_d1 h_S_ (ix1 R) = ∑ k' : Fin 256, x0 (ix2 R k') * x0 (ix2 R k') := by
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  refine Finset.sum_congr rfl fun k' _ => ?_
  have e : (Shape.Reduces.lift (by decide : S8192x256.Reduces [1] S8192) (ix1 R) k' : S8192x256.Idx) = ix2 R k' :=
    funext fun a => Fin.ext (by match a with | ⟨0, _⟩ => rfl | ⟨1, _⟩ => rfl)
  exact congrArg (fun i => x0 i * x0 i) e

/-- The normalized features at (R, k). -/
theorem V_v6_apply (c : Dev nD) (R : Fin 8192) (k : Fin 256) :
    (V m c main_v6 : S8192x256.Idx → EReal) (ix2 R k)
      = Spec.normalize (featOf (m ((c : Thread nD τ).loc main_arg0))) R k := by
  rw [V_v6]
  show Ideal.div (m ((c : Thread nD τ).loc main_arg0) (ix2 R k))
    (broadcastInDim (s := S8192x1) S8192x256 (![0, 1] : Fin 2 → Fin S8192x256.rank) bcast_S8192x1_S8192x256_0_1 _ (ix2 R k)) = _
  rw [broadcastInDim_apply (s := S8192x1) (t := S8192x256) (![0, 1] : Fin 2 → Fin S8192x256.rank) bcast_S8192x1_S8192x256_0_1 _
    (ix2 R k) (ix2 R (0 : Fin 1)) (fun a => by match a with | ⟨0, _⟩ => rfl | ⟨1, _⟩ => rfl)]
  show Ideal.div _ (Ideal.sqrt
    (broadcastInDim (s := S8192) S8192x1 (![0] : Fin 1 → Fin S8192x1.rank) bcast_S8192_S8192x1_0 _ (ix2 R (0 : Fin 1)))) = _
  rw [broadcastInDim_apply (s := S8192) (t := S8192x1) (![0] : Fin 1 → Fin S8192x1.rank) bcast_S8192_S8192x1_0 _
    (ix2 R (0 : Fin 1)) (ix1 R) (fun a => by match a with | ⟨0, _⟩ => rfl), normSq_apply]
  rfl

/-- The label column at row R. -/
theorem V_v7_apply (c : Dev nD) (R : Fin 8192) :
    (V m c main_v7 : S8192x1.Idx → BitVec 32) (ix2 R 0) = labOf (m ((c : Thread nD τ).loc main_arg1)) R := by
  rw [V_v7]
  exact shapeCast_apply _ shapeCasts_S8192_S8192x1 (ix2 R (0 : Fin 1)) (ix1 R) (by
    rw [Shape.rowMajor_val_two, Shape.rowMajor_val_one]
    show R.val = R.val * 1 + 0
    omega)

/-- The label row at column C. -/
theorem V_v8_apply (c : Dev nD) (C : Fin 8192) :
    (V m c main_v8 : S1x8192.Idx → BitVec 32) (ix2 0 C) = labOf (m ((c : Thread nD τ).loc main_arg1)) C := by
  rw [V_v8]
  exact shapeCast_apply _ shapeCasts_S8192_S1x8192 (ix2 (0 : Fin 1) C) (ix1 C) (by
    rw [Shape.rowMajor_val_two, Shape.rowMajor_val_one]
    show C.val = 0 * 8192 + C.val
    omega)

end Cert.KernelIdeal.Fr

end
-- ==== Proof.BlockRead.lean ====
/- The four input windows' blocks at a grid point, entry by entry, as entries of the arrays they are cut from:
   point t has row block t / 32 and column block t % 32; the row windows start at row 1024·(t / 32), the column
   windows at row (or column) 256·(t % 32). -/
import proofs.«129543_j5634997093327_1_alg».proof.Proof.FrBaseI
import Idealize.ShloMosaic.Lib.Pipeline.Value
import Idealize.ShloMosaic.Lib.ValueIdx

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The first coordinate of a point is its row block. -/
theorem coord0_val : ∀ t : Fin cfg0.N, ((grid0.coords t) 0).val = t.val / 32 :=
  (by decide +kernel : ∀ t : Fin grid0.N, ((grid0.coords t) 0).val = t.val / 32)

/-- The windows' block indices at a point, decided over the grid. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 32 :=
  (by decide +kernel : ∀ t : Fin grid0.N, _)

/-- A point's row block's rows are rows of the array. -/
theorem rowIx_lt (t : Fin cfg0.N) (r : Fin 1024) : 1024 * (t.val / 32) + r.val < 8192 := by
  have hN : cfg0.N = 256 := N_0
  have := t.isLt
  omega

/-- A point's column block's places are rows (columns) of the array. -/
theorem colIx_lt (t : Fin cfg0.N) (cc : Fin 256) : 256 * (t.val % 32) + cc.val < 8192 := by
  omega

/-- The row block of the normalized features at point t: rows 1024·(t / 32) … of the array. -/
theorem iblk0_apply (c : Dev nD) (t : Fin cfg0.N) (r : Fin 1024) (k : Fin 256) :
    iblk m c 0 t (ix2 r k) = V m c main_v6 (ix2 (⟨1024 * (t.val / 32) + r.val, rowIx_lt t r⟩ : Fin 8192) k) := by
  obtain ⟨e0, e1, -⟩ := idx_facts t
  show V m c main_v6 (((cfg0.win 0).blk t).view.emb (ix2 r k)) = V m c main_v6 _
  refine congrArg (V m c main_v6) (funext fun a => Fin.ext ?_)
  match a with
  | ⟨0, _⟩ => show win0_0.index t (0 : Fin 2) * 1024 + 1 * r.val = 1024 * (t.val / 32) + r.val; omega
  | ⟨1, _⟩ => show win0_0.index t (1 : Fin 2) * 256 + 1 * k.val = k.val; omega

/-- The column block of the normalized features at point t: rows 256·(t % 32) … of the same array. -/
theorem iblk1_apply (c : Dev nD) (t : Fin cfg0.N) (cc : Fin 256) (k : Fin 256) :
    iblk m c 1 t (ix2 cc k) = V m c main_v6 (ix2 (⟨256 * (t.val % 32) + cc.val, colIx_lt t cc⟩ : Fin 8192) k) := by
  obtain ⟨-, -, e0, e1, -⟩ := idx_facts t
  show V m c main_v6 (((cfg0.win 1).blk t).view.emb (ix2 cc k)) = V m c main_v6 _
  refine congrArg (V m c main_v6) (funext fun a => Fin.ext ?_)
  match a with
  | ⟨0, _⟩ => show win0_1.index t (0 : Fin 2) * 256 + 1 * cc.val = 256 * (t.val % 32) + cc.val; omega
  | ⟨1, _⟩ => show win0_1.index t (1 : Fin 2) * 256 + 1 * k.val = k.val; omega

/-- The row labels at point t: rows 1024·(t / 32) … of the label column. -/
theorem iblk2_apply (c : Dev nD) (t : Fin cfg0.N) (r : Fin 1024) :
    iblk m c 2 t (ix2 r 0) = V m c main_v7 (ix2 (⟨1024 * (t.val / 32) + r.val, rowIx_lt t r⟩ : Fin 8192) 0) := by
  obtain ⟨-, -, -, -, e0, e1, -⟩ := idx_facts t
  show V m c main_v7 (((cfg0.win 2).blk t).view.emb (ix2 r (0 : Fin 1))) = V m c main_v7 _
  refine congrArg (V m c main_v7) (funext fun a => Fin.ext ?_)
  match a with
  | ⟨0, _⟩ => show win0_2.index t (0 : Fin 2) * 1024 + 1 * r.val = 1024 * (t.val / 32) + r.val; omega
  | ⟨1, _⟩ => show win0_2.index t (1 : Fin 2) * 1 + 1 * 0 = 0; omega

/-- The column labels at point t: columns 256·(t % 32) … of the label row. -/
theorem iblk3_apply (c : Dev nD) (t : Fin cfg0.N) (cc : Fin 256) :
    iblk m c 3 t (ix2 0 cc) = V m c main_v8 (ix2 0 (⟨256 * (t.val % 32) + cc.val, colIx_lt t cc⟩ : Fin 8192)) := by
  obtain ⟨-, -, -, -, -, -, e0, e1⟩ := idx_facts t
  show V m c main_v8 (((cfg0.win 3).blk t).view.emb (ix2 (0 : Fin 1) cc)) = V m c main_v8 _
  refine congrArg (V m c main_v8) (funext fun a => Fin.ext ?_)
  match a with
  | ⟨0, _⟩ => show win0_3.index t (0 : Fin 2) * 1 + 1 * 0 = 0; omega
  | ⟨1, _⟩ => show win0_3.index t (1 : Fin 2) * 256 + 1 * cc.val = 256 * (t.val % 32) + cc.val; omega

end Cert.KernelIdeal.Fr

end
-- ==== Proof.Online.lean ====
/- The online softmax over 32 blocks of 256 columns, and the regrouping of whole-row sums by blocks.

   Column C of a row is written C = 256·j + c (block j, place c).  A state (m, l) holds the maximum of the
   logits seen so far and the denominator ∑ exp(s − m) over the columns seen so far (the row's own column
   left out).  One block replaces m by m' = max m (the block's maximum), rescales l by exp(m − m') and adds
   the block's terms exp(s − m').  Because exp(a − m) · exp(m − m') = exp(a − m') for real a, m, m', the
   state after n blocks is (the maximum over the first 256·n columns, the denominator over those columns
   relative to that maximum); before the first block the state is (⊥, 0), and 0 · exp(⊥ − m') = 0 is the
   empty sum.  After all 32 blocks these are the maximum and the denominator of the whole row.

   Plain running sums (no rescaling) need no finiteness: adding block sums in turn gives the sum over the
   columns seen so far, in any commutative additive monoid. -/
import proofs.«129543_j5634997093327_1_alg».proof.Proof.SpecLaws

noncomputable section

namespace Cert.SpecLaws

open Idealize.ShloMosaic

/-- Column number 256·j + c: place c of block j. -/
def colIx (j : Fin 32) (c : Fin 256) : Fin 8192 := ⟨256 * j.val + c.val, by omega⟩

/-- The columns of the first n blocks. -/
def cols (n : ℕ) : Finset (Fin 8192) := Finset.univ.filter (fun C => C.val < 256 * n)

theorem cols_zero : cols 0 = ∅ := by
  ext C; simp [cols]

theorem cols_all : cols 32 = Finset.univ := by
  ext C; simp only [cols, Finset.mem_filter, Finset.mem_univ, true_and, iff_true]; omega

theorem mem_cols (n : ℕ) (C : Fin 8192) : C ∈ cols n ↔ C.val < 256 * n := by
  simp [cols]

theorem cols_nonempty (n : ℕ) (hn : 0 < n) : (cols n).Nonempty :=
  ⟨0, (mem_cols n 0).mpr (by show (0 : ℕ) < 256 * n; omega)⟩

theorem colIx_injective (j : Fin 32) : Function.Injective (colIx j) := by
  intro a b h
  have : 256 * j.val + a.val = 256 * j.val + b.val := congrArg Fin.val h
  exact Fin.ext (by omega)

/-- The first n+1 blocks are the first n blocks together with block n. -/
theorem cols_succ (n : ℕ) (h : n < 32) :
    cols (n + 1) = cols n ∪ Finset.univ.image (colIx ⟨n, h⟩) := by
  ext C
  simp only [mem_cols, Finset.mem_union, Finset.mem_image, Finset.mem_univ, true_and]
  constructor
  · intro hC
    by_cases h' : C.val < 256 * n
    · exact Or.inl h'
    · refine Or.inr ⟨⟨C.val - 256 * n, by omega⟩, Fin.ext ?_⟩
      show 256 * n + (C.val - 256 * n) = C.val
      omega
  · rintro (h' | ⟨c, rfl⟩)
    · omega
    · show 256 * n + c.val < 256 * (n + 1)
      omega

theorem cols_disjoint (n : ℕ) (h : n < 32) :
    Disjoint (cols n) (Finset.univ.image (colIx ⟨n, h⟩)) := by
  rw [Finset.disjoint_left]
  intro C hC hC'
  obtain ⟨c, _, rfl⟩ := Finset.mem_image.mp hC'
  have : 256 * n + c.val < 256 * n := (mem_cols n _).mp hC
  omega

/-- A sum over the first n+1 blocks is the sum over the first n blocks plus the sum over block n. -/
theorem sum_cols_succ {M : Type*} [AddCommMonoid M] (g : Fin 8192 → M) (n : ℕ) (h : n < 32) :
    ∑ C ∈ cols (n + 1), g C = ∑ C ∈ cols n, g C + ∑ c : Fin 256, g (colIx ⟨n, h⟩ c) := by
  rw [cols_succ n h, Finset.sum_union (cols_disjoint n h),
    Finset.sum_image (fun a _ b _ hab => colIx_injective ⟨n, h⟩ hab)]

/-- The maximum over the first n+1 blocks is the larger of the maximum over the first n blocks and the
    maximum over block n. -/
theorem sup_cols_succ (s : Fin 8192 → EReal) (n : ℕ) (h : n < 32) :
    (cols (n + 1)).sup s = max ((cols n).sup s) (Finset.univ.sup fun c : Fin 256 => s (colIx ⟨n, h⟩ c)) := by
  rw [cols_succ n h, Finset.sup_union, Finset.sup_image]
  rfl

/-- The pairs (block, place) are the columns. -/
def colEquiv : Fin 32 × Fin 256 ≃ Fin 8192 where
  toFun p := colIx p.1 p.2
  invFun C := (⟨C.val / 256, by omega⟩, ⟨C.val % 256, by omega⟩)
  left_inv p := by
    obtain ⟨⟨j, hj⟩, ⟨c, hc⟩⟩ := p
    refine Prod.ext (Fin.ext ?_) (Fin.ext ?_)
    · show (256 * j + c) / 256 = j
      omega
    · show (256 * j + c) % 256 = c
      omega
  right_inv C := by
    refine Fin.ext ?_
    show 256 * (C.val / 256) + C.val % 256 = C.val
    omega

/-- A sum over all columns is the sum over the blocks of the block sums. -/
theorem sum_blocks {M : Type*} [AddCommMonoid M] (g : Fin 8192 → M) :
    ∑ C : Fin 8192, g C = ∑ j : Fin 32, ∑ c : Fin 256, g (colIx j c) := by
  rw [← Fintype.sum_prod_type' (fun j c => g (colIx j c))]
  exact (Equiv.sum_comp colEquiv g).symm

/-! ### Plain running sums -/

/-- The running sum of g block by block. -/
def accum {M : Type*} [AddCommMonoid M] (g : Fin 8192 → M) : ℕ → M
  | 0 => 0
  | n + 1 => if h : n < 32 then accum g n + ∑ c : Fin 256, g (colIx ⟨n, h⟩ c) else accum g n

theorem accum_zero {M : Type*} [AddCommMonoid M] (g : Fin 8192 → M) : accum g 0 = 0 := rfl

theorem accum_succ {M : Type*} [AddCommMonoid M] (g : Fin 8192 → M) (n : ℕ) (h : n < 32) :
    accum g (n + 1) = accum g n + ∑ c : Fin 256, g (colIx ⟨n, h⟩ c) := by
  rw [accum, dif_pos h]

/-- After n blocks the running sum is the sum over the first 256·n columns. -/
theorem accum_eq {M : Type*} [AddCommMonoid M] (g : Fin 8192 → M) (n : ℕ) (hn : n ≤ 32) :
    accum g n = ∑ C ∈ cols n, g C := by
  induction n with
  | zero => rw [accum_zero, cols_zero, Finset.sum_empty]
  | succ n ih =>
    have h : n < 32 := hn
    rw [accum_succ g n h, ih h.le, sum_cols_succ g n h]

theorem accum_final {M : Type*} [AddCommMonoid M] (g : Fin 8192 → M) : accum g 32 = ∑ C : Fin 8192, g C := by
  rw [accum_eq g 32 le_rfl, cols_all]

/-! ### The online softmax -/

/-- One block's update of (running maximum, running denominator). -/
def blockStep (s : Fin 8192 → EReal) (R : Fin 8192) (j : Fin 32) (st : EReal × EReal) : EReal × EReal :=
  (max st.1 (Finset.univ.sup fun c : Fin 256 => s (colIx j c)),
   st.2 * Ideal.exp (st.1 - max st.1 (Finset.univ.sup fun c : Fin 256 => s (colIx j c)))
     + ∑ c : Fin 256, if colIx j c = R then 0
         else Ideal.exp (s (colIx j c) - max st.1 (Finset.univ.sup fun c : Fin 256 => s (colIx j c))))

/-- The state after n blocks (n ≤ 32), from (⊥, 0). -/
def online (s : Fin 8192 → EReal) (R : Fin 8192) : ℕ → EReal × EReal
  | 0 => (⊥, 0)
  | n + 1 => if h : n < 32 then blockStep s R ⟨n, h⟩ (online s R n) else online s R n

theorem online_zero (s : Fin 8192 → EReal) (R : Fin 8192) : online s R 0 = (⊥, 0) := rfl

theorem online_succ (s : Fin 8192 → EReal) (R : Fin 8192) (n : ℕ) (h : n < 32) :
    online s R (n + 1) = blockStep s R ⟨n, h⟩ (online s R n) := by
  rw [online, dif_pos h]

/-- The denominator over a set A of columns relative to m. -/
def partDen (s : Fin 8192 → EReal) (R : Fin 8192) (A : Finset (Fin 8192)) (m : EReal) : EReal :=
  ∑ C ∈ A, if C = R then 0 else Ideal.exp (s C - m)

/-- Rescaling a denominator of real logits from one real maximum to another:
    exp(a − m) · exp(m − m') = exp(a − m'), summed. -/
theorem partDen_rescale (r : Fin 8192 → ℝ) (R : Fin 8192) (A : Finset (Fin 8192)) (m m' : ℝ) :
    partDen (fun C => (r C : EReal)) R A (m : EReal) * Ideal.exp ((m : EReal) - (m' : EReal))
      = partDen (fun C => (r C : EReal)) R A (m' : EReal) := by
  have h1 : ∀ a b : ℝ, Ideal.exp ((a : EReal) - (b : EReal)) = ((Real.exp (a - b) : ℝ) : EReal) :=
    fun a b => by rw [← EReal.coe_sub, Ideal.exp_coe]
  have h2 : ∀ (C : Fin 8192) (x : ℝ),
      (if C = R then (0 : EReal) else (x : EReal)) = (((if C = R then 0 else x : ℝ)) : EReal) := by
    intro C x; split_ifs <;> simp
  unfold partDen
  simp only [h1, h2, ← coe_sum, ← EReal.coe_mul]
  congr 1
  rw [Finset.sum_mul]
  refine Finset.sum_congr rfl fun C _ => ?_
  split_ifs
  · simp
  · rw [← Real.exp_add]; congr 1; ring

/-- After n ≤ 32 blocks of a row of real logits: the maximum over the first 256·n columns and the
    denominator over them relative to that maximum. -/
theorem online_eq (s : Fin 8192 → EReal) (hs : ∀ C, ∃ r : ℝ, s C = (r : EReal)) (R : Fin 8192)
    (n : ℕ) (hn : n ≤ 32) :
    online s R n = ((cols n).sup s, partDen s R (cols n) ((cols n).sup s)) := by
  induction n with
  | zero => rw [online_zero, cols_zero]; rfl
  | succ n ih =>
    have h : n < 32 := hn
    rw [online_succ s R n h, ih h.le]
    unfold blockStep
    dsimp only
    rw [← sup_cols_succ s n h]
    refine Prod.ext rfl ?_
    dsimp only
    obtain ⟨m', hm'⟩ := sup_real (cols (n + 1)) (cols_nonempty _ n.succ_pos) s hs
    have hblock : (∑ c : Fin 256, if colIx ⟨n, h⟩ c = R then 0
          else Ideal.exp (s (colIx ⟨n, h⟩ c) - (cols (n + 1)).sup s))
        = ∑ C ∈ Finset.univ.image (colIx ⟨n, h⟩), if C = R then 0 else Ideal.exp (s C - (cols (n + 1)).sup s) := by
      rw [Finset.sum_image (fun a _ b _ hab => colIx_injective ⟨n, h⟩ hab)]
    have hold : partDen s R (cols n) ((cols n).sup s) * Ideal.exp ((cols n).sup s - (cols (n + 1)).sup s)
        = partDen s R (cols n) ((cols (n + 1)).sup s) := by
      rcases Nat.eq_zero_or_pos n with h0 | h0
      · subst h0
        simp [partDen, cols_zero]
      · obtain ⟨m, hm⟩ := sup_real (cols n) (cols_nonempty n h0) s hs
        choose r hr using hs
        have hsr : s = fun C => (r C : EReal) := funext hr
        rw [hm, hm', hsr]
        exact partDen_rescale r R (cols n) m m'
    rw [hold, hblock]
    unfold partDen
    rw [cols_succ n h, Finset.sum_union (cols_disjoint n h)]

/-- After all 32 blocks: the row's maximum and its denominator. -/
theorem online_final (s : Fin 8192 → EReal) (hs : ∀ C, ∃ r : ℝ, s C = (r : EReal)) (R : Fin 8192) :
    online s R 32
      = (Finset.univ.sup s, ∑ C : Fin 8192, if C = R then 0 else Ideal.exp (s C - Finset.univ.sup s)) := by
  have h := online_eq s hs R 32 le_rfl
  rw [cols_all] at h
  exact h

end Cert.SpecLaws

end
-- ==== Proof.Steps.lean ====
/- The kernel's sweep over the column blocks, as pure functions of what one grid point loads.

   At grid point (i, j) the body loads a 1024-row block of the normalized features (rows 1024·i …), a 256-row
   block of the same array (rows 256·j …: the columns of the similarity matrix), the row labels and the column
   labels, and four 1024×1 columns it carries from point to point: the running row maximum `m`, the running
   denominator `l`, the running sum `w` of the positive logits and the running count `n` of positives.
   `step` is one point: the four columns reset when j = 0 (to −∞, 0, 0, 0), then updated by the block.
   `out4` and `out5` are what the last column block (j = 31) stores into the two results: the per-row mean
   log-probability of the positives (0 where a row has none) and the indicator that the row has a positive. -/
import proofs.«129543_j5634997093327_1_alg».proof.Proof.Gen.KernelIdeal.Skeleton

noncomputable section

namespace Cert.KernelIdeal.Steps

open Idealize.ShloMosaic Cert.KernelIdeal Cert.KernelIdeal.Gen

variable {F : FTy → Type} [FloatOps F] [Facts]

/-- The four columns carried between grid points. -/
structure Acc (F : FTy → Type) where
  m : Vec F S1024x1 .f32
  l : Vec F S1024x1 .f32
  w : Vec F S1024x1 .f32
  n : Vec F S1024x1 .f32

/-- What one grid point loads from its four input blocks, and its coordinates. -/
structure Ins (F : FTy → Type) where
  i : grid0.Coords
  rows : Vec F S1024x256 .bf16
  cols : Vec F S256x256 .bf16
  labR : Vec F S1024x1 .i32
  labC : Vec F S1x256 .i32

/-- The columns at the start of a row sweep: −∞, 0, 0, 0. -/
def reset : Acc F := ⟨k0_pay8, k0_pay9, k0_pay10, k0_pay11⟩

/-- The columns after the body at one grid point, from the columns before it. -/
def step (x : Ins F) (a : Acc F) : Acc F :=
  let a0 : Acc F := if (x.i 1).val = 0 then reset else a
  let mNew := k0_pay15 x.rows x.cols a0.m
  { m := k0_pay4 mNew
    l := k0_pay1 (k0_pay13 x.i) a0.m mNew (k0_pay16 x.rows x.cols a0.m) k0_pay17 a0.l
    w := k0_pay2 (k0_pay12 x.rows x.cols) (k0_pay14 x.i x.labR x.labC) a0.w
    n := k0_pay3 (k0_pay14 x.i x.labR x.labC) a0.n }

/-- What the last column block stores into the first result: per row, the mean over the row's positives of
    logit − max − log(denominator), and 0 for a row with no positive. -/
def out4 (a : Acc F) : Vec F S1024x1 .f32 := k0_pay6 a.n a.l a.w a.m

/-- What it stores into the second result: 1 for a row with a positive, else 0. -/
def out5 (a : Acc F) : Vec F S1024x1 .f32 := k0_pay7 a.n

/-- The columns after the body at the `n`-th grid point (row-major over the 8 × 32 grid). -/
def accAt (ins : ℕ → Ins F) : ℕ → Acc F
  | 0 => step (ins 0) reset
  | n + 1 => step (ins (n + 1)) (accAt ins n)

theorem accAt_zero (ins : ℕ → Ins F) : accAt ins 0 = step (ins 0) reset := rfl
theorem accAt_succ (ins : ℕ → Ins F) (n : ℕ) : accAt ins (n + 1) = step (ins (n + 1)) (accAt ins n) := rfl

end Cert.KernelIdeal.Steps

end
-- ==== Proof.BlockReadIns.lean ====
/- What one grid point loads, as entries of the two arguments: its coordinates are its row block t / 32 and its
   column block t % 32; its feature blocks are rows of the normalized feature argument and its label blocks are
   entries of the label argument, at rows 1024·(t / 32) + r and at columns 256·(t % 32) + c. -/
import proofs.«129543_j5634997093327_1_alg».proof.Proof.HostRead
import proofs.«129543_j5634997093327_1_alg».proof.Proof.BlockRead
import proofs.«129543_j5634997093327_1_alg».proof.Proof.Online
import proofs.«129543_j5634997093327_1_alg».proof.Proof.Steps

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

open Cert.SpecLaws (colIx)

/-- The loads of point t: its coordinates and its four input windows' blocks. -/
abbrev insOf (c : Dev nD) (t : Fin cfg0.N) : Steps.Ins Ideal :=
  ⟨grid0.coords t, iblk m c 0 t, iblk m c 1 t, iblk m c 2 t, iblk m c 3 t⟩

/-- The global row of row r of point t's row block. -/
abbrev rowIx (t : Fin cfg0.N) (r : Fin 1024) : Fin 8192 := ⟨1024 * (t.val / 32) + r.val, rowIx_lt t r⟩

/-- Point t's column block. -/
abbrev colBlk (t : Fin cfg0.N) : Fin 32 := ⟨t.val % 32, Nat.mod_lt _ (by decide)⟩

theorem ins_i0 (c : Dev nD) (t : Fin cfg0.N) : ((insOf m c t).i 0).val = t.val / 32 := coord0_val t

theorem ins_i1 (c : Dev nD) (t : Fin cfg0.N) : ((insOf m c t).i 1).val = t.val % 32 := coord1_val t

/-- The row block holds rows of the normalized features. -/
theorem ins_rows (c : Dev nD) (t : Fin cfg0.N) (r : Fin 1024) (k : Fin 256) :
    (insOf m c t).rows (ix2 r k)
      = Spec.normalize (featOf (m ((c : Thread nD τ).loc main_arg0))) (rowIx t r) k :=
  (iblk0_apply m c t r k).trans (V_v6_apply m c _ k)

/-- The column block holds rows of the normalized features too: those of the point's column block. -/
theorem ins_cols (c : Dev nD) (t : Fin cfg0.N) (cc : Fin 256) (k : Fin 256) :
    (insOf m c t).cols (ix2 cc k)
      = Spec.normalize (featOf (m ((c : Thread nD τ).loc main_arg0))) (colIx (colBlk t) cc) k :=
  (iblk1_apply m c t cc k).trans (V_v6_apply m c _ k)

/-- The row labels. -/
theorem ins_labR (c : Dev nD) (t : Fin cfg0.N) (r : Fin 1024) :
    (insOf m c t).labR (ix2 r 0) = labOf (m ((c : Thread nD τ).loc main_arg1)) (rowIx t r) :=
  (iblk2_apply m c t r).trans (V_v7_apply m c _)

/-- The column labels. -/
theorem ins_labC (c : Dev nD) (t : Fin cfg0.N) (cc : Fin 256) :
    (insOf m c t).labC (ix2 0 cc) = labOf (m ((c : Thread nD τ).loc main_arg1)) (colIx (colBlk t) cc) :=
  (iblk3_apply m c t cc).trans (V_v8_apply m c _)

end Cert.KernelIdeal.Fr

end
-- ==== Proof.StepReadDefs.lean ====
/- The quantities one grid point's update is stated in: the logit of a row of the row block against a row of the
   column block, the condition that the two global row indices coincide, and the indicator of a positive pair. -/
import proofs.«129543_j5634997093327_1_alg».proof.Proof.Steps
import Idealize.ShloMosaic.Lib.ValueIdx

noncomputable section

namespace Cert.KernelIdeal.StepRead

open Idealize.ShloMosaic Idealize.ShloMosaic.ValueIdx Cert.KernelIdeal Cert.KernelIdeal.Steps

/-- The logit of row `r` of the row block against row `c` of the column block: twice their inner product. -/
def sblk (x : Ins Ideal) (r : Fin 1024) (c : Fin 256) : EReal :=
  (∑ k : Fin 256, x.rows (ix2 r k) * x.cols (ix2 c k)) * 2

/-- The global row index of row `r` of the row block equals the global row index of row `c` of the column block. -/
def diag (x : Ins Ideal) (r : Fin 1024) (c : Fin 256) : Prop :=
  1024 * (x.i 0).val + r.val = 256 * (x.i 1).val + c.val

instance (x : Ins Ideal) (r : Fin 1024) (c : Fin 256) : Decidable (diag x r c) := by
  unfold diag; infer_instance

/-- The indicator of a positive pair: equal labels, off the diagonal. -/
def posb (x : Ins Ideal) (r : Fin 1024) (c : Fin 256) : EReal :=
  if x.labR (ix2 r 0) = x.labC (ix2 0 c) ∧ ¬ diag x r c then 1 else 0

variable [Facts]

/-- The columns a grid point starts from: reset at the first column block of a row sweep, else the carried ones. -/
abbrev acc0 (x : Ins Ideal) (a : Acc Ideal) : Acc Ideal := if (x.i 1).val = 0 then reset else a

end Cert.KernelIdeal.StepRead

end
-- ==== Proof.StepReadSim.lean ====
/- The similarity block read at an index: the matrix product of the row block with the transposed column block,
   scaled by the constant 2, is at (r, c) twice the inner product of row r of the one with row c of the other. -/
import proofs.«129543_j5634997093327_1_alg».proof.Proof.StepReadDefs
import Idealize.ShloMosaic.Lib.ValueIdx
import Idealize.ShloMosaic.Lib.Pipeline.Value
import Idealize.ShloMosaic.PureOps.Ideal.Laws

noncomputable section

namespace Cert.KernelIdeal.StepRead

open Idealize.ShloMosaic Idealize.ShloMosaic.ValueIdx Cert.KernelIdeal Cert.KernelIdeal.Gen Cert.KernelIdeal.Steps

variable [Facts]

/-- The f32 word 0x40000000 denotes the real number 2. -/
theorem ofBits_two : Ideal.ofBits .f32 0x40000000#32 = 2 := by
  simp [Ideal.ofBits, Ideal.ieee]
  rw [← EReal.coe_mul]
  norm_num
  first | rfl | norm_cast | simp

theorem lhs_0 (j : S1024x256.Idx) (q : dot_S1024x256_S256x256_S1024x256_1_1_0_0_n_n.contr.Idx) :
    (dot_S1024x256_S256x256_S1024x256_1_1_0_0_n_n.lhsIdx j q 0).val = (j 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl
theorem lhs_1 (j : S1024x256.Idx) (q : dot_S1024x256_S256x256_S1024x256_1_1_0_0_n_n.contr.Idx) :
    (dot_S1024x256_S256x256_S1024x256_1_1_0_0_n_n.lhsIdx j q 1).val = (q ⟨0, by decide⟩).val :=
  dot_S1024x256_S256x256_S1024x256_1_1_0_0_n_n.lhsIdx_val_of_single rfl j q
theorem rhs_0 (j : S1024x256.Idx) (q : dot_S1024x256_S256x256_S1024x256_1_1_0_0_n_n.contr.Idx) :
    (dot_S1024x256_S256x256_S1024x256_1_1_0_0_n_n.rhsIdx j q 0).val = (j 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl
theorem rhs_1 (j : S1024x256.Idx) (q : dot_S1024x256_S256x256_S1024x256_1_1_0_0_n_n.contr.Idx) :
    (dot_S1024x256_S256x256_S1024x256_1_1_0_0_n_n.rhsIdx j q 1).val = (q ⟨0, by decide⟩).val :=
  dot_S1024x256_S256x256_S1024x256_1_1_0_0_n_n.rhsIdx_val_of_single rfl j q

/-- The left operand's index of the contraction at output (r, c) and position k is (r, k). -/
theorem lhsIdx_eq (r : Fin 1024) (c : Fin 256) (k : Fin 256) :
    dot_S1024x256_S256x256_S1024x256_1_1_0_0_n_n.lhsIdx (ix2 r c)
      ((contrEquiv1 dot_S1024x256_S256x256_S1024x256_1_1_0_0_n_n 256 rfl rfl).symm k) = ix2 r k := by
  have hk := contrEquiv1_symm_val dot_S1024x256_S256x256_S1024x256_1_1_0_0_n_n 256 rfl rfl k
  funext a
  refine Fin.ext ?_
  match a with
  | ⟨0, _⟩ => exact lhs_0 _ _
  | ⟨1, _⟩ => exact (lhs_1 _ _).trans hk

/-- The right operand's index there is (c, k): the contraction runs over the second axis of both. -/
theorem rhsIdx_eq (r : Fin 1024) (c : Fin 256) (k : Fin 256) :
    dot_S1024x256_S256x256_S1024x256_1_1_0_0_n_n.rhsIdx (ix2 r c)
      ((contrEquiv1 dot_S1024x256_S256x256_S1024x256_1_1_0_0_n_n 256 rfl rfl).symm k) = ix2 c k := by
  have hk := contrEquiv1_symm_val dot_S1024x256_S256x256_S1024x256_1_1_0_0_n_n 256 rfl rfl k
  funext a
  refine Fin.ext ?_
  match a with
  | ⟨0, _⟩ => exact rhs_0 _ _
  | ⟨1, _⟩ => exact (rhs_1 _ _).trans hk

/-- The scaled similarity block at (r, c). -/
theorem pay12_apply (v3 : FVec Ideal S1024x256 .bf16) (v5 : FVec Ideal S256x256 .bf16) (r : Fin 1024) (c : Fin 256) :
    k0_pay12 (F := Ideal) v3 v5 (ix2 r c) = (∑ k : Fin 256, v3 (ix2 r k) * v5 (ix2 c k)) * 2 := by
  unfold k0_pay12
  simp only [shapeCast_self]
  show (matmul dot_S1024x256_S256x256_S1024x256_1_1_0_0_n_n none v3 v5 (constant (F := Ideal) S1024x256 .f32 0x00000000#32)) (ix2 r c)
      * Ideal.ofBits .f32 0x40000000#32 = _
  rw [ofBits_two]
  refine congrArg (· * (2 : EReal)) ?_
  simp only [matmul]
  rw [Ideal.matmul_constant_zero_apply,
    ← Equiv.sum_comp (contrEquiv1 dot_S1024x256_S256x256_S1024x256_1_1_0_0_n_n 256 rfl rfl).symm]
  refine Finset.sum_congr rfl fun k _ => ?_
  rw [lhsIdx_eq, rhsIdx_eq]

/-- At the grid point's loads: the scaled similarity block is `sblk`. -/
theorem pay12_eq_sblk (x : Ins Ideal) (r : Fin 1024) (c : Fin 256) :
    k0_pay12 (F := Ideal) x.rows x.cols (ix2 r c) = sblk x r c :=
  pay12_apply x.rows x.cols r c

end Cert.KernelIdeal.StepRead

end
-- ==== Proof.StepReadRed.lean ====
/- A reduction along the lanes of a 1024×256 block, kept as a 1024×1 column, read at a row: the sum of the row's
   entries, or their supremum; and a column broadcast along the lanes read at an entry. -/
import proofs.«129543_j5634997093327_1_alg».proof.Proof.StepReadDefs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.StepRead

open Idealize.ShloMosaic Idealize.ShloMosaic.ValueIdx Cert.KernelIdeal Cert.KernelIdeal.Gen Cert.KernelIdeal.Steps

variable [Facts]

/-- The f32 word 0xFF800000 denotes −∞. -/
theorem ofBits_ninf : Ideal.ofBits .f32 0xFF800000#32 = ⊥ := by
  simp [Ideal.ofBits, Ideal.ieee]

/-- The f32 word 0x3F800000 denotes 1. -/
theorem ofBits_one : Ideal.ofBits .f32 0x3F800000#32 = 1 := by
  simp [Ideal.ofBits, Ideal.ieee]
  rw [← EReal.coe_mul]
  norm_num

/-- Row r's entry c is the index the lane reduction visits at row r and lane c. -/
theorem lift_eq (h : S1024x256.Reduces [1] S1024) (r : Fin 1024) (c : Fin 256) : h.lift (ix1 r) c = ix2 r c := by
  funext a
  refine Fin.ext ?_
  match a with
  | ⟨0, _⟩ => rfl
  | ⟨1, _⟩ => rfl

/-- A vector of 1024 entries viewed as a 1024×1 column reads its entry r at (r, 0). -/
theorem col_apply {α : Type} (v : S1024.Idx → α) (r : Fin 1024) :
    shapeCast S1024x1 v shapeCasts_S1024_S1024x1 (ix2 r 0) = v (ix1 r) :=
  shapeCast_apply v shapeCasts_S1024_S1024x1 (ix2 r (0 : Fin 1)) (ix1 r) (by
    rw [Shape.rowMajor_val_two, Shape.rowMajor_val_one]
    show r.val = r.val * 1 + 0
    omega)

/-- A 1024×1 column broadcast along 256 lanes reads, at (r, c), the column at (r, 0). -/
theorem bcol_apply {α : Type} (v : S1024x1.Idx → α) (r : Fin 1024) (c : Fin 256) :
    broadcastTo S1024x256 v broadcasts_S1024x1_S1024x256 (ix2 r c) = v (ix2 r 0) := by
  refine broadcastTo_apply v broadcasts_S1024x1_S1024x256 (ix2 r c) (ix2 r (0 : Fin 1)) fun ax => ?_
  match ax with
  | ⟨0, _⟩ => rfl
  | ⟨1, _⟩ => rfl

/-- The lane sum of a block, kept as a column, at row r: the sum of the row's entries. -/
theorem rowsum_apply (src : FVec Ideal S1024x256 .f32) (r : Fin 1024) :
    shapeCast S1024x1 (multiReduction (F := Ideal) .add [1] S1024 src 0x00000000#32 reduces_S1024x256_S1024 (.inl rfl) rfl)
      shapeCasts_S1024_S1024x1 (ix2 r 0) = ∑ c : Fin 256, src (ix2 r c) := by
  refine (col_apply _ r).trans ?_
  refine (Ideal.multiReduction_add_single src 0x00000000#32 reduces_S1024x256_S1024 (.inl rfl) rfl (ix1 r)).trans ?_
  exact Finset.sum_congr rfl fun c _ => congrArg src (lift_eq _ r c)

/-- The lane maximum of a block from −∞, kept as a column, at row r: the supremum of the row's entries. -/
theorem rowmax_apply (src : FVec Ideal S1024x256 .f32) (r : Fin 1024) :
    shapeCast S1024x1 (multiReduction (F := Ideal) .maximumf [1] S1024 src 0xFF800000#32 reduces_S1024x256_S1024 (.inl rfl) rfl)
      shapeCasts_S1024_S1024x1 (ix2 r 0) = Finset.univ.sup fun c : Fin 256 => src (ix2 r c) := by
  refine (col_apply _ r).trans ?_
  refine (Ideal.multiReduction_maximumf_single src 0xFF800000#32 reduces_S1024x256_S1024 (.inl rfl) rfl (ix1 r)).trans ?_
  show (Finset.univ : Finset (Fin 256)).fold max (Ideal.ofBits .f32 0xFF800000#32) (src ∘ reduces_S1024x256_S1024.lift (ix1 r)) = _
  rw [ofBits_ninf]
  have e : (src ∘ reduces_S1024x256_S1024.lift (ix1 r)) = fun c : Fin 256 => src (ix2 r c) :=
    funext fun c => congrArg src (lift_eq _ r c)
  exact (congrArg (fun g => (Finset.univ : Finset (Fin 256)).fold max (⊥ : EReal) g) e).trans rfl

end Cert.KernelIdeal.StepRead

end
-- ==== Proof.StepReadMax.lean ====
/- The running row maximum of one grid point read at a row: the larger of the carried maximum and the supremum of
   the row's scaled similarities; and the exponentials of the block against it. -/
import proofs.«129543_j5634997093327_1_alg».proof.Proof.StepReadSim
import proofs.«129543_j5634997093327_1_alg».proof.Proof.StepReadRed

noncomputable section

namespace Cert.KernelIdeal.StepRead

open Idealize.ShloMosaic Idealize.ShloMosaic.ValueIdx Cert.KernelIdeal Cert.KernelIdeal.Gen Cert.KernelIdeal.Steps

variable [Facts]

/-- The new row maximum at row r. -/
theorem pay15_apply (v3 : FVec Ideal S1024x256 .bf16) (v5 : FVec Ideal S256x256 .bf16) (v32 : FVec Ideal S1024x1 .f32)
    (r : Fin 1024) :
    k0_pay15 (F := Ideal) v3 v5 v32 (ix2 r 0)
      = max (v32 (ix2 r 0)) (Finset.univ.sup fun c : Fin 256 => k0_pay12 (F := Ideal) v3 v5 (ix2 r c)) := by
  unfold k0_pay15
  show max (v32 (ix2 r 0)) (shapeCast S1024x1 (multiReduction (F := Ideal) .maximumf [1] S1024 (k0_pay12 v3 v5) 0xFF800000#32
      reduces_S1024x256_S1024 (.inl rfl) rfl) shapeCasts_S1024_S1024x1 (ix2 r 0)) = _
  exact congrArg (max (v32 (ix2 r 0))) (rowmax_apply _ r)

/-- The exponential of the block against the new row maximum, at (r, c). -/
theorem pay16_apply (v3 : FVec Ideal S1024x256 .bf16) (v5 : FVec Ideal S256x256 .bf16) (v32 : FVec Ideal S1024x1 .f32)
    (r : Fin 1024) (c : Fin 256) :
    k0_pay16 (F := Ideal) v3 v5 v32 (ix2 r c)
      = Ideal.exp (k0_pay12 (F := Ideal) v3 v5 (ix2 r c) - k0_pay15 (F := Ideal) v3 v5 v32 (ix2 r 0)) := by
  unfold k0_pay16
  show Ideal.exp (k0_pay12 (F := Ideal) v3 v5 (ix2 r c)
      - broadcastTo S1024x256 (k0_pay15 (F := Ideal) v3 v5 v32) broadcasts_S1024x1_S1024x256 (ix2 r c)) = _
  rw [bcol_apply]

end Cert.KernelIdeal.StepRead

end
-- ==== Proof.StepReadMask.lean ====
/- The two masks of one grid point read at an entry: the diagonal mask compares the global row index with the
   global column index (32-bit words that do not wrap: every value is below 8192), and the positives' mask is the
   indicator of equal labels off the diagonal, as the real number 1 or 0. -/
import proofs.«129543_j5634997093327_1_alg».proof.Proof.StepReadRed

noncomputable section

namespace Cert.KernelIdeal.StepRead

open Idealize.ShloMosaic Idealize.ShloMosaic.ValueIdx Cert.KernelIdeal Cert.KernelIdeal.Gen Cert.KernelIdeal.Steps

variable [Facts]

/-- Below 2^32 the two words are equal exactly when the two natural numbers are. -/
theorem word_eq_iff (a b r c : Nat) (ha : a < 8) (hb : b < 32) (hr : r < 1024) (hc : c < 256) :
    (BitVec.ofNat 32 r + BitVec.ofNat 32 a * 1024#32 = BitVec.ofNat 32 c + BitVec.ofNat 32 b * 256#32)
      ↔ 1024 * a + r = 256 * b + c := by
  rw [← BitVec.toNat_inj]
  simp only [BitVec.toNat_add, BitVec.toNat_mul, BitVec.toNat_ofNat]
  omega

/-- The diagonal mask at (r, c): the bit 1 exactly where the global row and column indices coincide. -/
theorem pay13_apply (i : grid0.Coords) (r : Fin 1024) (c : Fin 256) :
    k0_pay13 i (ix2 r c) = if 1024 * (i 0).val + r.val = 256 * (i 1).val + c.val then 1#1 else 0#1 := by
  unfold k0_pay13
  show IntOp.cmpi .eq
      (IntOp.addi (iota .tc S1024x256 32 [0] iota_S1024x256_d0_w32 (ix2 r c)) (Scalar.muli (BitVec.ofNat 32 (i 0).val) 1024#32))
      (IntOp.addi (iota .tc S1024x256 32 [1] iota_S1024x256_d1_w32 (ix2 r c)) (Scalar.muli (BitVec.ofNat 32 (i 1).val) 256#32)) = _
  rw [iota_single_apply, iota_single_apply]
  show BitVec.ofBool (BitVec.ofNat 32 r.val + BitVec.ofNat 32 (i 0).val * 1024#32
      == BitVec.ofNat 32 c.val + BitVec.ofNat 32 (i 1).val * 256#32) = _
  have h0 : (i 0).val < 8 := (i 0).isLt
  have h1 : (i 1).val < 32 := (i 1).isLt
  by_cases h : 1024 * (i 0).val + r.val = 256 * (i 1).val + c.val
  · rw [if_pos h, (word_eq_iff _ _ _ _ h0 h1 r.isLt c.isLt).mpr h]
    simp
  · rw [if_neg h]
    have hne := mt (word_eq_iff _ _ _ _ h0 h1 r.isLt c.isLt).mp h
    rw [beq_eq_false_iff_ne.mpr hne]
    rfl

/-- A one-bit word widened to 32 bits and converted to a real number: 1 for the bit 1, else 0. -/
theorem sitofp_bit (b : BitVec 1) :
    FloatOps.sitofp (F := Ideal) .f32 (b.setWidth 32) = if b = 1#1 then (1 : EReal) else 0 := by
  rcases BitVec.eq_zero_or_eq_one b with h | h <;> subst h
  · show ((((0#1 : BitVec 1).setWidth 32).toInt : ℝ) : EReal) = _
    have e : ((0#1 : BitVec 1).setWidth 32).toInt = 0 := by decide
    rw [e]; simp
  · show ((((1#1 : BitVec 1).setWidth 32).toInt : ℝ) : EReal) = _
    have e : ((1#1 : BitVec 1).setWidth 32).toInt = 1 := by decide
    rw [e]; simp

/-- The comparison of two words for equality, as one bit. -/
theorem cmpi_eq_bit (a b : BitVec 32) : IntOp.cmpi .eq a b = if a = b then 1#1 else 0#1 := by
  by_cases h : a = b
  · subst h; simp [IntOp.cmpi]
  · rw [if_neg h]
    show BitVec.ofBool (a == b) = 0#1
    rw [beq_eq_false_iff_ne.mpr h]
    rfl

/-- "Equal words, and not the bit p" as one bit. -/
theorem bit_and (a b : BitVec 32) (p : BitVec 1) :
    (IntOp.andi (IntOp.cmpi .eq a b) (IntOp.xori p 1#1) = 1#1) ↔ (a = b ∧ p = 0#1) := by
  rw [cmpi_eq_bit]
  by_cases hab : a = b
  · rw [if_pos hab]
    rcases BitVec.eq_zero_or_eq_one p with h | h <;> subst h <;> simp [hab, IntOp.andi, IntOp.xori]
  · rw [if_neg hab]
    rcases BitVec.eq_zero_or_eq_one p with h | h <;> subst h <;> simp [hab, IntOp.andi, IntOp.xori]

/-- The positives' mask at (r, c): 1 where the row label equals the column label off the diagonal, else 0. -/
theorem pay14_apply (i : grid0.Coords) (v19 : IVec S1024x1 32) (v21 : IVec S1x256 32) (r : Fin 1024) (c : Fin 256) :
    k0_pay14 (F := Ideal) i v19 v21 (ix2 r c)
      = if v19 (ix2 r 0) = v21 (ix2 0 c) ∧ ¬ (1024 * (i 0).val + r.val = 256 * (i 1).val + c.val) then (1 : EReal) else 0 := by
  unfold k0_pay14
  simp only [shapeCast_self]
  show FloatOps.sitofp (F := Ideal) .f32
      ((IntOp.andi (IntOp.cmpi .eq (broadcastTo S1024x256 v19 broadcasts_S1024x1_S1024x256 (ix2 r c))
          (broadcastTo S1024x256 v21 broadcasts_S1x256_S1024x256 (ix2 r c)))
        (IntOp.xori (k0_pay13 i (ix2 r c)) 1#1)).setWidth 32) = _
  rw [bcol_apply, broadcastTo_1b_ab_apply, pay13_apply, sitofp_bit]
  refine if_congr ?_ rfl rfl
  rw [bit_and]
  by_cases hd : 1024 * (i 0).val + r.val = 256 * (i 1).val + c.val
  · simp [hd]
  · simp [hd]

/-- At the grid point's loads: the diagonal mask is `diag` … -/
theorem pay13_eq_diag (x : Ins Ideal) (r : Fin 1024) (c : Fin 256) :
    k0_pay13 x.i (ix2 r c) = if diag x r c then 1#1 else 0#1 :=
  pay13_apply x.i r c

/-- … and the positives' mask is `posb`. -/
theorem pay14_eq_posb (x : Ins Ideal) (r : Fin 1024) (c : Fin 256) :
    k0_pay14 (F := Ideal) x.i x.labR x.labC (ix2 r c) = posb x r c :=
  pay14_apply x.i x.labR x.labC r c

end Cert.KernelIdeal.StepRead

end
-- ==== Proof.StepReadAcc.lean ====
/- The three accumulating payloads of one grid point, and the two results' payloads, read at a row, over variables. -/
import proofs.«129543_j5634997093327_1_alg».proof.Proof.StepReadRed

noncomputable section

namespace Cert.KernelIdeal.StepRead

open Idealize.ShloMosaic Idealize.ShloMosaic.ValueIdx Cert.KernelIdeal Cert.KernelIdeal.Gen Cert.KernelIdeal.Steps

variable [Facts]

/-- The running denominator at row r: the carried one rescaled, plus the row's sum of the masked exponentials. -/
theorem pay1_apply (v18 : IVec S1024x256 1) (v32 v33 : FVec Ideal S1024x1 .f32) (v36 v37 : FVec Ideal S1024x256 .f32)
    (v41 : FVec Ideal S1024x1 .f32) (r : Fin 1024) :
    k0_pay1 (F := Ideal) v18 v32 v33 v36 v37 v41 (ix2 r 0)
      = v41 (ix2 r 0) * Ideal.exp (v32 (ix2 r 0) - v33 (ix2 r 0))
        + ∑ c : Fin 256, Scalar.select (v18 (ix2 r c)) (v37 (ix2 r c)) (v36 (ix2 r c)) := by
  unfold k0_pay1
  simp only [shapeCast_self]
  show v41 (ix2 r 0) * Ideal.exp (v32 (ix2 r 0) - v33 (ix2 r 0))
      + shapeCast S1024x1 (multiReduction (F := Ideal) .add [1] S1024 (select v18 v37 v36) 0x00000000#32
          reduces_S1024x256_S1024 (.inl rfl) rfl) shapeCasts_S1024_S1024x1 (ix2 r 0) = _
  exact congrArg (v41 (ix2 r 0) * Ideal.exp (v32 (ix2 r 0) - v33 (ix2 r 0)) + ·) (rowsum_apply _ r)

/-- The running sum of the positives' logits at row r. -/
theorem pay2_apply (v9 v29 : FVec Ideal S1024x256 .f32) (v49 : FVec Ideal S1024x1 .f32) (r : Fin 1024) :
    k0_pay2 (F := Ideal) v9 v29 v49 (ix2 r 0) = v49 (ix2 r 0) + ∑ c : Fin 256, v9 (ix2 r c) * v29 (ix2 r c) := by
  unfold k0_pay2
  simp only [shapeCast_self]
  show v49 (ix2 r 0) + shapeCast S1024x1 (multiReduction (F := Ideal) .add [1] S1024 (mulf v9 v29) 0x00000000#32
      reduces_S1024x256_S1024 (.inl rfl) rfl) shapeCasts_S1024_S1024x1 (ix2 r 0) = _
  exact congrArg (v49 (ix2 r 0) + ·) (rowsum_apply _ r)

/-- The running count of positives at row r. -/
theorem pay3_apply (v29 : FVec Ideal S1024x256 .f32) (v57 : FVec Ideal S1024x1 .f32) (r : Fin 1024) :
    k0_pay3 (F := Ideal) v29 v57 (ix2 r 0) = v57 (ix2 r 0) + ∑ c : Fin 256, v29 (ix2 r c) := by
  unfold k0_pay3
  simp only [shapeCast_self]
  show v57 (ix2 r 0) + shapeCast S1024x1 (multiReduction (F := Ideal) .add [1] S1024 v29 0x00000000#32
      reduces_S1024x256_S1024 (.inl rfl) rfl) shapeCasts_S1024_S1024x1 (ix2 r 0) = _
  exact congrArg (v57 (ix2 r 0) + ·) (rowsum_apply _ r)

/-- The comparison "n > 0" of a column, as one bit, at an entry. -/
theorem pay5_apply (v70 : FVec Ideal S1024x1 .f32) (j : S1024x1.Idx) :
    k0_pay5 (F := Ideal) v70 j = if 0 < v70 j then 1#1 else 0#1 := by
  unfold k0_pay5
  show Ideal.cmp .ogt (v70 j) (Ideal.ofBits .f32 0x00000000#32) = _
  rw [Ideal.ofBits_zero_f32]
  unfold Ideal.cmp
  by_cases h : 0 < v70 j
  · simp [h]
  · simp [h]

/-- The first result's payload at a row: for a row with a positive, the mean over its positives of
    logit − max − log(denominator); else 0. -/
theorem pay6_apply (v70 v73 v75 v76 : FVec Ideal S1024x1 .f32) (j : S1024x1.Idx) :
    k0_pay6 (F := Ideal) v70 v73 v75 v76 j
      = if 0 < v70 j then Ideal.div (v75 j - v76 j * v70 j - Ideal.log (v73 j) * v70 j) (max (v70 j) 1) else 0 := by
  unfold k0_pay6
  show Scalar.select (k0_pay5 (F := Ideal) v70 j)
      (Ideal.div (v75 j - v76 j * v70 j - Ideal.log (v73 j) * v70 j) (max (v70 j) (Ideal.ofBits .f32 0x3F800000#32)))
      (Ideal.ofBits .f32 0x00000000#32) = _
  rw [pay5_apply, ofBits_one, Ideal.ofBits_zero_f32]
  by_cases h : 0 < v70 j
  · rw [if_pos h, if_pos h]; rfl
  · rw [if_neg h, if_neg h]; rfl

end Cert.KernelIdeal.StepRead

end
-- ==== Proof.StepRead.lean ====
/- One grid point of the kernel read row by row at the exact instance: the reset columns, the four updated columns
   as functions of the point's loads and the columns it starts from, and the two results' payloads. -/
import proofs.«129543_j5634997093327_1_alg».proof.Proof.StepReadMax
import proofs.«129543_j5634997093327_1_alg».proof.Proof.StepReadMask
import proofs.«129543_j5634997093327_1_alg».proof.Proof.StepReadAcc

noncomputable section

namespace Cert.KernelIdeal.StepRead

open Idealize.ShloMosaic Idealize.ShloMosaic.ValueIdx Cert.KernelIdeal Cert.KernelIdeal.Gen Cert.KernelIdeal.Steps

variable [Facts]

/-- The reset columns: −∞ for the maximum, 0 for the denominator, the positives' sum and their count. -/
theorem reset_apply (r : Fin 1024) :
    (reset (F := Ideal)).m (ix2 r 0) = ⊥ ∧ (reset (F := Ideal)).l (ix2 r 0) = 0
      ∧ (reset (F := Ideal)).w (ix2 r 0) = 0 ∧ (reset (F := Ideal)).n (ix2 r 0) = 0 := by
  refine ⟨?_, ?_, ?_, ?_⟩
  · show k0_pay8 (F := Ideal) (ix2 r 0) = ⊥
    unfold k0_pay8
    simp only [shapeCast_self]
    exact ofBits_ninf
  · show k0_pay9 (F := Ideal) (ix2 r 0) = 0
    unfold k0_pay9
    simp only [shapeCast_self]
    exact Ideal.ofBits_zero_f32
  · show k0_pay10 (F := Ideal) (ix2 r 0) = 0
    unfold k0_pay10
    simp only [shapeCast_self]
    exact Ideal.ofBits_zero_f32
  · show k0_pay11 (F := Ideal) (ix2 r 0) = 0
    unfold k0_pay11
    simp only [shapeCast_self]
    exact Ideal.ofBits_zero_f32

/-- The zero block the masked entries are replaced by. -/
theorem pay17_apply (j : S1024x256.Idx) : k0_pay17 (F := Ideal) j = 0 := by
  unfold k0_pay17
  exact Ideal.ofBits_zero_f32

/-- The updated maximum column is the new row maximum. -/
theorem step_m_eq (x : Ins Ideal) (a : Acc Ideal) : (step x a).m = k0_pay15 (F := Ideal) x.rows x.cols (acc0 x a).m := by
  show k0_pay4 (k0_pay15 (F := Ideal) x.rows x.cols (acc0 x a).m) = _
  unfold k0_pay4
  exact shapeCast_self _ _

/-- The maximum after the point: the larger of the one before and the supremum of the row's logits in this block. -/
theorem step_m (x : Ins Ideal) (a : Acc Ideal) (r : Fin 1024) :
    (step x a).m (ix2 r 0) = max ((acc0 x a).m (ix2 r 0)) (Finset.univ.sup fun c : Fin 256 => sblk x r c) := by
  rw [step_m_eq]
  refine (pay15_apply x.rows x.cols (acc0 x a).m r).trans ?_
  exact congrArg (max ((acc0 x a).m (ix2 r 0))) (congrArg Finset.univ.sup (funext fun c => pay12_eq_sblk x r c))

/-- The denominator after the point: the one before rescaled to the new maximum, plus the off-diagonal exponentials. -/
theorem step_l (x : Ins Ideal) (a : Acc Ideal) (r : Fin 1024) :
    (step x a).l (ix2 r 0)
      = (acc0 x a).l (ix2 r 0) * Ideal.exp ((acc0 x a).m (ix2 r 0) - (step x a).m (ix2 r 0))
        + ∑ c : Fin 256, if diag x r c then 0 else Ideal.exp (sblk x r c - (step x a).m (ix2 r 0)) := by
  rw [step_m_eq]
  show k0_pay1 (F := Ideal) (k0_pay13 x.i) (acc0 x a).m (k0_pay15 (F := Ideal) x.rows x.cols (acc0 x a).m)
      (k0_pay16 (F := Ideal) x.rows x.cols (acc0 x a).m) (k0_pay17 (F := Ideal)) (acc0 x a).l (ix2 r 0) = _
  refine (pay1_apply _ _ _ _ _ _ r).trans ?_
  refine congrArg (_ + ·) (Finset.sum_congr rfl fun c _ => ?_)
  rw [pay13_eq_diag, pay16_apply, pay12_eq_sblk, pay17_apply]
  by_cases h : diag x r c
  · rw [if_pos h, if_pos h, select_one]
  · rw [if_neg h, if_neg h, select_zero]

/-- The positives' logit sum after the point. -/
theorem step_w (x : Ins Ideal) (a : Acc Ideal) (r : Fin 1024) :
    (step x a).w (ix2 r 0) = (acc0 x a).w (ix2 r 0) + ∑ c : Fin 256, sblk x r c * posb x r c := by
  show k0_pay2 (F := Ideal) (k0_pay12 (F := Ideal) x.rows x.cols) (k0_pay14 (F := Ideal) x.i x.labR x.labC) (acc0 x a).w (ix2 r 0) = _
  refine (pay2_apply _ _ _ r).trans ?_
  refine congrArg (_ + ·) (Finset.sum_congr rfl fun c _ => ?_)
  rw [pay12_eq_sblk, pay14_eq_posb]

/-- The positives' count after the point. -/
theorem step_n (x : Ins Ideal) (a : Acc Ideal) (r : Fin 1024) :
    (step x a).n (ix2 r 0) = (acc0 x a).n (ix2 r 0) + ∑ c : Fin 256, posb x r c := by
  show k0_pay3 (F := Ideal) (k0_pay14 (F := Ideal) x.i x.labR x.labC) (acc0 x a).n (ix2 r 0) = _
  refine (pay3_apply _ _ r).trans ?_
  refine congrArg (_ + ·) (Finset.sum_congr rfl fun c _ => ?_)
  rw [pay14_eq_posb]

/-- The first result at a row. -/
theorem out4_apply (a : Acc Ideal) (r : Fin 1024) :
    out4 a (ix2 r 0)
      = if 0 < a.n (ix2 r 0) then
          Ideal.div (a.w (ix2 r 0) - a.m (ix2 r 0) * a.n (ix2 r 0) - Ideal.log (a.l (ix2 r 0)) * a.n (ix2 r 0))
            (max (a.n (ix2 r 0)) 1)
        else 0 :=
  pay6_apply a.n a.l a.w a.m (ix2 r 0)

/-- The second result at a row: the indicator that the row has a positive. -/
theorem out5_apply (a : Acc Ideal) (r : Fin 1024) :
    out5 a (ix2 r 0) = if 0 < a.n (ix2 r 0) then 1 else 0 := by
  show k0_pay7 (F := Ideal) a.n (ix2 r 0) = _
  unfold k0_pay7
  show FloatOps.sitofp (F := Ideal) .f32 ((k0_pay5 (F := Ideal) a.n (ix2 r 0)).setWidth 32) = _
  rw [sitofp_bit, pay5_apply]
  by_cases h : 0 < a.n (ix2 r 0)
  · rw [if_pos h, if_pos h, if_pos rfl]
  · rw [if_neg h, if_neg h, if_neg (by decide)]

end Cert.KernelIdeal.StepRead

end
-- ==== Proof.OnlineSpec.lean ====
/- The online sweep applied to the specification's logits.

   For row R of real features, the sweep over the 32 blocks of the logits sim f R ends in the row's maximum
   and denominator; the plain running sums of sim · pos and of pos end in the sum of the positive logits and
   the number of positives.  Hence the grouped per-row sum  w − m · n − log l · n  computed from the final
   state of the sweep is the specification's `rowSum`. -/
import proofs.«129543_j5634997093327_1_alg».proof.Proof.Online

noncomputable section

namespace Cert.SpecLaws

open Cert.Spec Idealize.ShloMosaic

/-- The sweep over a row of logits of real features ends in (row maximum, denominator). -/
theorem online_sim_final (f : Feat) (hf : ∀ R k, ∃ r : ℝ, f R k = (r : EReal)) (R : Fin 8192) :
    online (sim f R) R 32 = (rowMax f R, den f R) :=
  online_final (sim f R) (sim_real f hf R) R

/-- The running sum of the positive logits ends in their sum over the whole row. -/
theorem accum_sim_pos_final (f : Feat) (lab : Lab) (R : Fin 8192) :
    accum (fun C => sim f R C * pos lab R C) 32 = ∑ C : Fin 8192, sim f R C * pos lab R C :=
  accum_final _

/-- The running count of positives ends in the number of positives of the row. -/
theorem accum_pos_final (lab : Lab) (R : Fin 8192) : accum (pos lab R) 32 = npos lab R :=
  accum_final _

/-- The grouped per-row sum read off the final state of the sweep is `rowSum`. -/
theorem rowSum_of_online (f : Feat) (lab : Lab) (hf : ∀ R k, ∃ r : ℝ, f R k = (r : EReal)) (R : Fin 8192) :
    accum (fun C => sim f R C * pos lab R C) 32 - (online (sim f R) R 32).1 * accum (pos lab R) 32
        - Ideal.log (online (sim f R) R 32).2 * accum (pos lab R) 32
      = rowSum f lab R := by
  rw [online_sim_final f hf R, accum_sim_pos_final, accum_pos_final]
  rfl

/-- The per-row mean read off the final state of the sweep (0 for a row with no positive) is the
    specification's per-row mean of `rowSum`. -/
theorem perRow_of_online (f : Feat) (lab : Lab) (hf : ∀ R k, ∃ r : ℝ, f R k = (r : EReal)) (R : Fin 8192) :
    (if 0 < accum (pos lab R) 32 then
        Ideal.div
          (accum (fun C => sim f R C * pos lab R C) 32 - (online (sim f R) R 32).1 * accum (pos lab R) 32
            - Ideal.log (online (sim f R) R 32).2 * accum (pos lab R) 32)
          (max (accum (pos lab R) 32) 1)
      else 0)
      = perRowOf (rowSum f lab) lab R := by
  rw [rowSum_of_online f lab hf R, accum_pos_final]
  rfl

/-- The indicator "the running count ended positive" is the specification's `valid`. -/
theorem valid_of_online (lab : Lab) (R : Fin 8192) :
    (if 0 < accum (pos lab R) 32 then (1 : EReal) else 0) = valid lab R := by
  rw [accum_pos_final]
  rfl

/-- The number of positives of a row is a natural number, as an extended real. -/
theorem npos_nat (lab : Lab) (R : Fin 8192) :
    npos lab R = (((Finset.univ.filter fun C : Fin 8192 => lab R = lab C ∧ R ≠ C).card : ℝ) : EReal) := by
  unfold npos
  simp only [pos_coe, ← coe_sum]
  congr 1
  rw [Finset.sum_ite, Finset.sum_const_zero, add_zero, Finset.sum_const, nsmul_eq_mul, mul_one]

end Cert.SpecLaws

end
-- ==== Proof.RowState.lean ====
/- The kernel's sweep, row by row, is the online softmax of the specification's logits.

   Grid point n = 32·i + j (i < 8, j < 32) loads rows 1024·i … of the features as its row block and rows
   256·j … as its column block, with their labels.  For row r of the row block, i.e. the global row
   R = 1024·i + r, the logit against column place c of the block is sim f R (256·j + c), the diagonal
   condition says 256·j + c = R, and the positive indicator is pos lab R (256·j + c).  Hence one point's
   update of the four carried columns at row r is one block step of the online softmax of the row sim f R
   and of the two plain running sums; the columns are reset when j = 0.  By induction over the points,
   after point n the four columns at row r hold the state of the sweep after j + 1 blocks; after the last
   column block (j = 31) they hold the row's maximum, denominator, positive-logit sum and positive count,
   and the two stored results are the specification's per-row mean and validity indicator.

   The per-point equations of the kernel's step and the description of what each point loads are taken as
   hypotheses (`StepEqs`, `GridIns`). -/
import proofs.«129543_j5634997093327_1_alg».proof.Proof.StepReadDefs
import proofs.«129543_j5634997093327_1_alg».proof.Proof.OnlineSpec

noncomputable section

namespace Cert.RowState

open Idealize.ShloMosaic Idealize.ShloMosaic.ValueIdx Cert.KernelIdeal Cert.KernelIdeal.Steps
  Cert.KernelIdeal.StepRead Cert.Spec Cert.SpecLaws

variable [Facts]

/-- The per-point equations of the kernel's step, read at a row. -/
structure StepEqs : Prop where
  reset_m : ∀ r : Fin 1024, (reset (F := Ideal)).m (ix2 r 0) = ⊥
  reset_l : ∀ r : Fin 1024, (reset (F := Ideal)).l (ix2 r 0) = 0
  reset_w : ∀ r : Fin 1024, (reset (F := Ideal)).w (ix2 r 0) = 0
  reset_n : ∀ r : Fin 1024, (reset (F := Ideal)).n (ix2 r 0) = 0
  step_m : ∀ (x : Ins Ideal) (a : Acc Ideal) (r : Fin 1024),
    (step x a).m (ix2 r 0) = max ((acc0 x a).m (ix2 r 0)) (Finset.univ.sup fun c : Fin 256 => sblk x r c)
  step_l : ∀ (x : Ins Ideal) (a : Acc Ideal) (r : Fin 1024),
    (step x a).l (ix2 r 0)
      = (acc0 x a).l (ix2 r 0) * Ideal.exp ((acc0 x a).m (ix2 r 0) - (step x a).m (ix2 r 0))
        + ∑ c : Fin 256, if diag x r c then 0 else Ideal.exp (sblk x r c - (step x a).m (ix2 r 0))
  step_w : ∀ (x : Ins Ideal) (a : Acc Ideal) (r : Fin 1024),
    (step x a).w (ix2 r 0) = (acc0 x a).w (ix2 r 0) + ∑ c : Fin 256, sblk x r c * posb x r c
  step_n : ∀ (x : Ins Ideal) (a : Acc Ideal) (r : Fin 1024),
    (step x a).n (ix2 r 0) = (acc0 x a).n (ix2 r 0) + ∑ c : Fin 256, posb x r c
  out4 : ∀ (a : Acc Ideal) (r : Fin 1024),
    out4 a (ix2 r 0)
      = if 0 < a.n (ix2 r 0) then
          Ideal.div (a.w (ix2 r 0) - a.m (ix2 r 0) * a.n (ix2 r 0) - Ideal.log (a.l (ix2 r 0)) * a.n (ix2 r 0))
            (max (a.n (ix2 r 0)) 1)
        else 0
  out5 : ∀ (a : Acc Ideal) (r : Fin 1024), out5 a (ix2 r 0) = if 0 < a.n (ix2 r 0) then 1 else 0

/-- The column block of grid point n. -/
def blkIx (n : ℕ) : Fin 32 := ⟨n % 32, Nat.mod_lt n (by norm_num)⟩

/-- What the grid points load, row-major over the 8 × 32 grid, from the features f and the labels lab. -/
structure GridIns (f : Feat) (lab : Lab) (ins : ℕ → Ins Ideal) : Prop where
  i0 : ∀ n, n < 256 → ((ins n).i 0).val = n / 32
  i1 : ∀ n, n < 256 → ((ins n).i 1).val = n % 32
  rows : ∀ n (hn : n < 256) (r : Fin 1024) (k : Fin 256),
    (ins n).rows (ix2 r k) = f ⟨1024 * (n / 32) + r.val, by omega⟩ k
  cols : ∀ n, n < 256 → ∀ (c : Fin 256) (k : Fin 256), (ins n).cols (ix2 c k) = f (colIx (blkIx n) c) k
  labR : ∀ n (hn : n < 256) (r : Fin 1024), (ins n).labR (ix2 r 0) = lab ⟨1024 * (n / 32) + r.val, by omega⟩
  labC : ∀ n, n < 256 → ∀ c : Fin 256, (ins n).labC (ix2 0 c) = lab (colIx (blkIx n) c)

variable {f : Feat} {lab : Lab} {ins : ℕ → Ins Ideal}

theorem row_lt (n : ℕ) (hn : n < 256) (r : Fin 1024) : 1024 * (n / 32) + r.val < 8192 := by omega

/-- The block logit at a point is the specification's logit of the global row against the global column. -/
theorem sblk_eq (G : GridIns f lab ins) (n : ℕ) (hn : n < 256) (r : Fin 1024) (R : Fin 8192)
    (hR : R.val = 1024 * (n / 32) + r.val) (c : Fin 256) :
    sblk (ins n) r c = sim f R (colIx (blkIx n) c) := by
  obtain rfl : R = ⟨1024 * (n / 32) + r.val, row_lt n hn r⟩ := Fin.ext hR
  unfold sblk sim
  simp only [G.rows n hn, G.cols n hn]

/-- The diagonal condition at a point says the global column is the global row. -/
theorem diag_iff (G : GridIns f lab ins) (n : ℕ) (hn : n < 256) (r : Fin 1024) (R : Fin 8192)
    (hR : R.val = 1024 * (n / 32) + r.val) (c : Fin 256) :
    diag (ins n) r c ↔ colIx (blkIx n) c = R := by
  unfold diag
  rw [G.i0 n hn, G.i1 n hn, Fin.ext_iff, hR]
  show _ ↔ 256 * (n % 32) + c.val = _
  exact eq_comm

/-- The block's positive indicator is the specification's. -/
theorem posb_eq (G : GridIns f lab ins) (n : ℕ) (hn : n < 256) (r : Fin 1024) (R : Fin 8192)
    (hR : R.val = 1024 * (n / 32) + r.val) (c : Fin 256) :
    posb (ins n) r c = pos lab R (colIx (blkIx n) c) := by
  have hd := diag_iff G n hn r R hR c
  obtain rfl : R = ⟨1024 * (n / 32) + r.val, row_lt n hn r⟩ := Fin.ext hR
  unfold posb pos
  rw [G.labR n hn, G.labC n hn]
  refine if_congr (and_congr Iff.rfl (not_congr ?_)) rfl rfl
  rw [hd]
  exact eq_comm

/-- One point's update at a row, from a state of the sweep after j blocks to the state after j + 1. -/
theorem point_online (E : StepEqs) (x : Ins Ideal) (a : Acc Ideal) (r : Fin 1024) (R : Fin 8192) (j : ℕ) (hj : j < 32)
    (hs : ∀ c : Fin 256, sblk x r c = sim f R (colIx ⟨j, hj⟩ c))
    (hd : ∀ c : Fin 256, diag x r c ↔ colIx ⟨j, hj⟩ c = R)
    (hp : ∀ c : Fin 256, posb x r c = pos lab R (colIx ⟨j, hj⟩ c))
    (hm0 : (acc0 x a).m (ix2 r 0) = (online (sim f R) R j).1)
    (hl0 : (acc0 x a).l (ix2 r 0) = (online (sim f R) R j).2)
    (hw0 : (acc0 x a).w (ix2 r 0) = accum (fun C => sim f R C * pos lab R C) j)
    (hn0 : (acc0 x a).n (ix2 r 0) = accum (pos lab R) j) :
    (step x a).m (ix2 r 0) = (online (sim f R) R (j + 1)).1
      ∧ (step x a).l (ix2 r 0) = (online (sim f R) R (j + 1)).2
      ∧ (step x a).w (ix2 r 0) = accum (fun C => sim f R C * pos lab R C) (j + 1)
      ∧ (step x a).n (ix2 r 0) = accum (pos lab R) (j + 1) := by
  have hm : (step x a).m (ix2 r 0) = (online (sim f R) R (j + 1)).1 := by
    rw [E.step_m, online_succ _ R j hj, hm0]
    unfold blockStep
    simp only [hs]
  refine ⟨hm, ?_, ?_, ?_⟩
  · rw [E.step_l, hm, online_succ _ R j hj, hm0, hl0]
    unfold blockStep
    simp only [hs, hd]
  · rw [E.step_w, accum_succ _ j hj, hw0]
    simp only [hs, hp]
  · rw [E.step_n, accum_succ _ j hj, hn0]
    simp only [hp]

/-- After grid point n = 32·i + j the four columns at row r hold the sweep of row R = 1024·i + r after j + 1 blocks. -/
theorem accAt_eq (E : StepEqs) (G : GridIns f lab ins) (n : ℕ) (hn : n < 256) (r : Fin 1024) (R : Fin 8192)
    (hR : R.val = 1024 * (n / 32) + r.val) :
    (accAt ins n).m (ix2 r 0) = (online (sim f R) R (n % 32 + 1)).1
      ∧ (accAt ins n).l (ix2 r 0) = (online (sim f R) R (n % 32 + 1)).2
      ∧ (accAt ins n).w (ix2 r 0) = accum (fun C => sim f R C * pos lab R C) (n % 32 + 1)
      ∧ (accAt ins n).n (ix2 r 0) = accum (pos lab R) (n % 32 + 1) := by
  induction n generalizing R with
  | zero =>
    rw [accAt_zero]
    have hacc : acc0 (ins 0) (reset (F := Ideal)) = reset := ite_self _
    refine point_online E (ins 0) reset r R (0 % 32) (Nat.mod_lt _ (by norm_num))
      (sblk_eq G 0 hn r R hR) (diag_iff G 0 hn r R hR) (posb_eq G 0 hn r R hR) ?_ ?_ ?_ ?_
    · rw [hacc, E.reset_m]; rfl
    · rw [hacc, E.reset_l]; rfl
    · rw [hacc, E.reset_w]; rfl
    · rw [hacc, E.reset_n]; rfl
  | succ n ih =>
    rw [accAt_succ]
    refine point_online E (ins (n + 1)) (accAt ins n) r R ((n + 1) % 32) (Nat.mod_lt _ (by norm_num))
      (sblk_eq G (n + 1) hn r R hR) (diag_iff G (n + 1) hn r R hR) (posb_eq G (n + 1) hn r R hR) ?_ ?_ ?_ ?_
    all_goals
      by_cases h0 : (n + 1) % 32 = 0
      · have hacc : acc0 (ins (n + 1)) (accAt ins n) = reset := by
          show (if ((ins (n + 1)).i 1).val = 0 then reset else accAt ins n) = reset
          rw [G.i1 (n + 1) hn, if_pos h0]
        rw [hacc, h0]
        first
          | exact E.reset_m r
          | exact E.reset_l r
          | exact E.reset_w r
          | exact E.reset_n r
      · have hacc : acc0 (ins (n + 1)) (accAt ins n) = accAt ins n := by
          show (if ((ins (n + 1)).i 1).val = 0 then reset else accAt ins n) = accAt ins n
          rw [G.i1 (n + 1) hn, if_neg h0]
        have hj' : (n + 1) % 32 = n % 32 + 1 := by omega
        have hR' : R.val = 1024 * (n / 32) + r.val := by omega
        obtain ⟨i1, i2, i3, i4⟩ := ih (by omega) R hR'
        rw [hacc, hj']
        first
          | exact i1
          | exact i2
          | exact i3
          | exact i4

/-- After the last column block of row block i the first result at row r is the specification's per-row mean. -/
theorem out4_eq (E : StepEqs) (G : GridIns f lab ins) (hf : ∀ R k, ∃ x : ℝ, f R k = (x : EReal))
    (i : ℕ) (hi : i < 8) (r : Fin 1024) (R : Fin 8192) (hR : R.val = 1024 * i + r.val) :
    out4 (accAt ins (32 * i + 31)) (ix2 r 0) = perRowOf (rowSum f lab) lab R := by
  have hdiv : (32 * i + 31) / 32 = i := by omega
  have hmod : (32 * i + 31) % 32 + 1 = 32 := by omega
  obtain ⟨h1, h2, h3, h4⟩ := accAt_eq E G (32 * i + 31) (by omega) r R (by rw [hdiv]; exact hR)
  rw [hmod] at h1 h2 h3 h4
  rw [E.out4, h1, h2, h3, h4]
  exact perRow_of_online f lab hf R

/-- … and the second result is the indicator that the row has a positive. -/
theorem out5_eq (E : StepEqs) (G : GridIns f lab ins)
    (i : ℕ) (hi : i < 8) (r : Fin 1024) (R : Fin 8192) (hR : R.val = 1024 * i + r.val) :
    out5 (accAt ins (32 * i + 31)) (ix2 r 0) = valid lab R := by
  have hdiv : (32 * i + 31) / 32 = i := by omega
  have hmod : (32 * i + 31) % 32 + 1 = 32 := by omega
  obtain ⟨_, _, _, h4⟩ := accAt_eq E G (32 * i + 31) (by omega) r R (by rw [hdiv]; exact hR)
  rw [hmod] at h4
  rw [E.out5, h4]
  exact valid_of_online lab R

end Cert.RowState

end
-- ==== Proof.FrPiecesDefsI.lean ====
/- What one grid point hands the pure step: its coordinates and its four input blocks; the four carried columns as the
   step's accumulator. -/
import proofs.«129543_j5634997093327_1_alg».proof.Proof.FrDatI
import proofs.«129543_j5634997093327_1_alg».proof.Proof.Steps
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, however they are spelt. -/
theorem hz : (![0, 0] : Fin 2 → Nat) = fun _ => 0 := funext fun a => by fin_cases a <;> rfl

/-- What grid point `t` loads: its coordinates and its four input blocks. -/
def insAt (c : Dev nD) (t : Fin cfg0.N) : Steps.Ins F :=
  ⟨grid0.coords t, iblk m c 0 t, iblk m c 1 t, iblk m c 2 t, iblk m c 3 t⟩

/-- The four carried columns as the step's accumulator: running maximum, denominator, sum of positive logits, count. -/
def toAcc (x : Cols F) : Steps.Acc F := ⟨x.c8, x.c9, x.c10, x.c11⟩

end Cert.KernelIdeal.Fr

end
-- ==== Proof.FrPiecesAI.lean ====
/- The pieces a first column block stores: the four columns are reset, read back, and left at the step's payload of
   the input blocks and of the reset values. -/
import proofs.«129543_j5634997093327_1_alg».proof.Proof.FrPiecesDefsI
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maximum after a first block. -/
theorem pieceA8 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x256 .bf16) (x2 : Vec F S1024x1 .i32) (x3 : Vec F S1x256 .i32)
    (ht : View.Piece.tiledL (kernelRun0_A (F := F) c i arg2 harg2 arg3 harg3 arg4 harg4 arg5 harg5 arg6 harg6 arg7 harg7 arg8 harg8 arg9 harg9 arg10 harg10 arg11 harg11 hc0 hc1 x0 x1 x2 x3).1 S1024x1.size = true) :
    rb (kernelRun0_A (F := F) c i arg2 harg2 arg3 harg3 arg4 harg4 arg5 harg5 arg6 harg6 arg7 harg7 arg8 harg8 arg9 harg9 arg10 harg10 arg11 harg11 hc0 hc1 x0 x1 x2 x3).1 = k0_pay4 (k0_pay15 x0 x1 k0_pay8) := by
  unfold rb
  rw [View.read_writes_eq_canon _ _ _ (cover_of _ ht)]
  unfold kernelRun0_A
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running denominator after a first block. -/
theorem pieceA9 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x256 .bf16) (x2 : Vec F S1024x1 .i32) (x3 : Vec F S1x256 .i32)
    (ht : View.Piece.tiledL (kernelRun0_A (F := F) c i arg2 harg2 arg3 harg3 arg4 harg4 arg5 harg5 arg6 harg6 arg7 harg7 arg8 harg8 arg9 harg9 arg10 harg10 arg11 harg11 hc0 hc1 x0 x1 x2 x3).2.1 S1024x1.size = true) :
    rb (kernelRun0_A (F := F) c i arg2 harg2 arg3 harg3 arg4 harg4 arg5 harg5 arg6 harg6 arg7 harg7 arg8 harg8 arg9 harg9 arg10 harg10 arg11 harg11 hc0 hc1 x0 x1 x2 x3).2.1 = k0_pay1 (k0_pay13 i) k0_pay8 (k0_pay15 x0 x1 k0_pay8) (k0_pay16 x0 x1 k0_pay8) k0_pay17 k0_pay9 := by
  unfold rb
  rw [View.read_writes_eq_canon _ _ _ (cover_of _ ht)]
  unfold kernelRun0_A
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running sum of the positive logits after a first block. -/
theorem pieceA10 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x256 .bf16) (x2 : Vec F S1024x1 .i32) (x3 : Vec F S1x256 .i32)
    (ht : View.Piece.tiledL (kernelRun0_A (F := F) c i arg2 harg2 arg3 harg3 arg4 harg4 arg5 harg5 arg6 harg6 arg7 harg7 arg8 harg8 arg9 harg9 arg10 harg10 arg11 harg11 hc0 hc1 x0 x1 x2 x3).2.2.1 S1024x1.size = true) :
    rb (kernelRun0_A (F := F) c i arg2 harg2 arg3 harg3 arg4 harg4 arg5 harg5 arg6 harg6 arg7 harg7 arg8 harg8 arg9 harg9 arg10 harg10 arg11 harg11 hc0 hc1 x0 x1 x2 x3).2.2.1 = k0_pay2 (k0_pay12 x0 x1) (k0_pay14 i x2 x3) k0_pay10 := by
  unfold rb
  rw [View.read_writes_eq_canon _ _ _ (cover_of _ ht)]
  unfold kernelRun0_A
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running count of positives after a first block. -/
theorem pieceA11 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x256 .bf16) (x2 : Vec F S1024x1 .i32) (x3 : Vec F S1x256 .i32)
    (ht : View.Piece.tiledL (kernelRun0_A (F := F) c i arg2 harg2 arg3 harg3 arg4 harg4 arg5 harg5 arg6 harg6 arg7 harg7 arg8 harg8 arg9 harg9 arg10 harg10 arg11 harg11 hc0 hc1 x0 x1 x2 x3).2.2.2.1 S1024x1.size = true) :
    rb (kernelRun0_A (F := F) c i arg2 harg2 arg3 harg3 arg4 harg4 arg5 harg5 arg6 harg6 arg7 harg7 arg8 harg8 arg9 harg9 arg10 harg10 arg11 harg11 hc0 hc1 x0 x1 x2 x3).2.2.2.1 = k0_pay3 (k0_pay14 i x2 x3) k0_pay11 := by
  unfold rb
  rw [View.read_writes_eq_canon _ _ _ (cover_of _ ht)]
  unfold kernelRun0_A
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

end Cert.KernelIdeal.Fr

end
-- ==== Proof.FrPiecesBI.lean ====
/- The pieces a middle column block stores (no reset, no result): each carried column is left at the step's payload
   of the input blocks and of the columns found. -/
import proofs.«129543_j5634997093327_1_alg».proof.Proof.FrPiecesDefsI
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maximum after a middle block. -/
theorem pieceB8 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).1 S1024x1.size = true) :
    rb (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).1 = k0_pay4 (k0_pay15 x0 x1 xs8) := by
  unfold rb
  rw [View.read_writes_eq_canon _ _ _ (cover_of _ ht)]
  unfold kernelRun0_B
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running denominator after a middle block. -/
theorem pieceB9 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.1 S1024x1.size = true) :
    rb (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.1 = k0_pay1 (k0_pay13 i) xs8 (k0_pay15 x0 x1 xs8) (k0_pay16 x0 x1 xs8) k0_pay17 xs9 := by
  unfold rb
  rw [View.read_writes_eq_canon _ _ _ (cover_of _ ht)]
  unfold kernelRun0_B
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running sum of the positive logits after a middle block. -/
theorem pieceB10 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.1 S1024x1.size = true) :
    rb (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.1 = k0_pay2 (k0_pay12 x0 x1) (k0_pay14 i x2 x3) xs10 := by
  unfold rb
  rw [View.read_writes_eq_canon _ _ _ (cover_of _ ht)]
  unfold kernelRun0_B
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running count of positives after a middle block. -/
theorem pieceB11 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.1 S1024x1.size = true) :
    rb (kernelRun0_B (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.1 = k0_pay3 (k0_pay14 i x2 x3) xs11 := by
  unfold rb
  rw [View.read_writes_eq_canon _ _ _ (cover_of _ ht)]
  unfold kernelRun0_B
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

end Cert.KernelIdeal.Fr

end
-- ==== Proof.FrPiecesCI.lean ====
/- The pieces a last column block stores: the four columns as at a middle block, and the two results computed from
   the columns just stored. -/
import proofs.«129543_j5634997093327_1_alg».proof.Proof.FrPiecesDefsI
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result: the per-row mean, from the columns just stored. -/
theorem pieceC6 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).1 = k0_pay6 (k0_pay3 (k0_pay14 i x2 x3) xs11) (k0_pay1 (k0_pay13 i) xs8 (k0_pay15 x0 x1 xs8) (k0_pay16 x0 x1 xs8) k0_pay17 xs9) (k0_pay2 (k0_pay12 x0 x1) (k0_pay14 i x2 x3) xs10) (k0_pay4 (k0_pay15 x0 x1 xs8)) := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The second result: the indicator of a row with a positive. -/
theorem pieceC7 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.1 = k0_pay7 (k0_pay3 (k0_pay14 i x2 x3) xs11) := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running maximum after a last block. -/
theorem pieceC8 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.1 = k0_pay4 (k0_pay15 x0 x1 xs8) := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running denominator after a last block. -/
theorem pieceC9 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.1 = k0_pay1 (k0_pay13 i) xs8 (k0_pay15 x0 x1 xs8) (k0_pay16 x0 x1 xs8) k0_pay17 xs9 := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running sum of the positive logits after a last block. -/
theorem pieceC10 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.2.1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.2.1 = k0_pay2 (k0_pay12 x0 x1) (k0_pay14 i x2 x3) xs10 := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

/-- The running count of positives after a last block. -/
theorem pieceC11 (c : Dev nD) (i : grid0.Coords) (arg2 : Memref sig .tc .vmem S1024x256 .bf16) (harg2 : arg2.IsWhole) (arg3 : Memref sig .tc .vmem S256x256 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x256 .bf16) (x2 : Vec F S1024x1 .i32) (x3 : Vec F S1x256 .i32) (xs8 xs9 xs10 xs11 : Vec F S1024x1 .f32)
    (ht : View.Piece.tiledL (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.2.2.1 S1024x1.size = true) :
    rb (kernelRun0_C (F := F) c i arg2 harg2 arg3 harg3 arg4 harg4 arg5 harg5 arg6 harg6 arg7 harg7 arg8 harg8 arg9 harg9 arg10 harg10 arg11 harg11 hc0 hc1 x0 x1 x2 x3 xs8 xs9 xs10 xs11).2.2.2.2.2.1 = k0_pay3 (k0_pay14 i x2 x3) xs11 := by
  unfold rb
  rw [View.read_writes_eq_canon _ _ _ (cover_of _ ht)]
  unfold kernelRun0_C
  dsimp only
  sl_unfold_words
  first
    | rw [View.canon_unit_zero (S := S1024x1) hz]
    | rw [View.canon_cons_unit_zero (S := S1024x1) hz]
  simp only [View.readCov_unit_zero (S := S1024x1) _ hz, View.readAt_eq_ld, harg2.read_unread, harg3.read_unread,
    harg4.read_unread, harg5.read_unread, harg8.read_unread, harg9.read_unread, harg10.read_unread, harg11.read_unread,
    View.ld_unit_zero (S := S1024x256) hz, View.ld_unit_zero (S := S256x256) hz, View.ld_unit_zero (S := S1024x1) hz,
    View.ld_unit_zero (S := S1x256) hz]

end Cert.KernelIdeal.Fr

end
-- ==== Proof.FrPiecesI.lean ====
/- The pieces the kernel's runs store ARE the pure step: after each grid point the four carried columns are the
   step of the point's blocks applied to the columns before it, the two results at a last column block are the
   step's outputs, and along the grid the columns are the iterated step. -/
import proofs.«129543_j5634997093327_1_alg».proof.Proof.FrPiecesAI
import proofs.«129543_j5634997093327_1_alg».proof.Proof.FrPiecesBI
import proofs.«129543_j5634997093327_1_alg».proof.Proof.FrPiecesCI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The step, case by case -/

/-- Away from the first column block the step updates the columns it is given. -/
theorem step_of_ne (x : Steps.Ins F) (a : Steps.Acc F) (h : ¬(x.i 1).val = 0) :
    Steps.step x a = ⟨k0_pay4 (k0_pay15 x.rows x.cols a.m),
        k0_pay1 (k0_pay13 x.i) a.m (k0_pay15 x.rows x.cols a.m) (k0_pay16 x.rows x.cols a.m) k0_pay17 a.l,
        k0_pay2 (k0_pay12 x.rows x.cols) (k0_pay14 x.i x.labR x.labC) a.w,
        k0_pay3 (k0_pay14 x.i x.labR x.labC) a.n⟩ := by
  unfold Steps.step
  dsimp only
  rw [if_neg h]

/-- At the first column block the step updates the reset columns, whatever it is given. -/
theorem step_of_eq (x : Steps.Ins F) (a : Steps.Acc F) (h : (x.i 1).val = 0) :
    Steps.step x a = ⟨k0_pay4 (k0_pay15 x.rows x.cols k0_pay8),
        k0_pay1 (k0_pay13 x.i) k0_pay8 (k0_pay15 x.rows x.cols k0_pay8) (k0_pay16 x.rows x.cols k0_pay8) k0_pay17 k0_pay9,
        k0_pay2 (k0_pay12 x.rows x.cols) (k0_pay14 x.i x.labR x.labC) k0_pay10,
        k0_pay3 (k0_pay14 x.i x.labR x.labC) k0_pay11⟩ := by
  unfold Steps.step
  dsimp only
  rw [if_pos h]
  rfl

/-- Two accumulators with equal columns are equal. -/
theorem acc_mk_congr {a a' b b' c c' d d' : Vec F S1024x1 .f32} (h1 : a = a') (h2 : b = b') (h3 : c = c') (h4 : d = d') :
    Steps.Acc.mk a b c d = Steps.Acc.mk a' b' c' d' := by
  subst h1 h2 h3 h4; rfl

section Cases
variable (c : Dev nD) (t : Fin cfg0.N)

theorem coord_ne (hc0 : ¬cond0_0 (grid0.coords t)) : ¬((insAt m c t).i 1).val = 0 := by
  show ¬((grid0.coords t) 1).val = 0
  rw [coord1_val]
  exact fun h => hc0 ((hcond0_0 t).mpr h)

theorem coord_eq (hc0 : cond0_0 (grid0.coords t)) : ((insAt m c t).i 1).val = 0 := by
  show ((grid0.coords t) 1).val = 0
  rw [coord1_val]
  exact (hcond0_0 t).mp hc0

/-- A first column block leaves the step of its blocks, whatever the columns before it. -/
theorem colsA_eq (hc0 : cond0_0 (grid0.coords t)) (hc1 : ¬cond0_1 (grid0.coords t)) (a : Steps.Acc F) :
    toAcc (colsA m c t hc0 hc1) = Steps.step (insAt m c t) a := by
  have e8 := pieceA8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (tiledA8 m c t hc0 hc1)
  have e9 := pieceA9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (tiledA9 m c t hc0 hc1)
  have e10 := pieceA10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (tiledA10 m c t hc0 hc1)
  have e11 := pieceA11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (tiledA11 m c t hc0 hc1)
  rw [step_of_eq _ _ (coord_eq m c t hc0)]
  unfold toAcc colsA runA
  dsimp only
  exact acc_mk_congr e8 e9 e10 e11

/-- A middle column block leaves the step of its blocks and of the columns before it. -/
theorem colsB_eq (hc0 : ¬cond0_0 (grid0.coords t)) (hc1 : ¬cond0_1 (grid0.coords t)) (xs : Cols F) :
    toAcc (colsB m c t hc0 hc1 xs) = Steps.step (insAt m c t) (toAcc xs) := by
  have e8 := pieceB8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledB8 m c t hc0 hc1 xs)
  have e9 := pieceB9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledB9 m c t hc0 hc1 xs)
  have e10 := pieceB10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledB10 m c t hc0 hc1 xs)
  have e11 := pieceB11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledB11 m c t hc0 hc1 xs)
  rw [step_of_ne _ _ (coord_ne m c t hc0)]
  unfold toAcc colsB runB
  dsimp only
  exact acc_mk_congr e8 e9 e10 e11

/-- A last column block leaves the same step in the columns … -/
theorem colsC_eq (hc0 : ¬cond0_0 (grid0.coords t)) (hc1 : cond0_1 (grid0.coords t)) (xs : Cols F) :
    toAcc (colsC m c t hc0 hc1 xs) = Steps.step (insAt m c t) (toAcc xs) := by
  have e8 := pieceC8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC8 m c t hc0 hc1 xs)
  have e9 := pieceC9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC9 m c t hc0 hc1 xs)
  have e10 := pieceC10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC10 m c t hc0 hc1 xs)
  have e11 := pieceC11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC11 m c t hc0 hc1 xs)
  rw [step_of_ne _ _ (coord_ne m c t hc0)]
  unfold toAcc colsC runC
  dsimp only
  exact acc_mk_congr e8 e9 e10 e11

/-- … stores the step's first output into the first result … -/
theorem out6C_eq (hc0 : ¬cond0_0 (grid0.coords t)) (hc1 : cond0_1 (grid0.coords t)) (xs : Cols F) :
    out6C m c t hc0 hc1 xs = Steps.out4 (Steps.step (insAt m c t) (toAcc xs)) := by
  have e6 := pieceC6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC6 m c t hc0 hc1 xs)
  rw [step_of_ne _ _ (coord_ne m c t hc0)]
  exact e6

/-- … and its second output into the second. -/
theorem out7C_eq (hc0 : ¬cond0_0 (grid0.coords t)) (hc1 : cond0_1 (grid0.coords t)) (xs : Cols F) :
    out7C m c t hc0 hc1 xs = Steps.out5 (Steps.step (insAt m c t) (toAcc xs)) := by
  have e7 := pieceC7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.c8 xs.c9 xs.c10 xs.c11 (tiledC7 m c t hc0 hc1 xs)
  rw [step_of_ne _ _ (coord_ne m c t hc0)]
  exact e7

end Cases

/-! ## Along the grid -/

/-- What the `n`-th grid point loads (any point's beyond the grid: nothing consults it). -/
def insN (c : Dev nD) (n : ℕ) : Steps.Ins F :=
  if h : n < cfg0.N then insAt m c ⟨n, h⟩ else insAt m c ⟨0, by decide⟩

theorem insN_of_lt (c : Dev nD) (n : ℕ) (h : n < cfg0.N) : insN m c n = insAt m c ⟨n, h⟩ := dif_pos h

/-- The columns and results after a first column block that is not point 0, from the definition. -/
theorem outsAt0_succ_A (c : Dev nD) (n : ℕ) (hn : n + 1 < cfg0.N) (h0 : (n + 1) % 32 = 0) :
    outsAt0 m c (n + 1) hn
      = (colsA m c ⟨n + 1, hn⟩ ((hcond0_0 ⟨n + 1, hn⟩).mpr h0)
          (fun h => (fun h => by (try dsimp only at h); omega) ((hcond0_1 ⟨n + 1, hn⟩).mp h)), rb [], rb []) :=
  (dif_pos h0).trans rfl

/-- After a middle column block. -/
theorem outsAt0_succ_B (c : Dev nD) (n : ℕ) (hn : n + 1 < cfg0.N) (h0 : ¬(n + 1) % 32 = 0) (h1 : ¬(n + 1) % 32 = 31) :
    outsAt0 m c (n + 1) hn
      = (colsB m c ⟨n + 1, hn⟩ (fun h => h0 ((hcond0_0 ⟨n + 1, hn⟩).mp h)) (fun h => h1 ((hcond0_1 ⟨n + 1, hn⟩).mp h))
          (outsAt0 m c n (Nat.lt_of_succ_lt hn)).1, rb [], rb []) :=
  (dif_neg h0).trans ((dif_neg h1).trans rfl)

/-- After a last column block. -/
theorem outsAt0_succ_C (c : Dev nD) (n : ℕ) (hn : n + 1 < cfg0.N) (h0 : ¬(n + 1) % 32 = 0) (h1 : (n + 1) % 32 = 31) :
    outsAt0 m c (n + 1) hn
      = (colsC m c ⟨n + 1, hn⟩ (fun h => h0 ((hcond0_0 ⟨n + 1, hn⟩).mp h)) ((hcond0_1 ⟨n + 1, hn⟩).mpr h1)
          (outsAt0 m c n (Nat.lt_of_succ_lt hn)).1,
         out6C m c ⟨n + 1, hn⟩ (fun h => h0 ((hcond0_0 ⟨n + 1, hn⟩).mp h)) ((hcond0_1 ⟨n + 1, hn⟩).mpr h1)
          (outsAt0 m c n (Nat.lt_of_succ_lt hn)).1,
         out7C m c ⟨n + 1, hn⟩ (fun h => h0 ((hcond0_0 ⟨n + 1, hn⟩).mp h)) ((hcond0_1 ⟨n + 1, hn⟩).mpr h1)
          (outsAt0 m c n (Nat.lt_of_succ_lt hn)).1) :=
  (dif_neg h0).trans ((dif_pos h1).trans rfl)

/-- After the `n`-th point the four carried columns are the iterated step. -/
theorem accAt_eq (c : Dev nD) : ∀ (n : ℕ) (hn : n < cfg0.N), toAcc (outsAt0 m c n hn).1 = Steps.accAt (insN m c) n
  | 0, hn => by
    rw [Steps.accAt_zero, insN_of_lt m c 0 hn]
    show toAcc (colsA m c ⟨0, hn⟩ _ _) = _
    exact colsA_eq m c ⟨0, hn⟩ _ _ Steps.reset
  | n + 1, hn => by
    rw [Steps.accAt_succ, insN_of_lt m c (n + 1) hn, ← accAt_eq c n (Nat.lt_of_succ_lt hn)]
    by_cases h0 : (n + 1) % 32 = 0
    · rw [outsAt0_succ_A m c n hn h0]
      dsimp only
      exact colsA_eq m c ⟨n + 1, hn⟩ _ _ _
    · by_cases h1 : (n + 1) % 32 = 31
      · rw [outsAt0_succ_C m c n hn h0 h1]
        dsimp only
        exact colsC_eq m c ⟨n + 1, hn⟩ _ _ _
      · rw [outsAt0_succ_B m c n hn h0 h1]
        dsimp only
        exact colsB_eq m c ⟨n + 1, hn⟩ _ _ _

/-- At a last column block the first result buffer holds the step's first output … -/
theorem out4_eq (c : Dev nD) (n : ℕ) (hn : n < cfg0.N) (h31 : n % 32 = 31) :
    (outsAt0 m c n hn).2.1 = Steps.out4 (Steps.accAt (insN m c) n) := by
  cases n with
  | zero => exact absurd h31 (by decide)
  | succ k =>
    have h0 : ¬(k + 1) % 32 = 0 := by omega
    rw [Steps.accAt_succ, insN_of_lt m c (k + 1) hn, ← accAt_eq m c k (Nat.lt_of_succ_lt hn),
      outsAt0_succ_C m c k hn h0 h31]
    dsimp only
    exact out6C_eq m c ⟨k + 1, hn⟩ _ _ _

/-- … and the second result buffer its second output. -/
theorem out5_eq (c : Dev nD) (n : ℕ) (hn : n < cfg0.N) (h31 : n % 32 = 31) :
    (outsAt0 m c n hn).2.2 = Steps.out5 (Steps.accAt (insN m c) n) := by
  cases n with
  | zero => exact absurd h31 (by decide)
  | succ k =>
    have h0 : ¬(k + 1) % 32 = 0 := by omega
    rw [Steps.accAt_succ, insN_of_lt m c (k + 1) hn, ← accAt_eq m c k (Nat.lt_of_succ_lt hn),
      outsAt0_succ_C m c k hn h0 h31]
    dsimp only
    exact out7C_eq m c ⟨k + 1, hn⟩ _ _ _

end Cert.KernelIdeal.Fr

end
-- ==== Proof.BlockReadGrid.lean ====
/- The two hypotheses of the row-by-row induction, discharged for the kernel: the per-point equations of its step,
   and what its grid points load from the two arguments. -/
import proofs.«129543_j5634997093327_1_alg».proof.Proof.BlockReadIns
import proofs.«129543_j5634997093327_1_alg».proof.Proof.StepRead
import proofs.«129543_j5634997093327_1_alg».proof.Proof.RowState
import proofs.«129543_j5634997093327_1_alg».proof.Proof.FrPiecesI

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

open Cert.KernelIdeal.StepRead

/-- The per-point equations of the kernel's step hold. -/
theorem stepEqs : Cert.RowState.StepEqs :=
  ⟨fun r => (reset_apply r).1, fun r => (reset_apply r).2.1, fun r => (reset_apply r).2.2.1,
    fun r => (reset_apply r).2.2.2, step_m, step_l, step_w, step_n, out4_apply, out5_apply⟩

/-- The grid points load the rows of the normalized feature argument and the entries of the label argument. -/
theorem gridIns (c : Dev nD) :
    Cert.RowState.GridIns (Spec.normalize (featOf (m ((c : Thread nD τ).loc main_arg0))))
      (labOf (m ((c : Thread nD τ).loc main_arg1))) (insN m c) := by
  have hN : cfg0.N = 256 := N_0
  refine ⟨?_, ?_, ?_, ?_, ?_, ?_⟩
  · intro n hn
    rw [insN_of_lt m c n (by omega)]
    exact ins_i0 m c ⟨n, by omega⟩
  · intro n hn
    rw [insN_of_lt m c n (by omega)]
    exact ins_i1 m c ⟨n, by omega⟩
  · intro n hn r k
    rw [insN_of_lt m c n (by omega)]
    exact ins_rows m c ⟨n, by omega⟩ r k
  · intro n hn cc k
    rw [insN_of_lt m c n (by omega)]
    exact ins_cols m c ⟨n, by omega⟩ cc k
  · intro n hn r
    rw [insN_of_lt m c n (by omega)]
    exact ins_labR m c ⟨n, by omega⟩ r
  · intro n hn cc
    rw [insN_of_lt m c n (by omega)]
    exact ins_labC m c ⟨n, by omega⟩ cc

end Cert.KernelIdeal.Fr

end
-- ==== Proof.PreReal.lean ====
/- What the precondition says of the feature array: every entry is a real number, and no row is all zeros.

   The precondition is the conjunction of two `all`s.  The first says |x| < +∞ at every entry; on the
   extended reals |⊥| = |⊤| = ⊤, so the entry is neither infinity.  The second says that every row's sum of
   squares is > 0; were every entry of a row 0 the sum would be 0. -/
import proofs.«129543_j5634997093327_1_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Idealize.ShloMosaic Cert.Pre_finite_inputs

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Row R with place k inserted on the reduced axis is the entry (R, k). -/
theorem lift_row (hR : S8192x256.Reduces [1] S8192) (R : Fin 8192) (k : Fin 256) :
    hR.lift (ValueIdx.ix1 R) k = ValueIdx.ix2 R k :=
  funext fun c => match c with
    | ⟨0, _⟩ => Fin.ext rfl
    | ⟨1, _⟩ => Fin.ext rfl

variable [Facts]

theorem pre_real (x0 : FVec Ideal S8192x256 .f32) (x1 : IVec S8192 32)
    (h : fn (F := Ideal) x0 x1 = fun _ => 1#1) :
    (∀ i, ∃ r : ℝ, x0 i = (r : EReal)) ∧ (∀ R : Fin 8192, ∃ k : Fin 256, x0 (ValueIdx.ix2 R k) ≠ 0) := by
  have h0 := congrFun h ValueIdx.ix0
  dsimp only [fn] at h0
  obtain ⟨h1, h2⟩ := IntOp.andi_eq_one.1 h0
  refine ⟨fun i => ?_, fun R => ?_⟩
  · exact real_of_abs_lt (x0 i) (Host.reduce_andi_all _ _ _ _ _ h1 i)
  · have hgt := Host.reduce_andi_all _ _ _ _ _ h2 (ValueIdx.ix1 R)
    have hR : S8192x256.Reduces [1] S8192 := by decide
    have hgt' : Ideal.cmp .ogt
        (Ideal.hostReduceAdd Facts.reducesTo_S8192x256_S8192_d1 (mulf x0 x0) (Ideal.ofBits .f32 0x00000000#32)
          (ValueIdx.ix1 R))
        (Ideal.ofBits .f32 0x00000000#32) = 1#1 := hgt
    rw [Ideal.hostReduceAdd_single _ hR, Ideal.ofBits_zero_f32, zero_add] at hgt'
    by_contra hnot
    have hall : ∀ k : Fin 256, x0 (ValueIdx.ix2 R k) = 0 := fun k => by_contra fun hk => hnot ⟨k, hk⟩
    have hz : ∑ k : Fin (S8192x256.size 1), mulf x0 x0 (hR.lift (ValueIdx.ix1 R) k) = 0 := by
      refine Finset.sum_eq_zero fun k _ => ?_
      rw [lift_row hR R k]
      show x0 (ValueIdx.ix2 R k) * x0 (ValueIdx.ix2 R k) = 0
      rw [hall k, mul_zero]
    rw [hz] at hgt'
    simp [Ideal.cmp] at hgt'

end Cert.PreReal

end
-- ==== Proof.KernelValue.lean ====
/- The kernel program's result is the specification's loss of its arguments, under the precondition.

   After the region the two result arrays hold, at row R = 1024·i + r, row r of what the last column block of
   row block i left: the step's two outputs of the carried columns after that point.  Those columns are the
   online sweep of row R of the logits of the normalized features, so the two outputs are the specification's
   per-row mean and validity indicator; the ten host operations that follow turn the two arrays into the loss.
   The precondition makes the normalized features real, which the sweep's closed form needs. -/
import proofs.«129543_j5634997093327_1_alg».proof.Proof.FrLaunchI
import proofs.«129543_j5634997093327_1_alg».proof.Proof.FinalArr
import proofs.«129543_j5634997093327_1_alg».proof.Proof.KernelTail
import proofs.«129543_j5634997093327_1_alg».proof.Proof.BlockReadGrid
import proofs.«129543_j5634997093327_1_alg».proof.Proof.PreReal

set_option maxRecDepth 16384

noncomputable section

namespace Cert.KernelIdeal.Fr

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

variable [Cert.Pre_finite_inputs.Facts]

/-- Under the precondition the normalized features are real numbers. -/
theorem normalized_real (c : Dev nD)
    (h : Cert.Pre_finite_inputs.fn (F := Ideal) (m ((c : Thread nD τ).loc main_arg0))
          (m ((c : Thread nD τ).loc main_arg1)) = fun _ => 1#1) :
    ∀ R k, ∃ r : ℝ, Spec.normalize (featOf (m ((c : Thread nD τ).loc main_arg0))) R k = (r : EReal) := by
  obtain ⟨hreal, hnz⟩ := Cert.PreReal.pre_real _ _ h
  exact Cert.SpecLaws.normalize_real (featOf (m ((c : Thread nD τ).loc main_arg0))) (fun R k => hreal (ix2 R k)) hnz

/-- The first result array after the run holds the specification's per-row means. -/
theorem arr4_apply (c : Dev nD)
    (h : Cert.Pre_finite_inputs.fn (F := Ideal) (m ((c : Thread nD τ).loc main_arg0))
          (m ((c : Thread nD τ).loc main_arg1)) = fun _ => 1#1) (R : Fin 8192) :
    (dats m 0 c).arrAt 4 cfg0.N (ix2 R (0 : Fin 1))
      = Spec.perRowOf (Spec.rowSum (Spec.normalize (featOf (m ((c : Thread nD τ).loc main_arg0))))
          (labOf (m ((c : Thread nD τ).loc main_arg1)))) (labOf (m ((c : Thread nD τ).loc main_arg1))) R := by
  have hN : cfg0.N = 256 := N_0
  have hR := R.isLt
  have hn : 32 * (R.val / 1024) + 31 < cfg0.N := last_lt _ R.isLt
  rw [final4_apply m c (R.val / 1024) hn ⟨R.val % 1024, Nat.mod_lt _ (by norm_num)⟩ R
      (by show R.val = 1024 * (R.val / 1024) + R.val % 1024; omega),
    Cert.KernelIdeal.Fr.out4_eq m c _ hn (by omega)]
  exact Cert.RowState.out4_eq stepEqs (gridIns m c) (normalized_real m c h) (R.val / 1024) (by omega)
    ⟨R.val % 1024, Nat.mod_lt _ (by norm_num)⟩ R (by show R.val = 1024 * (R.val / 1024) + R.val % 1024; omega)

/-- The second result array after the run holds the validity indicators. -/
theorem arr5_apply (c : Dev nD) (R : Fin 8192) :
    (dats m 0 c).arrAt 5 cfg0.N (ix2 R (0 : Fin 1)) = Spec.valid (labOf (m ((c : Thread nD τ).loc main_arg1))) R := by
  have hN : cfg0.N = 256 := N_0
  have hR := R.isLt
  have hn : 32 * (R.val / 1024) + 31 < cfg0.N := last_lt _ R.isLt
  rw [final5_apply m c (R.val / 1024) hn ⟨R.val % 1024, Nat.mod_lt _ (by norm_num)⟩ R
      (by show R.val = 1024 * (R.val / 1024) + R.val % 1024; omega),
    Cert.KernelIdeal.Fr.out5_eq m c _ hn (by omega)]
  exact Cert.RowState.out5_eq stepEqs (gridIns m c) (R.val / 1024) (by omega)
    ⟨R.val % 1024, Nat.mod_lt _ (by norm_num)⟩ R (by show R.val = 1024 * (R.val / 1024) + R.val % 1024; omega)

/-- THE KERNEL PROGRAM COMPUTES THE SPECIFICATION'S LOSS. -/
theorem kernel_value (c : Dev nD)
    (h : Cert.Pre_finite_inputs.fn (F := Ideal) (m ((c : Thread nD τ).loc main_arg0))
          (m ((c : Thread nD τ).loc main_arg1)) = fun _ => 1#1) :
    Wfin m c (main_v15 : Ref sig .tc)
      = fun _ => Cert.Spec.loss (fun R k => m ((c : Thread nD τ).loc main_arg0) (ix2 R k))
          (fun R => m ((c : Thread nD τ).loc main_arg1) (ix1 R)) := by
  funext i
  unfold Wfin
  rw [Tail.after_tail_v15, Wexit_v90, Wexit_v91]
  exact Tail.tailOf_eq_lossOf _ (labOf (m ((c : Thread nD τ).loc main_arg1))) _ _
    (arr4_apply m c h) (arr5_apply m c) i

end Cert.KernelIdeal.Fr

end
-- ==== Proof.RefRun.lean ====
/- The reference's run and its operations read at an index, gathered for the modules that speak of the reference. -/
import proofs.«129543_j5634997093327_1_alg».proof.Proof.RefReadP
-- ==== Proof.RefSpecGram.lean ====
/- The reference's normalized features and its logits, read at an index: row R of the normalized array is
   `normalize` of the input's row R, and the Gram matrix divided by the literal 1/2 is `sim`. -/
import proofs.«129543_j5634997093327_1_alg».proof.Proof.RefRun
import proofs.«129543_j5634997093327_1_alg».proof.Proof.Spec
import proofs.«129543_j5634997093327_1_alg».proof.Proof.RefSpecConsts
import Idealize.ShloMosaic.Lib.ValueIdx
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx Cert.Spec

/-- The feature array as a function of the row and the column. -/
abbrev featOf (x0 : (⟨S8192x256, .f32⟩ : BufTy).Contents (Elt Ideal)) : Feat := fun R k => x0 (ix2 R k)

/-- The labels as a function of the row. -/
abbrev labOf (x1 : (⟨S8192, .i32⟩ : BufTy).Contents (Elt Ideal)) : Lab := fun R => x1 (ix1 R)

/-- The squared length of row R: the sum of the squares of its entries (the sum starts from the literal 0). -/
theorem normSq_apply (x0 : (⟨S8192x256, .f32⟩ : BufTy).Contents (Elt Ideal)) (R : Fin 8192) :
    val_main_call0_v1 (F := Ideal) x0 (ix1 R) = ∑ k' : Fin 256, featOf x0 R k' * featOf x0 R k' := by
  rw [val_main_call0_v1_apply, val_main_call0_cst_apply, Ideal.ofBits_def, ofBits_zero, zero_add]
  refine Finset.sum_congr rfl fun k' _ => ?_
  rw [val_main_call0_v0_apply]
  have e : idx_main_call0_v1 (ix1 R) k' = ix2 R k' := funext fun a => by
    match a with
    | ⟨0, _⟩ => rfl
    | ⟨1, _⟩ => rfl
  rw [e]
  rfl

/-- The normalized array at (R, k) is `normalize` of the input there. -/
theorem normalized_apply (x0 : (⟨S8192x256, .f32⟩ : BufTy).Contents (Elt Ideal)) (R : Fin 8192) (k : Fin 256) :
    val_main_v2 (F := Ideal) x0 (ix2 R k) = normalize (featOf x0) R k := by
  rw [val_main_v2_apply, val_main_v1_apply, val_main_v0_apply, val_main_call0_v2_apply]
  have e : idx_main_call0_v2 (idx_main_v1 (ix2 R k)) = ix1 R := funext fun a => by
    match a with
    | ⟨0, _⟩ => rfl
  rw [e, normSq_apply]
  rfl

/-- The Gram matrix at (R, C): the inner product of the normalized rows R and C. -/
theorem gram_apply (x0 : (⟨S8192x256, .f32⟩ : BufTy).Contents (Elt Ideal)) (R C : Fin 8192) :
    val_main_v4 (F := Ideal) x0 (ix2 R C)
      = ∑ k : Fin 256, normalize (featOf x0) R k * normalize (featOf x0) C k := by
  rw [val_main_v4_apply]
  refine Finset.sum_congr rfl fun k _ => ?_
  rw [val_main_v3_apply]
  have el : lidx_main_v4 (ix2 R C) k = ix2 R k := funext fun a => by
    match a with
    | ⟨0, _⟩ => rfl
    | ⟨1, _⟩ => rfl
  have er : idx_main_v3 (ridx_main_v4 (ix2 R C) k) = ix2 C k := funext fun a => by
    match a with
    | ⟨0, _⟩ => rfl
    | ⟨1, _⟩ => rfl
  rw [el, er, normalized_apply, normalized_apply]

/-- The logits at (R, C): the Gram entry divided by the literal 1/2, which is `sim`. -/
theorem logits_apply (x0 : (⟨S8192x256, .f32⟩ : BufTy).Contents (Elt Ideal)) (R C : Fin 8192) :
    val_main_v6 (F := Ideal) x0 (ix2 R C) = sim (normalize (featOf x0)) R C := by
  rw [val_main_v6_apply, val_main_v5_apply, val_main_cst_apply, gram_apply, Ideal.hostDivf_def, Ideal.ofBits_def,
    ofBits_half, div_half]
  rfl

end Cert.RefSpec

end
-- ==== Proof.RefSpecRowMax.lean ====
/- The reference's row maximum: the max-reduce of the logits over the columns, from the initial value −∞,
   is the supremum of row R of `sim` over all columns. -/
import proofs.«129543_j5634997093327_1_alg».proof.Proof.RefRun
import proofs.«129543_j5634997093327_1_alg».proof.Proof.Spec
import proofs.«129543_j5634997093327_1_alg».proof.Proof.RefSpecConsts
import proofs.«129543_j5634997093327_1_alg».proof.Proof.RefSpecGram
import Idealize.ShloMosaic.Lib.ValueIdx
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx Cert.Spec

/-- On the extended reals a fold of `max` from the bottom element is the supremum. -/
theorem fold_max_eq_sup {ι : Type} (s : Finset ι) (g : ι → EReal) : s.fold max ⊥ g = s.sup g := by
  refine eq_of_forall_ge_iff fun c => ?_
  rw [Finset.fold_max_le, Finset.sup_le_iff]
  simp

/-- A max-reduce over the columns of any 8192 × 8192 array, from the literal −∞, at row R. -/
theorem reduceMax_row (y : FVec Ideal S8192x8192 .f32) (h' : S8192x8192.ReducesTo [1] S8192)
    (h : S8192x8192.Reduces [1] S8192) (hu : 0 < S_.numel) (R : Fin 8192) :
    Host.reduce FloatOps.maximumf y (constant S_ .f32 0xFF800000#32) h' hu (ix1 R)
      = Finset.univ.sup fun C : Fin 8192 => y (ix2 R C) := by
  rw [Host.reduce_eq_fold_single FloatOps.maximumf y _ h' h hu]
  have hinit : constant (F := Ideal) S_ .f32 0xFF800000#32 (Shape.Idx.first hu) = (⊥ : EReal) := by
    rw [constant_apply, ofBits_neg_inf]
  rw [hinit]
  have hlift : ∀ C : Fin 8192, h.lift (ix1 R) C = ix2 R C := fun C => funext fun a => Fin.ext (by
    match a with
    | ⟨0, _⟩ => rfl
    | ⟨1, _⟩ => rfl)
  have hf : (y ∘ h.lift (ix1 R)) = fun C : Fin 8192 => y (ix2 R C) := funext fun C => congrArg y (hlift C)
  refine Eq.trans ?_ (fold_max_eq_sup (Finset.univ : Finset (Fin 8192)) fun C : Fin 8192 => y (ix2 R C))
  exact congrArg (fun f => Finset.fold max (⊥ : EReal) f (Finset.univ : Finset (Fin 8192))) hf

/-- The reference's row maximum at R is `rowMax`. -/
theorem rowMax_apply (x0 : (⟨S8192x256, .f32⟩ : BufTy).Contents (Elt Ideal)) (R : Fin 8192) :
    val_main_v7 (F := Ideal) x0 (ix1 R) = rowMax (normalize (featOf x0)) R := by
  unfold val_main_v7
  refine (reduceMax_row _ reducesTo_S8192x8192_S8192_d1 (by decide) h_S_ R).trans ?_
  unfold rowMax
  exact congrArg _ (funext fun C => logits_apply x0 R C)

/-- The logits minus the row maximum at (R, C). -/
theorem shifted_apply (x0 : (⟨S8192x256, .f32⟩ : BufTy).Contents (Elt Ideal)) (R C : Fin 8192) :
    val_main_v10 (F := Ideal) x0 (ix2 R C)
      = sim (normalize (featOf x0)) R C - rowMax (normalize (featOf x0)) R := by
  rw [val_main_v10_apply, val_main_v9_apply, val_main_v8_apply, logits_apply]
  have e : idx_main_v8 (idx_main_v9 (ix2 R C)) = ix1 R := funext fun a => by
    match a with
    | ⟨0, _⟩ => rfl
  rw [e, rowMax_apply]
  rfl

end Cert.RefSpec

end
-- ==== Proof.RefSpecMask.lean ====
/- The reference's masks read at an index: the same-label mask, the identity matrix from the two iotas, the
   positives' mask `pos`, and the denominator's mask, which is 0 on the diagonal and 1 elsewhere. -/
import proofs.«129543_j5634997093327_1_alg».proof.Proof.RefRun
import proofs.«129543_j5634997093327_1_alg».proof.Proof.Spec
import proofs.«129543_j5634997093327_1_alg».proof.Proof.RefSpecConsts
import proofs.«129543_j5634997093327_1_alg».proof.Proof.RefSpecGram
import Idealize.ShloMosaic.Lib.ValueIdx
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx Cert.Spec

/-- An integer equality converted to a float is 1 where the words agree and 0 elsewhere. -/
theorem uitofp_cmpi_eq (a b : BitVec 32) :
    FloatOps.uitofp (F := Ideal) .f32 (IntOp.cmpi .eq a b) = if a = b then 1 else 0 := by
  show (((BitVec.ofBool (a == b)).toNat : ℝ) : EReal) = _
  by_cases h : a = b
  · subst h; simp
  · rw [if_neg h]
    have hb : (a == b) = false := by simpa using h
    rw [hb]; simp

/-- Two row numbers below 8192 are equal as 32-bit words exactly when they are equal. -/
theorem ofNat_eq_iff (R C : Fin 8192) : BitVec.ofNat 32 R.val = BitVec.ofNat 32 C.val ↔ R = C := by
  constructor
  · intro h
    have h' := congrArg BitVec.toNat h
    simp only [BitVec.toNat_ofNat] at h'
    have hR := R.isLt
    have hC := C.isLt
    exact Fin.ext (by omega)
  · intro h; rw [h]

/-- The same-label mask at (R, C). -/
theorem sameLabel_apply (x1 : (⟨S8192, .i32⟩ : BufTy).Contents (Elt Ideal)) (R C : Fin 8192) :
    val_main_v16 (F := Ideal) x1 (ix2 R C) = if labOf x1 R = labOf x1 C then 1 else 0 := by
  rw [val_main_v16_apply, val_main_v15_apply, val_main_v13_apply, val_main_v14_apply, val_main_v11_apply,
    val_main_v12_apply]
  have e1 : idx_main_v11 (idx_main_v13 (ix2 R C)) = ix1 R := funext fun a => by
    match a with
    | ⟨0, _⟩ => rfl
  have e2 : idx_main_v12 (idx_main_v14 (ix2 R C)) = ix1 C := funext fun a => by
    match a with
    | ⟨0, _⟩ => rfl
  rw [e1, e2]
  exact uitofp_cmpi_eq _ _

/-- The identity matrix at (R, C): the two iotas compared. -/
theorem eye_apply (R C : Fin 8192) :
    val_main_v22 (F := Ideal) (ix2 R C) = if R = C then 1 else 0 := by
  rw [val_main_v22_apply, val_main_v21_apply, val_main_v20_apply, val_main_v17_apply, val_main_v18_apply,
    val_main_v19_apply, val_main_c_apply, uitofp_cmpi_eq]
  show (if IntOp.addi (BitVec.ofNat 32 R.val) 0#32 = BitVec.ofNat 32 C.val then (1 : EReal) else 0) = _
  have h : (IntOp.addi (BitVec.ofNat 32 R.val) 0#32 = BitVec.ofNat 32 C.val) ↔ R = C := by
    rw [IntOp.addi, BitVec.add_zero]; exact ofNat_eq_iff R C
  simp only [h]

/-- The literal 1 broadcast over the square. -/
theorem ones23_apply (i : S8192x8192.Idx) : val_main_v23 (F := Ideal) i = 1 := by
  rw [val_main_v23_apply, val_main_cst_1_apply, Ideal.ofBits_def, ofBits_one]

theorem ones26_apply (i : S8192x8192.Idx) : val_main_v26 (F := Ideal) i = 1 := by
  rw [val_main_v26_apply, val_main_cst_2_apply, Ideal.ofBits_def, ofBits_one]

/-- The positives' mask at (R, C) is `pos`. -/
theorem posMask_apply (x1 : (⟨S8192, .i32⟩ : BufTy).Contents (Elt Ideal)) (R C : Fin 8192) :
    val_main_v25 (F := Ideal) x1 (ix2 R C) = pos (labOf x1) R C := by
  rw [val_main_v25_apply, val_main_v24_apply, sameLabel_apply, eye_apply, ones23_apply]
  unfold pos
  simp only [Ideal.mulf_def, Ideal.subf_def]
  by_cases h1 : labOf x1 R = labOf x1 C
  · by_cases h2 : R = C
    · have hp : ¬(labOf x1 R = labOf x1 C ∧ R ≠ C) := fun h => h.2 h2
      simp only [if_pos h1, if_pos h2, if_neg hp, one_sub_one, mul_zero]
    · have hp : labOf x1 R = labOf x1 C ∧ R ≠ C := ⟨h1, h2⟩
      simp only [if_pos h1, if_neg h2, if_pos hp, one_sub_zero, mul_one]
  · have hp : ¬(labOf x1 R = labOf x1 C ∧ R ≠ C) := fun h => h1 h.1
    simp only [if_neg h1, if_neg hp, zero_mul]

/-- The denominator's mask at (R, C): 0 on the diagonal, 1 elsewhere. -/
theorem denMask_apply (x1 : (⟨S8192, .i32⟩ : BufTy).Contents (Elt Ideal)) (R C : Fin 8192) :
    val_main_v29 (F := Ideal) x1 (ix2 R C) = if C = R then 0 else 1 := by
  rw [val_main_v29_apply, val_main_v27_apply, posMask_apply, sameLabel_apply, ones26_apply]
  unfold pos
  simp only [Ideal.addf_def, Ideal.subf_def]
  by_cases h2 : C = R
  · have h1 : labOf x1 R = labOf x1 C := by rw [h2]
    have hp : ¬(labOf x1 R = labOf x1 C ∧ R ≠ C) := fun h => h.2 h2.symm
    simp only [if_pos h2, if_pos h1, if_neg hp, one_sub_one, add_zero]
  · have h2' : R ≠ C := fun h => h2 h.symm
    by_cases h1 : labOf x1 R = labOf x1 C
    · have hp : labOf x1 R = labOf x1 C ∧ R ≠ C := ⟨h1, h2'⟩
      simp only [if_neg h2, if_pos h1, if_pos hp, one_sub_one, zero_add]
    · have hp : ¬(labOf x1 R = labOf x1 C ∧ R ≠ C) := fun h => h1 h.1
      simp only [if_neg h2, if_neg h1, if_neg hp, one_sub_zero, add_zero]

end Cert.RefSpec

end
-- ==== Proof.RefSpecRow.lean ====
/- The reference's per-row quantities read at a row R: the denominator, the number of positives, the sum over the
   positives of the log-probabilities, and the per-row mean. -/
import proofs.«129543_j5634997093327_1_alg».proof.Proof.RefRun
import proofs.«129543_j5634997093327_1_alg».proof.Proof.Spec
import proofs.«129543_j5634997093327_1_alg».proof.Proof.RefSpecConsts
import proofs.«129543_j5634997093327_1_alg».proof.Proof.RefSpecRowMax
import proofs.«129543_j5634997093327_1_alg».proof.Proof.RefSpecMask
import Idealize.ShloMosaic.Lib.ValueIdx
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx Cert.Spec

/-- The index (R, C) as the three row sums spell it. -/
theorem idx31_eq (R C : Fin 8192) : idx_main_v31 (ix1 R) C = ix2 R C := funext fun a => by
  match a with
  | ⟨0, _⟩ => rfl
  | ⟨1, _⟩ => rfl

theorem idx36_eq (R C : Fin 8192) : idx_main_v36 (ix1 R) C = ix2 R C := funext fun a => by
  match a with
  | ⟨0, _⟩ => rfl
  | ⟨1, _⟩ => rfl

theorem idx38_eq (R C : Fin 8192) : idx_main_v38 (ix1 R) C = ix2 R C := funext fun a => by
  match a with
  | ⟨0, _⟩ => rfl
  | ⟨1, _⟩ => rfl

/-- The denominator at row R: the sum over the columns other than R of exp (sim − max). -/
theorem den_apply (x0 : (⟨S8192x256, .f32⟩ : BufTy).Contents (Elt Ideal)) (x1 : (⟨S8192, .i32⟩ : BufTy).Contents (Elt Ideal))
    (R : Fin 8192) :
    val_main_v31 (F := Ideal) x0 x1 (ix1 R) = den (normalize (featOf x0)) R := by
  rw [val_main_v31_apply, val_main_cst_3_apply, Ideal.ofBits_def, ofBits_zero, zero_add]
  unfold den
  refine Finset.sum_congr rfl fun C _ => ?_
  rw [idx31_eq, val_main_v30_apply, val_main_v28_apply, shifted_apply, denMask_apply]
  simp only [Ideal.mulf_def, Ideal.hostUnary_exp_def]
  by_cases h : C = R
  · rw [if_pos h, if_pos h, mul_zero]
  · rw [if_neg h, if_neg h, mul_one]

/-- The number of positives of row R. -/
theorem npos_apply (x1 : (⟨S8192, .i32⟩ : BufTy).Contents (Elt Ideal)) (R : Fin 8192) :
    val_main_v36 (F := Ideal) x1 (ix1 R) = npos (labOf x1) R := by
  rw [val_main_v36_apply, val_main_cst_4_apply, Ideal.ofBits_def, ofBits_zero, zero_add]
  unfold npos
  refine Finset.sum_congr rfl fun C _ => ?_
  rw [idx36_eq, posMask_apply]

/-- The sum over the positives of row R of sim − max − log (denominator). -/
theorem rowSumRef_apply (x0 : (⟨S8192x256, .f32⟩ : BufTy).Contents (Elt Ideal))
    (x1 : (⟨S8192, .i32⟩ : BufTy).Contents (Elt Ideal)) (R : Fin 8192) :
    val_main_v38 (F := Ideal) x0 x1 (ix1 R) = rowSumRef (normalize (featOf x0)) (labOf x1) R := by
  rw [val_main_v38_apply, val_main_cst_5_apply, Ideal.ofBits_def, ofBits_zero, zero_add]
  unfold rowSumRef
  refine Finset.sum_congr rfl fun C _ => ?_
  rw [idx38_eq, val_main_v37_apply, val_main_v35_apply, shifted_apply, val_main_v34_apply, val_main_v33_apply,
    val_main_v32_apply, posMask_apply]
  have e : idx_main_v32 (idx_main_v34 (ix2 R C)) = ix1 R := funext fun a => by
    match a with
    | ⟨0, _⟩ => rfl
  rw [e, den_apply]
  rfl

/-- A strict comparison against 0 as a bit. -/
theorem cmp_ogt_zero (a : EReal) : Ideal.cmp .ogt a 0 = if 0 < a then 1#1 else 0#1 := by
  by_cases h : 0 < a <;> simp [Ideal.cmp, h]

/-- The per-row mean of row R. -/
theorem perRow_apply (x0 : (⟨S8192x256, .f32⟩ : BufTy).Contents (Elt Ideal))
    (x1 : (⟨S8192, .i32⟩ : BufTy).Contents (Elt Ideal)) (R : Fin 8192) :
    val_main_v44 (F := Ideal) x0 x1 (ix1 R)
      = perRowOf (rowSumRef (normalize (featOf x0)) (labOf x1)) (labOf x1) R := by
  rw [val_main_v44_apply, val_main_v40_apply, val_main_v43_apply, val_main_v42_apply, val_main_v39_apply,
    val_main_v41_apply, val_main_call1_v1_apply, val_main_call1_v0_apply, val_main_cst_6_apply, val_main_cst_7_apply,
    val_main_cst_8_apply, npos_apply, rowSumRef_apply]
  simp only [Ideal.ofBits_def, ofBits_zero, ofBits_one, Ideal.cmpf_def, Ideal.hostDivf_def, Ideal.maximumf_def,
    cmp_ogt_zero]
  unfold perRowOf
  by_cases h : 0 < npos (labOf x1) R
  · rw [if_pos h, if_pos h, select_one]
  · rw [if_neg h, if_neg h, select_zero]

/-- The validity bit of row R: whether it has a positive. -/
theorem validBit_apply (x1 : (⟨S8192, .i32⟩ : BufTy).Contents (Elt Ideal)) (R : Fin 8192) :
    val_main_v40 (F := Ideal) x1 (ix1 R) = if 0 < npos (labOf x1) R then 1#1 else 0#1 := by
  rw [val_main_v40_apply, val_main_v39_apply, val_main_cst_6_apply, npos_apply]
  simp only [Ideal.ofBits_def, ofBits_zero, Ideal.cmpf_def, cmp_ogt_zero]

end Cert.RefSpec

end
-- ==== Proof.RefSpecCount.lean ====
/- Counting with 0/1 indicators: a sum of extended-real indicators is the number of indices where the predicate
   holds, and so is the signed reading of a wrapping 32-bit sum of integer indicators over fewer than 2³¹ indices. -/
import Idealize.ShloMosaic.PureOps.Ideal
import Idealize.ShloMosaic.PureOps.Reduce
import Mathlib.Data.BitVec

noncomputable section

namespace Cert.RefSpec

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of 0/1 indicators on the extended reals is the number of indices where the predicate holds. -/
theorem sum_indicator {n : Nat} (p : Fin n → Prop) [DecidablePred p] :
    (∑ R : Fin n, if p R then (1 : EReal) else 0) = (((Finset.univ.filter p).card : ℝ) : EReal) := by
  have h : ∀ R : Fin n, (if p R then (1 : EReal) else 0) = (((if p R then 1 else 0 : ℝ)) : EReal) := fun R => by
    by_cases hp : p R
    · rw [if_pos hp, if_pos hp, EReal.coe_one]
    · rw [if_neg hp, if_neg hp, EReal.coe_zero]
  rw [Finset.sum_congr rfl fun R _ => h R, ← coe_sum, Finset.sum_boole]

/-- A wrapping 32-bit sum of 0/1 indicators over fewer than 2³¹ indices, read signed, is the same number: the sum
    does not wrap. -/
theorem sum_count {n : Nat} (hn : n < 2 ^ 31) (p : Fin n → Prop) [DecidablePred p] :
    (∑ R : Fin n, (if p R then (1 : BitVec 32) else 0)).toInt = ((Finset.univ.filter p).card : Int) := by
  rw [Finset.sum_boole, BitVec.natCast_eq_ofNat]
  have hc : (Finset.univ.filter p).card ≤ n := (Finset.card_filter_le _ _).trans (by simp)
  rw [BitVec.toInt_eq_toNat_cond, BitVec.toNat_ofNat]
  have : (Finset.univ.filter p).card % 2 ^ 32 = (Finset.univ.filter p).card := Nat.mod_eq_of_lt (by omega)
  rw [this, if_pos (by omega)]

end Cert.RefSpec

end
-- ==== Proof.RefSpec.lean ====
/- The reference program computes the specification's loss: the scalar tail (the sum of the per-row means, the count
   of valid rows as an integer sum converted to float, the quotient and the factor 1/2), and the statement itself. -/
import proofs.«129543_j5634997093327_1_alg».proof.Proof.RefRun
import proofs.«129543_j5634997093327_1_alg».proof.Proof.Spec
import proofs.«129543_j5634997093327_1_alg».proof.Proof.RefSpecConsts
import proofs.«129543_j5634997093327_1_alg».proof.Proof.RefSpecRow
import proofs.«129543_j5634997093327_1_alg».proof.Proof.RefSpecCount
import Idealize.ShloMosaic.Lib.ValueIdx
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx Cert.Spec

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of the per-row means. -/
theorem sumPerRow_apply (x0 : (⟨S8192x256, .f32⟩ : BufTy).Contents (Elt Ideal))
    (x1 : (⟨S8192, .i32⟩ : BufTy).Contents (Elt Ideal)) (i : S_.Idx) :
    val_main_v45 (F := Ideal) x0 x1 i
      = ∑ R : Fin 8192, perRowOf (rowSumRef (normalize (featOf x0)) (labOf x1)) (labOf x1) R := by
  rw [val_main_v45_apply, val_main_cst_9_apply, Ideal.ofBits_def, ofBits_zero, zero_add]
  refine (sum_idx1 _).trans ?_
  exact Finset.sum_congr rfl fun R _ => perRow_apply x0 x1 R

/-- An integer add-reduce of 0/1 indicator words over the 8192 rows, from 0, converted to float: the sum of the
    extended-real indicators (8192 < 2³¹, so the integer sum does not wrap). -/
theorem reduceCount (b : IVec S8192 32) (p : Fin 8192 → Prop) [DecidablePred p]
    (hb : ∀ R, b (ix1 R) = if p R then 1#32 else 0#32)
    (h' : S8192.ReducesTo [0] S_) (hu : 0 < S_.numel) (j : S_.Idx) :
    FloatOps.sitofp (F := Ideal) .f32 (Host.reduce IntOp.addi b (constantI S_ 32 0#32) h' hu j)
      = ∑ R : Fin 8192, if p R then (1 : EReal) else 0 := by
  rw [Host.reduce_eq_fold IntOp.addi b _ h' hu, Finset.filter_true_of_mem (fun i _ => funext fun a => a.elim0)]
  have hsum : (Finset.univ : Finset S8192.Idx).fold IntOp.addi (constantI S_ 32 0#32 (Shape.Idx.first hu)) b
      = ∑ R : Fin 8192, (if p R then (1 : BitVec 32) else 0) := by
    refine Eq.trans ?_ ((sum_idx1 b).trans (Finset.sum_congr rfl fun R _ => hb R))
    rw [Finset.sum_eq_fold]
    rfl
  rw [hsum]
  show (((∑ R : Fin 8192, (if p R then (1 : BitVec 32) else 0)).toInt : ℝ) : EReal) = _
  rw [sum_count (by norm_num) p, sum_indicator, Int.cast_natCast]

/-- The number of valid rows, as the reference computes it. -/
theorem validCount_apply (x1 : (⟨S8192, .i32⟩ : BufTy).Contents (Elt Ideal)) (i : S_.Idx) :
    val_main_v49 (F := Ideal) x1 i = ∑ R : Fin 8192, valid (labOf x1) R := by
  rw [val_main_v49_apply]
  unfold val_main_v48
  refine (reduceCount _ (fun R => 0 < npos (labOf x1) R) (fun R => ?_) reducesTo_S8192_S_d0 h_S_ i).trans ?_
  · rw [val_main_v47_apply, validBit_apply]
    by_cases h : 0 < npos (labOf x1) R
    · rw [if_pos h, if_pos h]; rfl
    · rw [if_neg h, if_neg h]; rfl
  · rfl

/-- THE REFERENCE COMPUTES THE SPECIFICATION'S LOSS. -/
theorem ref_is_lossRef (x0 : (⟨S8192x256, .f32⟩ : BufTy).Contents (Elt Ideal))
    (x1 : (⟨S8192, .i32⟩ : BufTy).Contents (Elt Ideal)) (i : S_.Idx) :
    Cert.ReferenceIdeal.ReadP.val_main_v52 (F := Ideal) x0 x1 i
      = Cert.Spec.lossRef (fun R k => x0 (ValueIdx.ix2 R k)) (fun R => x1 (ValueIdx.ix1 R)) := by
  rw [val_main_v52_apply, val_main_v51_apply, val_main_v50_apply, val_main_v46_apply, val_main_cst_12_apply,
    val_main_cst_11_apply, sumPerRow_apply, validCount_apply]
  simp only [Ideal.ofBits_def, ofBits_half, ofBits_one, Ideal.mulf_def, Ideal.hostDivf_def, Ideal.maximumf_def,
    Ideal.hostNegf_def, Ideal.negf_def]
  rfl

end Cert.RefSpec

end
-- ==== Proof.RefValue.lean ====
/- The reference's result is the specification's loss of its arguments, under the precondition.

   The reference computes the term-by-term form of the loss of the features and labels it is launched with.
   The precondition makes every feature a real number and no row all zeros, so the normalized features are
   real and the term-by-term and grouped forms of the per-row sums agree. -/
import proofs.«129543_j5634997093327_1_alg».proof.Proof.RefSpec
import proofs.«129543_j5634997093327_1_alg».proof.Proof.SpecLaws
import proofs.«129543_j5634997093327_1_alg».proof.Proof.PreReal

noncomputable section

namespace Cert.RefValue

open Idealize.ShloMosaic Idealize.ShloMosaic.ValueIdx Idealize.ShloMosaic.TcCoe Idealize.SL.Sem
open Cert.ReferenceIdeal

variable [Cert.Pre_finite_inputs.Facts]

theorem ref_value (m' : (ℓ : Loc nD τ sig) → Buf (Elt Ideal) ℓ) (c : Dev nD)
    (h : Cert.Pre_finite_inputs.fn (F := Ideal) (m' ((c.tc : Thread nD τ).loc main_arg0))
          (m' ((c.tc : Thread nD τ).loc main_arg1)) = fun _ => 1#1) :
    Cert.ReferenceIdeal.ValueP.res_main_v52 m' c
      = fun _ => Cert.Spec.loss (fun R k => m' ((c.tc : Thread nD τ).loc main_arg0) (ix2 R k))
          (fun R => m' ((c.tc : Thread nD τ).loc main_arg1) (ix1 R)) := by
  obtain ⟨hreal, hnz⟩ := Cert.PreReal.pre_real _ _ h
  funext i
  rw [Cert.ReferenceIdeal.ReadP.val_main_v52_eq, Cert.RefSpec.ref_is_lossRef]
  exact Cert.SpecLaws.lossRef_eq_loss _ _ (fun R k => hreal (ix2 R k)) hnz

end Cert.RefValue

end
-- ==== Proof.lean ====
/- The certificate of the supervised-contrastive-loss kernel against its reference.

   The kernel sweeps, per block of 1024 rows, the 8192 columns of the similarity matrix in 32 blocks of 256,
   carrying a running maximum, a running denominator rescaled at every block, the running sum of the positive
   logits and the running count of positives; the reference computes the row maximum, the denominator and the
   sum of the log-probabilities of the positives directly. Both end at the same loss of the features and labels:
   the online rescaling telescopes (exp(a)·exp(b) = exp(a+b) on the reals), and the sum over the positives of
   logit − max − log(denominator) is the grouped form the kernel computes, by distributivity on the reals. The
   precondition keeps every feature finite and every row of the features away from the zero vector, so that the
   normalized features, hence every logit, are real numbers.

   The frames: the kernel's body is run once per control case (first column block, last column block, neither) on
   symbolic operands; the four carried columns ride the region's invariant from point to point; the array of
   normalized features, read through two windows, is held at the two halves of the full share inside the region and
   whole outside it. The reference is a host program: its run is read back operation by operation. -/
import proofs.«129543_j5634997093327_1_alg».proof.Defs
import proofs.«129543_j5634997093327_1_alg».proof.Proof.Gen.Kernel
import proofs.«129543_j5634997093327_1_alg».proof.Proof.Gen.KernelIdeal
import proofs.«129543_j5634997093327_1_alg».proof.Proof.Gen.ReferenceIdeal
import proofs.«129543_j5634997093327_1_alg».proof.Proof.Gen.Pre_finite_inputs
import proofs.«129543_j5634997093327_1_alg».proof.Proof.FrLaunchK
import proofs.«129543_j5634997093327_1_alg».proof.Proof.FrLaunchI
import proofs.«129543_j5634997093327_1_alg».proof.Proof.KernelValue
import proofs.«129543_j5634997093327_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read at the extended reals. -/
theorem preserves : Cert.preserves_Kernel_KernelIdeal := trivial

/-- From memories agreeing on the arguments both programs end at the loss of those arguments. -/
theorem algebraic : Cert.algebraic_KernelIdeal_ReferenceIdeal := by
  intro m ρ m' ρ' hpre hagree
  refine ⟨fun c => fun _ => Cert.Spec.loss (fun R k => m ((c.tc : Thread Cert.KernelIdeal.nD Cert.KernelIdeal.τ).loc Cert.KernelIdeal.main_arg0) (ValueIdx.ix2 R k))
      (fun R => m ((c.tc : Thread Cert.KernelIdeal.nD Cert.KernelIdeal.τ).loc Cert.KernelIdeal.main_arg1) (ValueIdx.ix1 R)), ?_, ?_⟩
  · exact (θ_run Cert.KernelIdeal.defs _ _).mono
      (fun r h c => ⟨(h c).1.trans (Cert.KernelIdeal.Fr.kernel_value m c (hpre c)), (h c).2⟩) (Cert.KernelIdeal.Fr.run_value (F := Ideal) m ρ)
  · refine (θ_run Cert.ReferenceIdeal.defs _ _).mono (fun r h c => ⟨(h c).1.trans ?_, (h c).2⟩)
      (Cert.ReferenceIdeal.ValueP.run (F := Ideal) m' ρ')
    have hp : Cert.Pre_finite_inputs.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = fun _ => 1#1 := by
      rw [(hagree c).1, (hagree c).2]; exact hpre c
    rw [Cert.RefValue.ref_value m' c hp, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
